-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v68)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v68) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg8 : FVec F S64 .f32) (main_arg9 : FVec F S64 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  main_v43

def fn_part1 {F : FTy → Type} [FloatOps F] (main_arg5 : FVec F S128 .f32) (main_arg6 : FVec F S128x64 .f32) (main_arg7 : FVec F S64 .f32) (main_arg8 : FVec F S64 .f32) (main_arg9 : FVec F S64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x64 .f32 := Host.absf main_arg6
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_v33

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128 .f32) (main_arg6 : FVec F S128x64 .f32) (main_arg7 : FVec F S64 .f32) (main_arg8 : FVec F S64 .f32) (main_arg9 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S10000x128 : Shape := ⟨2, ![10000, 128]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩
abbrev S100000x64 : Shape := ⟨2, ![100000, 64]⟩
abbrev S10000x64 : Shape := ⟨2, ![10000, 64]⟩
abbrev S1600000x64 : Shape := ⟨2, ![1600000, 64]⟩
abbrev S1x64 : Shape := ⟨2, ![1, 64]⟩

abbrev nBuf : Space → Nat
  | .hbm => 117
  | .vmem => 23
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x64, .f32⟩
  | .hbm, ⟨7, _⟩ => ⟨S64, .f32⟩
  | .hbm, ⟨8, _⟩ => ⟨S64, .f32⟩
  | .hbm, ⟨9, _⟩ => ⟨S64, .f32⟩
  | .hbm, ⟨10, _⟩ => ⟨S1x1600000, .i32⟩
  | .hbm, ⟨11, _⟩ => ⟨S1600000, .i32⟩
  | .hbm, ⟨12, _⟩ => ⟨S1x1600000, .i32⟩
  | .hbm, ⟨13, _⟩ => ⟨S1600000, .i32⟩
  | .hbm, ⟨14, _⟩ => ⟨S100000x128, .bf16⟩
  | .hbm, ⟨15, _⟩ => ⟨S_, .i32⟩
  | .hbm, ⟨16, _⟩ => ⟨S1600000, .i32⟩
  | .hbm, ⟨17, _⟩ => ⟨S1600000, .i1⟩
  | .hbm, ⟨18, _⟩ => ⟨S_, .i32⟩
  | .hbm, ⟨19, _⟩ => ⟨S1600000, .i32⟩
  | .hbm, ⟨20, _⟩ => ⟨S1600000, .i32⟩
  | .hbm, ⟨21, _⟩ => ⟨S1600000, .i32⟩
  | .hbm, ⟨22, _⟩ => ⟨S1600000x1, .i32⟩
  | .hbm, ⟨23, _⟩ => ⟨S1600000x128, .bf16⟩
  | .hbm, ⟨24, _⟩ => ⟨S1600000x128, .f32⟩
  | .hbm, ⟨25, _⟩ => ⟨S_, .f32⟩
  | .hbm, ⟨26, _⟩ => ⟨S100000x128, .f32⟩
  | .hbm, ⟨27, _⟩ => ⟨S1600000x1, .i32⟩
  | .hbm, ⟨28, _⟩ => ⟨S100000x128, .f32⟩
  | .hbm, ⟨29, _⟩ => ⟨S100000x128, .f32⟩
  | .hbm, ⟨30, _⟩ => ⟨S100000x128, .f32⟩
  | .hbm, ⟨31, _⟩ => ⟨S1x128, .f32⟩
  | .hbm, ⟨32, _⟩ => ⟨S100000x128, .f32⟩
  | .hbm, ⟨33, _⟩ => ⟨S100000x128, .f32⟩
  | .hbm, ⟨34, _⟩ => ⟨S_, .f32⟩
  | .hbm, ⟨35, _⟩ => ⟨S100000x128, .f32⟩
  | .hbm, ⟨36, _⟩ => ⟨S100000x128, .f32⟩
  | .hbm, ⟨37, _⟩ => ⟨S100000x128, .bf16⟩
  | .hbm, ⟨38, _⟩ => ⟨S_, .i32⟩
  | .hbm, ⟨39, _⟩ => ⟨S1600000, .i32⟩
  | .hbm, ⟨40, _⟩ => ⟨S1600000, .i1⟩
  | .hbm, ⟨41, _⟩ => ⟨S_, .i32⟩
  | .hbm, ⟨42, _⟩ => ⟨S1600000, .i32⟩
  | .hbm, ⟨43, _⟩ => ⟨S1600000, .i32⟩
  | .hbm, ⟨44, _⟩ => ⟨S1600000, .i32⟩
  | .hbm, ⟨45, _⟩ => ⟨S1600000x1, .i32⟩
  | .hbm, ⟨46, _⟩ => ⟨S1600000x128, .bf16⟩
  | .hbm, ⟨47, _⟩ => ⟨S1600000x128, .f32⟩
  | .hbm, ⟨48, _⟩ => ⟨S_, .f32⟩
  | .hbm, ⟨49, _⟩ => ⟨S100000x128, .f32⟩
  | .hbm, ⟨50, _⟩ => ⟨S1600000x1, .i32⟩
  | .hbm, ⟨51, _⟩ => ⟨S100000x128, .f32⟩
  | .hbm, ⟨52, _⟩ => ⟨S100000x128, .f32⟩
  | .hbm, ⟨53, _⟩ => ⟨S100000x128, .f32⟩
  | .hbm, ⟨54, _⟩ => ⟨S1x128, .f32⟩
  | .hbm, ⟨55, _⟩ => ⟨S100000x128, .f32⟩
  | .hbm, ⟨56, _⟩ => ⟨S100000x128, .f32⟩
  | .hbm, ⟨57, _⟩ => ⟨S_, .f32⟩
  | .hbm, ⟨58, _⟩ => ⟨S100000x128, .f32⟩
  | .hbm, ⟨59, _⟩ => ⟨S100000x128, .f32⟩
  | .hbm, ⟨60, _⟩ => ⟨S100000x64, .bf16⟩
  | .hbm, ⟨61, _⟩ => ⟨S_, .i32⟩
  | .hbm, ⟨62, _⟩ => ⟨S1600000, .i32⟩
  | .hbm, ⟨63, _⟩ => ⟨S1600000, .i1⟩
  | .hbm, ⟨64, _⟩ => ⟨S_, .i32⟩
  | .hbm, ⟨65, _⟩ => ⟨S1600000, .i32⟩
  | .hbm, ⟨66, _⟩ => ⟨S1600000, .i32⟩
  | .hbm, ⟨67, _⟩ => ⟨S1600000, .i32⟩
  | .hbm, ⟨68, _⟩ => ⟨S1600000x1, .i32⟩
  | .hbm, ⟨69, _⟩ => ⟨S1600000x64, .bf16⟩
  | .hbm, ⟨70, _⟩ => ⟨S1600000x64, .f32⟩
  | .hbm, ⟨71, _⟩ => ⟨S_, .f32⟩
  | .hbm, ⟨72, _⟩ => ⟨S100000x64, .f32⟩
  | .hbm, ⟨73, _⟩ => ⟨S1600000x1, .i32⟩
  | .hbm, ⟨74, _⟩ => ⟨S100000x64, .f32⟩
  | .hbm, ⟨75, _⟩ => ⟨S100000x64, .f32⟩
  | .hbm, ⟨76, _⟩ => ⟨S100000x64, .f32⟩
  | .hbm, ⟨77, _⟩ => ⟨S1x64, .f32⟩
  | .hbm, ⟨78, _⟩ => ⟨S100000x64, .f32⟩
  | .hbm, ⟨79, _⟩ => ⟨S100000x64, .f32⟩
  | .hbm, ⟨80, _⟩ => ⟨S_, .f32⟩
  | .hbm, ⟨81, _⟩ => ⟨S64, .f32⟩
  | .hbm, ⟨82, _⟩ => ⟨S_, .f32⟩
  | .hbm, ⟨83, _⟩ => ⟨S64, .f32⟩
  | .hbm, ⟨84, _⟩ => ⟨S64, .f32⟩
  | .hbm, ⟨85, _⟩ => ⟨S_, .i32⟩
  | .hbm, ⟨86, _⟩ => ⟨S_, .f32⟩
  | .hbm, ⟨87, _⟩ => ⟨S64, .f32⟩
  | .hbm, ⟨88, _⟩ => ⟨S1x64, .f32⟩
  | .hbm, ⟨89, _⟩ => ⟨S_, .f32⟩
  | .hbm, ⟨90, _⟩ => ⟨S1x64, .f32⟩
  | .hbm, ⟨91, _⟩ => ⟨S1x64, .f32⟩
  | .hbm, ⟨92, _⟩ => ⟨S100000x64, .f32⟩
  | .hbm, ⟨93, _⟩ => ⟨S100000x64, .f32⟩
  | .hbm, ⟨94, _⟩ => ⟨S100000x64, .f32⟩
  | .hbm, ⟨95, _⟩ => ⟨S_, .f32⟩
  | .hbm, ⟨96, _⟩ => ⟨S_, .f32⟩
  | .hbm, ⟨97, _⟩ => ⟨S_, .f32⟩
  | .hbm, ⟨98, _⟩ => ⟨S_, .f32⟩
  | .hbm, ⟨99, _⟩ => ⟨S64, .f32⟩
  | .hbm, ⟨100, _⟩ => ⟨S64, .f32⟩
  | .hbm, ⟨101, _⟩ => ⟨S64, .f32⟩
  | .hbm, ⟨102, _⟩ => ⟨S_, .f32⟩
  | .hbm, ⟨103, _⟩ => ⟨S_, .i1⟩
  | .hbm, ⟨104, _⟩ => ⟨S_, .f32⟩
  | .hbm, ⟨105, _⟩ => ⟨S_, .f32⟩
  | .hbm, ⟨106, _⟩ => ⟨S64, .f32⟩
  | .hbm, ⟨107, _⟩ => ⟨S64, .f32⟩
  | .hbm, ⟨108, _⟩ => ⟨S_, .f32⟩
  | .hbm, ⟨109, _⟩ => ⟨S64, .f32⟩
  | .hbm, ⟨110, _⟩ => ⟨S64, .f32⟩
  | .hbm, ⟨111, _⟩ => ⟨S64, .f32⟩
  | .hbm, ⟨112, _⟩ => ⟨S1x64, .f32⟩
  | .hbm, ⟨113, _⟩ => ⟨S1x64, .f32⟩
  | .hbm, ⟨114, _⟩ => ⟨S1x64, .f32⟩
  | .hbm, ⟨115, _⟩ => ⟨S1x64, .f32⟩
  | .hbm, ⟨116, _⟩ => ⟨S100000x64, .f32⟩
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S10000x128, .bf16⟩
  | .local _ .vmem, ⟨4, _⟩ => ⟨S10000x128, .bf16⟩
  | .local _ .vmem, ⟨5, _⟩ => ⟨S10000x128, .f32⟩
  | .local _ .vmem, ⟨6, _⟩ => ⟨S10000x128, .f32⟩
  | .local _ .vmem, ⟨7, _⟩ => ⟨S128x128, .f32⟩
  | .local _ .vmem, ⟨8, _⟩ => ⟨S10000x128, .bf16⟩
  | .local _ .vmem, ⟨9, _⟩ => ⟨S10000x128, .bf16⟩
  | .local _ .vmem, ⟨10, _⟩ => ⟨S10000x128, .f32⟩
  | .local _ .vmem, ⟨11, _⟩ => ⟨S10000x128, .f32⟩
  | .local _ .vmem, ⟨12, _⟩ => ⟨S128x64, .f32⟩
  | .local _ .vmem, ⟨13, _⟩ => ⟨S10000x64, .bf16⟩
  | .local _ .vmem, ⟨14, _⟩ => ⟨S10000x64, .bf16⟩
  | .local _ .vmem, ⟨15, _⟩ => ⟨S10000x64, .f32⟩
  | .local _ .vmem, ⟨16, _⟩ => ⟨S10000x64, .f32⟩
  | .local _ .vmem, ⟨17, _⟩ => ⟨S1x64, .f32⟩
  | .local _ .vmem, ⟨18, _⟩ => ⟨S1x64, .f32⟩
  | .local _ .vmem, ⟨19, _⟩ => ⟨S1x64, .f32⟩
  | .local _ .vmem, ⟨20, _⟩ => ⟨S1x64, .f32⟩
  | .local _ .vmem, ⟨21, _⟩ => ⟨S10000x64, .f32⟩
  | .local _ .vmem, ⟨22, _⟩ => ⟨S10000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_c : Ref sig .tc := ⟨.hbm, 15, rfl⟩
abbrev main_v5 : Ref sig .tc := ⟨.hbm, 16, rfl⟩
abbrev main_v6 : Ref sig .tc := ⟨.hbm, 17, rfl⟩
abbrev main_c_0 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_call0_cst : Ref sig .tc := ⟨.hbm, 34, rfl⟩
abbrev main_call0_v0 : Ref sig .tc := ⟨.hbm, 35, rfl⟩
abbrev main_v21 : Ref sig .tc := ⟨.hbm, 36, rfl⟩
abbrev main_v22 : Ref sig .tc := ⟨.hbm, 37, rfl⟩
abbrev main_c_1 : Ref sig .tc := ⟨.hbm, 38, rfl⟩
abbrev main_v23 : Ref sig .tc := ⟨.hbm, 39, rfl⟩
abbrev main_v24 : Ref sig .tc := ⟨.hbm, 40, rfl⟩
abbrev main_c_2 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_3 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_call1_cst : Ref sig .tc := ⟨.hbm, 57, rfl⟩
abbrev main_call1_v0 : Ref sig .tc := ⟨.hbm, 58, rfl⟩
abbrev main_v39 : Ref sig .tc := ⟨.hbm, 59, rfl⟩
abbrev main_v40 : Ref sig .tc := ⟨.hbm, 60, rfl⟩
abbrev main_c_4 : Ref sig .tc := ⟨.hbm, 61, rfl⟩
abbrev main_v41 : Ref sig .tc := ⟨.hbm, 62, rfl⟩
abbrev main_v42 : Ref sig .tc := ⟨.hbm, 63, rfl⟩
abbrev main_c_5 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_cst_6 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_cst_7 : Ref sig .tc := ⟨.hbm, 80, rfl⟩
abbrev main_v57 : Ref sig .tc := ⟨.hbm, 81, rfl⟩
abbrev main_cst_8 : Ref sig .tc := ⟨.hbm, 82, rfl⟩
abbrev main_v58 : Ref sig .tc := ⟨.hbm, 83, rfl⟩
abbrev main_v59 : Ref sig .tc := ⟨.hbm, 84, rfl⟩
abbrev main_c_9 : Ref sig .tc := ⟨.hbm, 85, rfl⟩
abbrev main_call2_cst : Ref sig .tc := ⟨.hbm, 86, rfl⟩
abbrev main_call2_v0 : Ref sig .tc := ⟨.hbm, 87, rfl⟩
abbrev main_call2_v1 : Ref sig .tc := ⟨.hbm, 88, rfl⟩
abbrev main_call2_cst_0 : Ref sig .tc := ⟨.hbm, 89, rfl⟩
abbrev main_call2_v2 : Ref sig .tc := ⟨.hbm, 90, rfl⟩
abbrev main_call2_v3 : Ref sig .tc := ⟨.hbm, 91, rfl⟩
abbrev main_call2_v4 : Ref sig .tc := ⟨.hbm, 92, rfl⟩
abbrev main_call2_v5 : Ref sig .tc := ⟨.hbm, 93, rfl⟩
abbrev main_call2_v6 : Ref sig .tc := ⟨.hbm, 94, rfl⟩
abbrev main_call2_v7 : Ref sig .tc := ⟨.hbm, 95, rfl⟩
abbrev main_call2_cst_1 : Ref sig .tc := ⟨.hbm, 96, rfl⟩
abbrev main_call2_v8 : Ref sig .tc := ⟨.hbm, 97, rfl⟩
abbrev main_call2_cst_2 : Ref sig .tc := ⟨.hbm, 98, rfl⟩
abbrev main_call2_v9 : Ref sig .tc := ⟨.hbm, 99, rfl⟩
abbrev main_call2_v10 : Ref sig .tc := ⟨.hbm, 100, rfl⟩
abbrev main_call2_v11 : Ref sig .tc := ⟨.hbm, 101, rfl⟩
abbrev main_call2_cst_3 : Ref sig .tc := ⟨.hbm, 102, rfl⟩
abbrev main_call2_v12 : Ref sig .tc := ⟨.hbm, 103, rfl⟩
abbrev main_call2_cst_4 : Ref sig .tc := ⟨.hbm, 104, rfl⟩
abbrev main_call2_call0_v0 : Ref sig .tc := ⟨.hbm, 105, rfl⟩
abbrev main_call2_call0_v1 : Ref sig .tc := ⟨.hbm, 106, rfl⟩
abbrev main_v60 : Ref sig .tc := ⟨.hbm, 107, rfl⟩
abbrev main_cst_10 : Ref sig .tc := ⟨.hbm, 108, rfl⟩
abbrev main_v61 : Ref sig .tc := ⟨.hbm, 109, rfl⟩
abbrev main_v62 : Ref sig .tc := ⟨.hbm, 110, rfl⟩
abbrev main_v63 : Ref sig .tc := ⟨.hbm, 111, rfl⟩
abbrev main_v64 : Ref sig .tc := ⟨.hbm, 112, rfl⟩
abbrev main_v65 : Ref sig .tc := ⟨.hbm, 113, rfl⟩
abbrev main_v66 : Ref sig .tc := ⟨.hbm, 114, rfl⟩
abbrev main_v67 : Ref sig .tc := ⟨.hbm, 115, rfl⟩
abbrev main_v68 : Ref sig .tc := ⟨.hbm, 116, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg3_0 : Ref sig .tc := ⟨.vmem, 19, rfl⟩
abbrev cc3_stg4_0 : Ref sig .tc := ⟨.vmem, 20, rfl⟩
abbrev cc3_stg5_0 : Ref sig .tc := ⟨.vmem, 21, rfl⟩
abbrev cc3_stg5_1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem3_0 : DmaSem sig := 19
abbrev cc3_sem4_0 : DmaSem sig := 20
abbrev cc3_sem5_0 : DmaSem sig := 21
abbrev cc3_sem5_1 : DmaSem sig := 22

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x64 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S10000x64 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  packedbf16_S10000x128_S10000x128_0_0 : (Rect.unit (s := S10000x128) ![0, 0] S10000x128.size inb_S10000x128_S10000x128_0_0).PackedRows (EltTy.packing .bf16)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  shapeCasts_S10000x128_S10000x128 : S10000x128.ShapeCasts S10000x128
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  packedbf16_S10000x64_S10000x64_0_0 : (Rect.unit (s := S10000x64) ![0, 0] S10000x64.size inb_S10000x64_S10000x64_0_0).PackedRows (EltTy.packing .bf16)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S64_d0 : S100000x64.ReducesTo [0] S64
  h_S_ : 0 < S_.numel
  bcast_S_S64 : S_.BroadcastsInDim S64 (![] : Fin 0 → Fin S64.rank)
  bcast_S_S1x64 : S_.BroadcastsInDim S1x64 (![] : Fin 0 → Fin S1x64.rank)
  shapeCasts_S64_S1x64 : S64.ShapeCasts S1x64
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  dot_S10000x128_S128x128_S10000x128_1_0_0_1_n_n_wf : DotDims.WF S10000x128 S128x128 S10000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S10000x128_S128x64_S10000x64_1_0_0_1_n_n_wf : DotDims.WF S10000x128 S128x64 S10000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S100000x128.size a
  hwx0_2 : ∀ i : grid0.Coords, EltTy.bits .bf16 = 32 ∨ (Rect.block (s := S100000x128) S10000x128.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x128.size a ≤ S100000x128.size a
  hwx1_2 : ∀ i : grid1.Coords, EltTy.bits .bf16 = 32 ∨ (Rect.block (s := S100000x128) S10000x128.size (cc1_transform_2 i) (hinb1_2 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S100000x128.size a
  hwx2_0 : ∀ i : grid2.Coords, EltTy.bits .f32 = 32 ∨ (Rect.block (s := S100000x128) S10000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x64.size a ≤ S100000x64.size a
  hwx2_2 : ∀ i : grid2.Coords, EltTy.bits .bf16 = 32 ∨ (Rect.block (s := S100000x64) S10000x64.size (cc2_transform_2 i) (hinb2_2 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x64.size a ≤ S1x64.size a
  hwx3_4 : ∀ i : grid3.Coords, EltTy.bits .f32 = 32 ∨ (Rect.block (s := S1x64) S1x64.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S10000x64.size a ≤ S100000x64.size a
  hwx3_5 : ∀ i : grid3.Coords, EltTy.bits .f32 = 32 ∨ (Rect.block (s := S100000x64) S10000x64.size (cc3_transform_5 i) (hinb3_5 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v21) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v22) S10000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v39) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v40) S10000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v56) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v64) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v65) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v66) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v67) S1x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v68) S10000x64.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩
abbrev S100000x64 : Shape := ⟨2, ![100000, 64]⟩
abbrev S1x64 : Shape := ⟨2, ![1, 64]⟩

abbrev nBuf : Space → Nat
  | .hbm => 118
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x64, .f32⟩
  | .hbm, ⟨7, _⟩ => ⟨S64, .f32⟩
  | .hbm, ⟨8, _⟩ => ⟨S64, .f32⟩
  | .hbm, ⟨9, _⟩ => ⟨S64, .f32⟩
  | .hbm, ⟨10, _⟩ => ⟨S1x1600000, .i32⟩
  | .hbm, ⟨11, _⟩ => ⟨S1600000, .i32⟩
  | .hbm, ⟨12, _⟩ => ⟨S1x1600000, .i32⟩
  | .hbm, ⟨13, _⟩ => ⟨S1600000, .i32⟩
  | .hbm, ⟨14, _⟩ => ⟨S_, .i32⟩
  | .hbm, ⟨15, _⟩ => ⟨S1600000, .i32⟩
  | .hbm, ⟨16, _⟩ => ⟨S1600000, .i1⟩
  | .hbm, ⟨17, _⟩ => ⟨S_, .i32⟩
  | .hbm, ⟨18, _⟩ => ⟨S1600000, .i32⟩
  | .hbm, ⟨19, _⟩ => ⟨S1600000, .i32⟩
  | .hbm, ⟨20, _⟩ => ⟨S1600000, .i32⟩
  | .hbm, ⟨21, _⟩ => ⟨S1600000x1, .i32⟩
  | .hbm, ⟨22, _⟩ => ⟨S1600000x128, .f32⟩
  | .hbm, ⟨23, _⟩ => ⟨S_, .f32⟩
  | .hbm, ⟨24, _⟩ => ⟨S100000x128, .f32⟩
  | .hbm, ⟨25, _⟩ => ⟨S1600000x1, .i32⟩
  | .hbm, ⟨26, _⟩ => ⟨S100000x128, .f32⟩
  | .hbm, ⟨27, _⟩ => ⟨S100000x128, .f32⟩
  | .hbm, ⟨28, _⟩ => ⟨S100000x128, .f32⟩
  | .hbm, ⟨29, _⟩ => ⟨S1x128, .f32⟩
  | .hbm, ⟨30, _⟩ => ⟨S100000x128, .f32⟩
  | .hbm, ⟨31, _⟩ => ⟨S100000x128, .f32⟩
  | .hbm, ⟨32, _⟩ => ⟨S_, .f32⟩
  | .hbm, ⟨33, _⟩ => ⟨S100000x128, .f32⟩
  | .hbm, ⟨34, _⟩ => ⟨S100000x128, .f32⟩
  | .hbm, ⟨35, _⟩ => ⟨S_, .i32⟩
  | .hbm, ⟨36, _⟩ => ⟨S1600000, .i32⟩
  | .hbm, ⟨37, _⟩ => ⟨S1600000, .i1⟩
  | .hbm, ⟨38, _⟩ => ⟨S_, .i32⟩
  | .hbm, ⟨39, _⟩ => ⟨S1600000, .i32⟩
  | .hbm, ⟨40, _⟩ => ⟨S1600000, .i32⟩
  | .hbm, ⟨41, _⟩ => ⟨S1600000, .i32⟩
  | .hbm, ⟨42, _⟩ => ⟨S1600000x1, .i32⟩
  | .hbm, ⟨43, _⟩ => ⟨S1600000x128, .f32⟩
  | .hbm, ⟨44, _⟩ => ⟨S_, .f32⟩
  | .hbm, ⟨45, _⟩ => ⟨S100000x128, .f32⟩
  | .hbm, ⟨46, _⟩ => ⟨S1600000x1, .i32⟩
  | .hbm, ⟨47, _⟩ => ⟨S100000x128, .f32⟩
  | .hbm, ⟨48, _⟩ => ⟨S100000x128, .f32⟩
  | .hbm, ⟨49, _⟩ => ⟨S100000x128, .f32⟩
  | .hbm, ⟨50, _⟩ => ⟨S1x128, .f32⟩
  | .hbm, ⟨51, _⟩ => ⟨S100000x128, .f32⟩
  | .hbm, ⟨52, _⟩ => ⟨S100000x128, .f32⟩
  | .hbm, ⟨53, _⟩ => ⟨S_, .f32⟩
  | .hbm, ⟨54, _⟩ => ⟨S100000x128, .f32⟩
  | .hbm, ⟨55, _⟩ => ⟨S100000x128, .f32⟩
  | .hbm, ⟨56, _⟩ => ⟨S_, .i32⟩
  | .hbm, ⟨57, _⟩ => ⟨S1600000, .i32⟩
  | .hbm, ⟨58, _⟩ => ⟨S1600000, .i1⟩
  | .hbm, ⟨59, _⟩ => ⟨S_, .i32⟩
  | .hbm, ⟨60, _⟩ => ⟨S1600000, .i32⟩
  | .hbm, ⟨61, _⟩ => ⟨S1600000, .i32⟩
  | .hbm, ⟨62, _⟩ => ⟨S1600000, .i32⟩
  | .hbm, ⟨63, _⟩ => ⟨S1600000x1, .i32⟩
  | .hbm, ⟨64, _⟩ => ⟨S1600000x128, .f32⟩
  | .hbm, ⟨65, _⟩ => ⟨S_, .f32⟩
  | .hbm, ⟨66, _⟩ => ⟨S100000x128, .f32⟩
  | .hbm, ⟨67, _⟩ => ⟨S1600000x1, .i32⟩
  | .hbm, ⟨68, _⟩ => ⟨S100000x128, .f32⟩
  | .hbm, ⟨69, _⟩ => ⟨S100000x128, .f32⟩
  | .hbm, ⟨70, _⟩ => ⟨S100000x64, .f32⟩
  | .hbm, ⟨71, _⟩ => ⟨S1x64, .f32⟩
  | .hbm, ⟨72, _⟩ => ⟨S100000x64, .f32⟩
  | .hbm, ⟨73, _⟩ => ⟨S100000x64, .f32⟩
  | .hbm, ⟨74, _⟩ => ⟨S_, .f32⟩
  | .hbm, ⟨75, _⟩ => ⟨S64, .f32⟩
  | .hbm, ⟨76, _⟩ => ⟨S_, .f32⟩
  | .hbm, ⟨77, _⟩ => ⟨S64, .f32⟩
  | .hbm, ⟨78, _⟩ => ⟨S64, .f32⟩
  | .hbm, ⟨79, _⟩ => ⟨S_, .i32⟩
  | .hbm, ⟨80, _⟩ => ⟨S_, .f32⟩
  | .hbm, ⟨81, _⟩ => ⟨S64, .f32⟩
  | .hbm, ⟨82, _⟩ => ⟨S1x64, .f32⟩
  | .hbm, ⟨83, _⟩ => ⟨S_, .f32⟩
  | .hbm, ⟨84, _⟩ => ⟨S1x64, .f32⟩
  | .hbm, ⟨85, _⟩ => ⟨S1x64, .f32⟩
  | .hbm, ⟨86, _⟩ => ⟨S100000x64, .f32⟩
  | .hbm, ⟨87, _⟩ => ⟨S100000x64, .f32⟩
  | .hbm, ⟨88, _⟩ => ⟨S100000x64, .f32⟩
  | .hbm, ⟨89, _⟩ => ⟨S_, .f32⟩
  | .hbm, ⟨90, _⟩ => ⟨S_, .f32⟩
  | .hbm, ⟨91, _⟩ => ⟨S_, .f32⟩
  | .hbm, ⟨92, _⟩ => ⟨S_, .f32⟩
  | .hbm, ⟨93, _⟩ => ⟨S64, .f32⟩
  | .hbm, ⟨94, _⟩ => ⟨S64, .f32⟩
  | .hbm, ⟨95, _⟩ => ⟨S64, .f32⟩
  | .hbm, ⟨96, _⟩ => ⟨S_, .f32⟩
  | .hbm, ⟨97, _⟩ => ⟨S_, .i1⟩
  | .hbm, ⟨98, _⟩ => ⟨S_, .f32⟩
  | .hbm, ⟨99, _⟩ => ⟨S_, .f32⟩
  | .hbm, ⟨100, _⟩ => ⟨S64, .f32⟩
  | .hbm, ⟨101, _⟩ => ⟨S64, .f32⟩
  | .hbm, ⟨102, _⟩ => ⟨S1x64, .f32⟩
  | .hbm, ⟨103, _⟩ => ⟨S100000x64, .f32⟩
  | .hbm, ⟨104, _⟩ => ⟨S100000x64, .f32⟩
  | .hbm, ⟨105, _⟩ => ⟨S_, .f32⟩
  | .hbm, ⟨106, _⟩ => ⟨S64, .f32⟩
  | .hbm, ⟨107, _⟩ => ⟨S64, .f32⟩
  | .hbm, ⟨108, _⟩ => ⟨S64, .f32⟩
  | .hbm, ⟨109, _⟩ => ⟨S1x64, .f32⟩
  | .hbm, ⟨110, _⟩ => ⟨S100000x64, .f32⟩
  | .hbm, ⟨111, _⟩ => ⟨S100000x64, .f32⟩
  | .hbm, ⟨112, _⟩ => ⟨S1x64, .f32⟩
  | .hbm, ⟨113, _⟩ => ⟨S100000x64, .f32⟩
  | .hbm, ⟨114, _⟩ => ⟨S100000x64, .f32⟩
  | .hbm, ⟨115, _⟩ => ⟨S1x64, .f32⟩
  | .hbm, ⟨116, _⟩ => ⟨S100000x64, .f32⟩
  | .hbm, ⟨117, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_call0_cst : Ref sig .tc := ⟨.hbm, 32, rfl⟩
abbrev main_call0_v0 : Ref sig .tc := ⟨.hbm, 33, rfl⟩
abbrev main_v19 : Ref sig .tc := ⟨.hbm, 34, rfl⟩
abbrev main_c_1 : Ref sig .tc := ⟨.hbm, 35, rfl⟩
abbrev main_v20 : Ref sig .tc := ⟨.hbm, 36, rfl⟩
abbrev main_v21 : Ref sig .tc := ⟨.hbm, 37, rfl⟩
abbrev main_c_2 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_3 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_call1_cst : Ref sig .tc := ⟨.hbm, 53, rfl⟩
abbrev main_call1_v0 : Ref sig .tc := ⟨.hbm, 54, rfl⟩
abbrev main_v35 : Ref sig .tc := ⟨.hbm, 55, rfl⟩
abbrev main_c_4 : Ref sig .tc := ⟨.hbm, 56, rfl⟩
abbrev main_v36 : Ref sig .tc := ⟨.hbm, 57, rfl⟩
abbrev main_v37 : Ref sig .tc := ⟨.hbm, 58, rfl⟩
abbrev main_c_5 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_6 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_cst_7 : Ref sig .tc := ⟨.hbm, 74, rfl⟩
abbrev main_v51 : Ref sig .tc := ⟨.hbm, 75, rfl⟩
abbrev main_cst_8 : Ref sig .tc := ⟨.hbm, 76, rfl⟩
abbrev main_v52 : Ref sig .tc := ⟨.hbm, 77, rfl⟩
abbrev main_v53 : Ref sig .tc := ⟨.hbm, 78, rfl⟩
abbrev main_c_9 : Ref sig .tc := ⟨.hbm, 79, rfl⟩
abbrev main_call2_cst : Ref sig .tc := ⟨.hbm, 80, rfl⟩
abbrev main_call2_v0 : Ref sig .tc := ⟨.hbm, 81, rfl⟩
abbrev main_call2_v1 : Ref sig .tc := ⟨.hbm, 82, rfl⟩
abbrev main_call2_cst_0 : Ref sig .tc := ⟨.hbm, 83, rfl⟩
abbrev main_call2_v2 : Ref sig .tc := ⟨.hbm, 84, rfl⟩
abbrev main_call2_v3 : Ref sig .tc := ⟨.hbm, 85, rfl⟩
abbrev main_call2_v4 : Ref sig .tc := ⟨.hbm, 86, rfl⟩
abbrev main_call2_v5 : Ref sig .tc := ⟨.hbm, 87, rfl⟩
abbrev main_call2_v6 : Ref sig .tc := ⟨.hbm, 88, rfl⟩
abbrev main_call2_v7 : Ref sig .tc := ⟨.hbm, 89, rfl⟩
abbrev main_call2_cst_1 : Ref sig .tc := ⟨.hbm, 90, rfl⟩
abbrev main_call2_v8 : Ref sig .tc := ⟨.hbm, 91, rfl⟩
abbrev main_call2_cst_2 : Ref sig .tc := ⟨.hbm, 92, rfl⟩
abbrev main_call2_v9 : Ref sig .tc := ⟨.hbm, 93, rfl⟩
abbrev main_call2_v10 : Ref sig .tc := ⟨.hbm, 94, rfl⟩
abbrev main_call2_v11 : Ref sig .tc := ⟨.hbm, 95, rfl⟩
abbrev main_call2_cst_3 : Ref sig .tc := ⟨.hbm, 96, rfl⟩
abbrev main_call2_v12 : Ref sig .tc := ⟨.hbm, 97, rfl⟩
abbrev main_call2_cst_4 : Ref sig .tc := ⟨.hbm, 98, rfl⟩
abbrev main_call2_call0_v0 : Ref sig .tc := ⟨.hbm, 99, rfl⟩
abbrev main_call2_call0_v1 : Ref sig .tc := ⟨.hbm, 100, rfl⟩
abbrev main_v54 : Ref sig .tc := ⟨.hbm, 101, rfl⟩
abbrev main_v55 : Ref sig .tc := ⟨.hbm, 102, rfl⟩
abbrev main_v56 : Ref sig .tc := ⟨.hbm, 103, rfl⟩
abbrev main_v57 : Ref sig .tc := ⟨.hbm, 104, rfl⟩
abbrev main_cst_10 : Ref sig .tc := ⟨.hbm, 105, rfl⟩
abbrev main_v58 : Ref sig .tc := ⟨.hbm, 106, rfl⟩
abbrev main_v59 : Ref sig .tc := ⟨.hbm, 107, rfl⟩
abbrev main_v60 : Ref sig .tc := ⟨.hbm, 108, rfl⟩
abbrev main_v61 : Ref sig .tc := ⟨.hbm, 109, rfl⟩
abbrev main_v62 : Ref sig .tc := ⟨.hbm, 110, rfl⟩
abbrev main_v63 : Ref sig .tc := ⟨.hbm, 111, rfl⟩
abbrev main_v64 : Ref sig .tc := ⟨.hbm, 112, rfl⟩
abbrev main_v65 : Ref sig .tc := ⟨.hbm, 113, rfl⟩
abbrev main_v66 : Ref sig .tc := ⟨.hbm, 114, rfl⟩
abbrev main_v67 : Ref sig .tc := ⟨.hbm, 115, rfl⟩
abbrev main_v68 : Ref sig .tc := ⟨.hbm, 116, rfl⟩
abbrev main_v69 : Ref sig .tc := ⟨.hbm, 117, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S64_d0 : S100000x64.ReducesTo [0] S64
  h_S_ : 0 < S_.numel
  bcast_S_S64 : S_.BroadcastsInDim S64 (![] : Fin 0 → Fin S64.rank)
  bcast_S_S1x64 : S_.BroadcastsInDim S1x64 (![] : Fin 0 → Fin S1x64.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  dot_S100000x128_S128x64_S100000x64_1_0_0_1_n_n_wf : DotDims.WF S100000x128 S128x64 S100000x64 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.KRun.lean ====
/-
  The run of the whole program with its result named.

  The program is twelve segments: stretches of host operations and four regions. The buffer contents at each segment
  boundary are a fold from the launch memory (a stretch applies its operations; a region replaces its arrays by what
  its write-backs leave). Every weakly fair execution terminates without a fault, and the final memory holds, at
  every unscoped buffer, the last boundary's contents: the argument arrays as launched, and the result buffer at the
  last boundary's value of it, which the modules after this one compute.
-/
import proofs.«133921_j77558519431976_2_alg».proof.Proof.Gen.KernelIdeal.Frame

set_option maxRecDepth 16384

noncomputable section

namespace Cert.KernelIdeal.KVal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting; the result buffer ends at the last
    boundary's contents of it and the argument arrays end as launched. -/
theorem run_value : θ_run defs (onTc (τ := τ) (main (F := F))) ⟨m, fun _ => 0, ρ⟩ (fun r => ∀ c : Dev nD,
      r.2.mem ((c.tc : Thread nD τ).loc main_v68) = W12 m ρ c (Proc.devRef .tc main_v68)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v68 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c),
       (h c _ (mem_uc main_arg9 (by decide))).trans (W12_main_arg9 m ρ c)⟩)

end Cert.KernelIdeal.KVal

end
-- ==== Proof.KWalk.lean ====
/-
  Buffers carried across segments.

  The program's buffer contents at each segment boundary are a fold from the launch memory. A stretch of host operations
  changes only the buffers its operations write, and a region only its own output array; so a buffer a later segment
  reads is, at that segment's entry, what the last segment that wrote it left — or the launch contents, for an argument.
  One lemma per (buffer, boundary) pair the value computation needs.
-/
import proofs.«133921_j77558519431976_2_alg».proof.Proof.Gen.KernelIdeal.Frame
import Idealize.ShloMosaic.PureOps.Ideal

set_option maxRecDepth 16384

noncomputable section

namespace Cert.KernelIdeal.KVal

open Idealize.ShloMosaic Idealize.ShloMosaic.TcCoe Idealize.SL.Sem
open Cert.KernelIdeal Cert.KernelIdeal.Gen

/-- No operation of the named stretch writes the buffer in the goal: the stretch leaves it as it was. -/
macro "unwritten " ops:ident : tactic => `(tactic|
  exact StableHlo.after_of_forall_not_mem _ _ (List.forall_iff_forall_mem.mp (by
    simp only [$ops:ident, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))))

variable (m : (ℓ : Loc nD τ sig) → Buf (Elt Ideal) ℓ) (ρ : Dev nD → PrngReg)

/-- The features reach the first region as launched. -/
theorem W1_main_arg0 (c : Dev nD) : W1 m ρ c (Proc.devRef .tc main_arg0) = m ((c : Thread nD τ).loc main_arg0) :=
  ((by unwritten hostOps0 : W1 m ρ c (Proc.devRef .tc main_arg0) = W0 m ρ c (Proc.devRef .tc main_arg0))).trans rfl

/-- The first weights reach the first region as launched. -/
theorem W1_main_arg2 (c : Dev nD) : W1 m ρ c (Proc.devRef .tc main_arg2) = m ((c : Thread nD τ).loc main_arg2) :=
  ((by unwritten hostOps0 : W1 m ρ c (Proc.devRef .tc main_arg2) = W0 m ρ c (Proc.devRef .tc main_arg2))).trans rfl

/-- The source row passes the first region. -/
theorem W2_main_v1 (c : Dev nD) : W2 m ρ c (Proc.devRef .tc main_v1) = W1 m ρ c (Proc.devRef .tc main_v1) :=
  W2_of_ne m ρ c main_v1 (by decide)

/-- The destination row passes the first region. -/
theorem W2_main_v3 (c : Dev nD) : W2 m ρ c (Proc.devRef .tc main_v3) = W1 m ρ c (Proc.devRef .tc main_v3) :=
  W2_of_ne m ρ c main_v3 (by decide)

/-- The first bias reaches the second stretch as launched. -/
theorem W2_main_arg3 (c : Dev nD) : W2 m ρ c (Proc.devRef .tc main_arg3) = m ((c : Thread nD τ).loc main_arg3) :=
  ((W2_of_ne m ρ c main_arg3 (by decide)).trans <|
    (by unwritten hostOps0 : W1 m ρ c (Proc.devRef .tc main_arg3) = W0 m ρ c (Proc.devRef .tc main_arg3))).trans rfl

/-- The middle weights reach the second region as launched. -/
theorem W4_main_arg4 (c : Dev nD) : W4 m ρ c (Proc.devRef .tc main_arg4) = m ((c : Thread nD τ).loc main_arg4) :=
  (((by unwritten hostOps1_1 : W4 m ρ c (Proc.devRef .tc main_arg4) = W3 m ρ c (Proc.devRef .tc main_arg4))).trans <|
    ((by unwritten hostOps1 : W3 m ρ c (Proc.devRef .tc main_arg4) = W2 m ρ c (Proc.devRef .tc main_arg4))).trans <|
    (W2_of_ne m ρ c main_arg4 (by decide)).trans <|
    (by unwritten hostOps0 : W1 m ρ c (Proc.devRef .tc main_arg4) = W0 m ρ c (Proc.devRef .tc main_arg4))).trans rfl

/-- The source row reaches the third stretch. -/
theorem W5_main_v1 (c : Dev nD) : W5 m ρ c (Proc.devRef .tc main_v1) = W1 m ρ c (Proc.devRef .tc main_v1) :=
  (W5_of_ne m ρ c main_v1 (by decide)).trans <|
    ((by unwritten hostOps1_1 : W4 m ρ c (Proc.devRef .tc main_v1) = W3 m ρ c (Proc.devRef .tc main_v1))).trans <|
    ((by unwritten hostOps1 : W3 m ρ c (Proc.devRef .tc main_v1) = W2 m ρ c (Proc.devRef .tc main_v1))).trans <|
    W2_of_ne m ρ c main_v1 (by decide)

/-- The destination row reaches the third stretch. -/
theorem W5_main_v3 (c : Dev nD) : W5 m ρ c (Proc.devRef .tc main_v3) = W1 m ρ c (Proc.devRef .tc main_v3) :=
  (W5_of_ne m ρ c main_v3 (by decide)).trans <|
    ((by unwritten hostOps1_1 : W4 m ρ c (Proc.devRef .tc main_v3) = W3 m ρ c (Proc.devRef .tc main_v3))).trans <|
    ((by unwritten hostOps1 : W3 m ρ c (Proc.devRef .tc main_v3) = W2 m ρ c (Proc.devRef .tc main_v3))).trans <|
    W2_of_ne m ρ c main_v3 (by decide)

/-- The middle bias reaches the third stretch as launched. -/
theorem W5_main_arg5 (c : Dev nD) : W5 m ρ c (Proc.devRef .tc main_arg5) = m ((c : Thread nD τ).loc main_arg5) :=
  ((W5_of_ne m ρ c main_arg5 (by decide)).trans <|
    ((by unwritten hostOps1_1 : W4 m ρ c (Proc.devRef .tc main_arg5) = W3 m ρ c (Proc.devRef .tc main_arg5))).trans <|
    ((by unwritten hostOps1 : W3 m ρ c (Proc.devRef .tc main_arg5) = W2 m ρ c (Proc.devRef .tc main_arg5))).trans <|
    (W2_of_ne m ρ c main_arg5 (by decide)).trans <|
    (by unwritten hostOps0 : W1 m ρ c (Proc.devRef .tc main_arg5) = W0 m ρ c (Proc.devRef .tc main_arg5))).trans rfl

/-- The last weights reach the third region as launched. -/
theorem W7_main_arg6 (c : Dev nD) : W7 m ρ c (Proc.devRef .tc main_arg6) = m ((c : Thread nD τ).loc main_arg6) :=
  (((by unwritten hostOps2_1 : W7 m ρ c (Proc.devRef .tc main_arg6) = W6 m ρ c (Proc.devRef .tc main_arg6))).trans <|
    ((by unwritten hostOps2 : W6 m ρ c (Proc.devRef .tc main_arg6) = W5 m ρ c (Proc.devRef .tc main_arg6))).trans <|
    (W5_of_ne m ρ c main_arg6 (by decide)).trans <|
    ((by unwritten hostOps1_1 : W4 m ρ c (Proc.devRef .tc main_arg6) = W3 m ρ c (Proc.devRef .tc main_arg6))).trans <|
    ((by unwritten hostOps1 : W3 m ρ c (Proc.devRef .tc main_arg6) = W2 m ρ c (Proc.devRef .tc main_arg6))).trans <|
    (W2_of_ne m ρ c main_arg6 (by decide)).trans <|
    (by unwritten hostOps0 : W1 m ρ c (Proc.devRef .tc main_arg6) = W0 m ρ c (Proc.devRef .tc main_arg6))).trans rfl

/-- The source row reaches the fourth stretch. -/
theorem W8_main_v1 (c : Dev nD) : W8 m ρ c (Proc.devRef .tc main_v1) = W1 m ρ c (Proc.devRef .tc main_v1) :=
  (W8_of_ne m ρ c main_v1 (by decide)).trans <|
    ((by unwritten hostOps2_1 : W7 m ρ c (Proc.devRef .tc main_v1) = W6 m ρ c (Proc.devRef .tc main_v1))).trans <|
    ((by unwritten hostOps2 : W6 m ρ c (Proc.devRef .tc main_v1) = W5 m ρ c (Proc.devRef .tc main_v1))).trans <|
    (W5_of_ne m ρ c main_v1 (by decide)).trans <|
    ((by unwritten hostOps1_1 : W4 m ρ c (Proc.devRef .tc main_v1) = W3 m ρ c (Proc.devRef .tc main_v1))).trans <|
    ((by unwritten hostOps1 : W3 m ρ c (Proc.devRef .tc main_v1) = W2 m ρ c (Proc.devRef .tc main_v1))).trans <|
    W2_of_ne m ρ c main_v1 (by decide)

/-- The destination row reaches the fourth stretch. -/
theorem W8_main_v3 (c : Dev nD) : W8 m ρ c (Proc.devRef .tc main_v3) = W1 m ρ c (Proc.devRef .tc main_v3) :=
  (W8_of_ne m ρ c main_v3 (by decide)).trans <|
    ((by unwritten hostOps2_1 : W7 m ρ c (Proc.devRef .tc main_v3) = W6 m ρ c (Proc.devRef .tc main_v3))).trans <|
    ((by unwritten hostOps2 : W6 m ρ c (Proc.devRef .tc main_v3) = W5 m ρ c (Proc.devRef .tc main_v3))).trans <|
    (W5_of_ne m ρ c main_v3 (by decide)).trans <|
    ((by unwritten hostOps1_1 : W4 m ρ c (Proc.devRef .tc main_v3) = W3 m ρ c (Proc.devRef .tc main_v3))).trans <|
    ((by unwritten hostOps1 : W3 m ρ c (Proc.devRef .tc main_v3) = W2 m ρ c (Proc.devRef .tc main_v3))).trans <|
    W2_of_ne m ρ c main_v3 (by decide)

/-- The last bias reaches the fourth stretch as launched. -/
theorem W8_main_arg7 (c : Dev nD) : W8 m ρ c (Proc.devRef .tc main_arg7) = m ((c : Thread nD τ).loc main_arg7) :=
  ((W8_of_ne m ρ c main_arg7 (by decide)).trans <|
    ((by unwritten hostOps2_1 : W7 m ρ c (Proc.devRef .tc main_arg7) = W6 m ρ c (Proc.devRef .tc main_arg7))).trans <|
    ((by unwritten hostOps2 : W6 m ρ c (Proc.devRef .tc main_arg7) = W5 m ρ c (Proc.devRef .tc main_arg7))).trans <|
    (W5_of_ne m ρ c main_arg7 (by decide)).trans <|
    ((by unwritten hostOps1_1 : W4 m ρ c (Proc.devRef .tc main_arg7) = W3 m ρ c (Proc.devRef .tc main_arg7))).trans <|
    ((by unwritten hostOps1 : W3 m ρ c (Proc.devRef .tc main_arg7) = W2 m ρ c (Proc.devRef .tc main_arg7))).trans <|
    (W2_of_ne m ρ c main_arg7 (by decide)).trans <|
    (by unwritten hostOps0 : W1 m ρ c (Proc.devRef .tc main_arg7) = W0 m ρ c (Proc.devRef .tc main_arg7))).trans rfl

/-- The column means pass the variance's stretch. -/
theorem W10_main_v59 (c : Dev nD) : W10 m ρ c (Proc.devRef .tc main_v59) = W9 m ρ c (Proc.devRef .tc main_v59) :=
  (by unwritten hostOps3_1 : W10 m ρ c (Proc.devRef .tc main_v59) = W9 m ρ c (Proc.devRef .tc main_v59))

/-- The last layer's output passes the variance's stretch. -/
theorem W10_main_v56 (c : Dev nD) : W10 m ρ c (Proc.devRef .tc main_v56) = W9 m ρ c (Proc.devRef .tc main_v56) :=
  (by unwritten hostOps3_1 : W10 m ρ c (Proc.devRef .tc main_v56) = W9 m ρ c (Proc.devRef .tc main_v56))

/-- The scale reaches the last stretch as launched. -/
theorem W10_main_arg8 (c : Dev nD) : W10 m ρ c (Proc.devRef .tc main_arg8) = m ((c : Thread nD τ).loc main_arg8) :=
  (((by unwritten hostOps3_1 : W10 m ρ c (Proc.devRef .tc main_arg8) = W9 m ρ c (Proc.devRef .tc main_arg8))).trans <|
    ((by unwritten hostOps3 : W9 m ρ c (Proc.devRef .tc main_arg8) = W8 m ρ c (Proc.devRef .tc main_arg8))).trans <|
    (W8_of_ne m ρ c main_arg8 (by decide)).trans <|
    ((by unwritten hostOps2_1 : W7 m ρ c (Proc.devRef .tc main_arg8) = W6 m ρ c (Proc.devRef .tc main_arg8))).trans <|
    ((by unwritten hostOps2 : W6 m ρ c (Proc.devRef .tc main_arg8) = W5 m ρ c (Proc.devRef .tc main_arg8))).trans <|
    (W5_of_ne m ρ c main_arg8 (by decide)).trans <|
    ((by unwritten hostOps1_1 : W4 m ρ c (Proc.devRef .tc main_arg8) = W3 m ρ c (Proc.devRef .tc main_arg8))).trans <|
    ((by unwritten hostOps1 : W3 m ρ c (Proc.devRef .tc main_arg8) = W2 m ρ c (Proc.devRef .tc main_arg8))).trans <|
    (W2_of_ne m ρ c main_arg8 (by decide)).trans <|
    (by unwritten hostOps0 : W1 m ρ c (Proc.devRef .tc main_arg8) = W0 m ρ c (Proc.devRef .tc main_arg8))).trans rfl

/-- The shift reaches the last stretch as launched. -/
theorem W10_main_arg9 (c : Dev nD) : W10 m ρ c (Proc.devRef .tc main_arg9) = m ((c : Thread nD τ).loc main_arg9) :=
  (((by unwritten hostOps3_1 : W10 m ρ c (Proc.devRef .tc main_arg9) = W9 m ρ c (Proc.devRef .tc main_arg9))).trans <|
    ((by unwritten hostOps3 : W9 m ρ c (Proc.devRef .tc main_arg9) = W8 m ρ c (Proc.devRef .tc main_arg9))).trans <|
    (W8_of_ne m ρ c main_arg9 (by decide)).trans <|
    ((by unwritten hostOps2_1 : W7 m ρ c (Proc.devRef .tc main_arg9) = W6 m ρ c (Proc.devRef .tc main_arg9))).trans <|
    ((by unwritten hostOps2 : W6 m ρ c (Proc.devRef .tc main_arg9) = W5 m ρ c (Proc.devRef .tc main_arg9))).trans <|
    (W5_of_ne m ρ c main_arg9 (by decide)).trans <|
    ((by unwritten hostOps1_1 : W4 m ρ c (Proc.devRef .tc main_arg9) = W3 m ρ c (Proc.devRef .tc main_arg9))).trans <|
    ((by unwritten hostOps1 : W3 m ρ c (Proc.devRef .tc main_arg9) = W2 m ρ c (Proc.devRef .tc main_arg9))).trans <|
    (W2_of_ne m ρ c main_arg9 (by decide)).trans <|
    (by unwritten hostOps0 : W1 m ρ c (Proc.devRef .tc main_arg9) = W0 m ρ c (Proc.devRef .tc main_arg9))).trans rfl

/-- The last layer's output passes the last stretch. -/
theorem W11_main_v56 (c : Dev nD) : W11 m ρ c (Proc.devRef .tc main_v56) = W10 m ρ c (Proc.devRef .tc main_v56) :=
  (by unwritten hostOps3_2 : W11 m ρ c (Proc.devRef .tc main_v56) = W10 m ρ c (Proc.devRef .tc main_v56))

end Cert.KernelIdeal.KVal

end
-- ==== Proof.Dense.lean ====
/-
  The dense product of a matrix of node features with a weight matrix, entry by entry, over the extended reals:
  (X · W)(p, q) = ∑ c, X(p, c) · W(c, q). Row p of the product reads row p of X only, so a block of consecutive
  rows of the product is the product of the same rows of X with W.
-/
import Idealize.ShloMosaic.PureOps.Ideal
import Idealize.ShloMosaic.Lib.ValueIdx

set_option maxRecDepth 16384

noncomputable section

namespace Cert.Dense

open Idealize.ShloMosaic Idealize.ShloMosaic.ValueIdx

/-- The product of an M×K array with a K×N array: entry (p, q) is the sum over c of X(p, c) · W(c, q). -/
def prod {M K N : Nat} (X : (⟨2, ![M, K]⟩ : Shape).Idx → EReal) (W : (⟨2, ![K, N]⟩ : Shape).Idx → EReal) :
    (⟨2, ![M, N]⟩ : Shape).Idx → EReal :=
  fun i => ∑ c : Fin K, X (ix2 (i 0) c) * W (ix2 c (i 1))

theorem prod_apply {M K N : Nat} (X : (⟨2, ![M, K]⟩ : Shape).Idx → EReal) (W : (⟨2, ![K, N]⟩ : Shape).Idx → EReal)
    (p : Fin M) (q : Fin N) : prod X W (ix2 p q) = ∑ c : Fin K, X (ix2 p c) * W (ix2 c q) := rfl

/-- Rows of a product: if a block `x` holds in its row `j 0` the row `i 0` of `X`, a weight block `w` is `W` itself, and
    the two indices name the same column, then the block's product at `j` is the whole product at `i`. -/
theorem prod_rows {m M K N : Nat} (X : (⟨2, ![M, K]⟩ : Shape).Idx → EReal) (W : (⟨2, ![K, N]⟩ : Shape).Idx → EReal)
    (x : (⟨2, ![m, K]⟩ : Shape).Idx → EReal) (w : (⟨2, ![K, N]⟩ : Shape).Idx → EReal)
    (j : (⟨2, ![m, N]⟩ : Shape).Idx) (i : (⟨2, ![M, N]⟩ : Shape).Idx)
    (hx : ∀ c : Fin K, x (ix2 (j 0) c) = X (ix2 (i 0) c)) (hw : ∀ c : Fin K, w (ix2 c (j 1)) = W (ix2 c (i 1))) :
    prod x w j = prod X W i := by
  unfold prod
  exact Finset.sum_congr rfl fun c _ => by rw [hx c, hw c]

end Cert.Dense

end
-- ==== Proof.LibMatmulPlain.lean ====
/-
  A plain matrix product into a zero accumulator, read at an index, at the ideal values.

  For an m×k matrix A and a k×n matrix B the product into the zero accumulator has, at row a and column b, the entry
  ∑ c, A(a, c) · B(c, b): the accumulator contributes the extended real 0, and the contraction index of the plain
  dimension numbers is the one coordinate c. The host's product of the same two matrices is the same sum, so the
  statement follows from the library's reading of the host product.
-/
import Idealize.ShloMosaic.PureOps.Ideal.Laws
import Idealize.ShloMosaic.Lib.ValueIdx
import Idealize.ShloMosaic.Lib.StackMember

namespace Cert.LibMatmulPlain

open Idealize.ShloMosaic Idealize.ShloMosaic.ValueIdx

/-- A plain m×k by k×n product into the zero accumulator reads, at (a, b), the sum over the contracted coordinate c of
    A(a, c) · B(c, b). At the ideal values, whatever the formats of the two operands. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant (F := Ideal) ⟨2, ![m, n]⟩ .f32 0x00000000#32) (ix2 a b)
      = ∑ c : Fin k, A (ix2 a c) * B (ix2 c b) := by
  rw [← StackMember.dotGeneral_plain_apply prec A B a b]
  show FloatOps.matmul _ prec A B _ (ix2 a b) = FloatOps.dotGeneral _ prec _ A B (ix2 a b)
  rw [Ideal.matmul_constant_zero_apply, Ideal.dotGeneral_apply]

end Cert.LibMatmulPlain
-- ==== Proof.KRegion0.lean ====
/-
  The first projection of the node features: the array the first matrix-product region leaves.

  The region walks the 100000 rows in ten blocks of 10000; at each block it loads the block's rows of the features and
  the whole weight matrix, rounds both to the short format (the identity on the extended reals), multiplies them into a
  zero accumulator and stores the product's rows. Row p of a product reads row p of the left factor only, so each
  block written back is the same block of the product of the whole arrays, and the ten blocks fill the array: the array
  ends holding the dense product of the features with the weights, whatever the region found there.
-/
import proofs.«133921_j77558519431976_2_alg».proof.Proof.Gen.KernelIdeal.Frame
import proofs.«133921_j77558519431976_2_alg».proof.Proof.Dense
import proofs.«133921_j77558519431976_2_alg».proof.Proof.LibMatmulPlain
import Idealize.ShloMosaic.Lib.Pipeline.Value
import Idealize.ShloMosaic.Lib.ValueIdx

set_option maxRecDepth 16384

noncomputable section

namespace Cert.KernelIdeal.KVal

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Dense

variable (V : (c : Dev nD) → (b : Ref sig .tc) → Buf (Elt Ideal) ((c : Thread nD τ).loc b))

theorem hz : (![0, 0] : Fin 2 → Nat) = fun _ => 0 := funext fun a => by fin_cases a <;> rfl

/-- The body's arithmetic on a block of rows and the weights is their dense product: rounding to the short format is
    the identity on the extended reals and the accumulator starts at zero. -/
theorem pay0_eq (x0 : Vec Ideal S10000x128 .f32) (x1 : Vec Ideal S128x128 .f32) :
    (k0_pay1 x0 x1 : S10000x128.Idx → EReal) = prod (x0 : S10000x128.Idx → EReal) (x1 : S128x128.Idx → EReal) := by
  funext j
  obtain ⟨p, q, rfl⟩ : ∃ (p : Fin 10000) (q : Fin 128), j = ix2 p q := ⟨j 0, j 1, eq_ix2 j⟩
  exact Cert.LibMatmulPlain.matmul_plain_zero_apply (m := 10000) (k := 128) (n := 128) (φ₁ := .bf16) (φ₂ := .bf16) none x0 x1 p q

/-- The index maps over the ten grid points: the features' block and the output's block move together along the rows,
    every other block coordinate is zero, and the row-block number is below ten. -/
theorem idx_facts0 : ∀ t : Fin cfg0.N, win0_0.index t (0 : Fin 2) = win0_2.index t (0 : Fin 2)
    ∧ win0_0.index t (1 : Fin 2) = 0 ∧ win0_1.index t (0 : Fin 2) = 0 ∧ win0_1.index t (1 : Fin 2) = 0
    ∧ win0_2.index t (1 : Fin 2) = 0 ∧ win0_2.index t (0 : Fin 2) ≤ 9 :=
  (by decide +kernel : ∀ t : Fin grid0.N, _)

/-- Every row block is some point's. -/
theorem idx_onto0 : ∀ (q0 : Fin 10), ∃ t : Fin cfg0.N, win0_2.index t = ![q0.val, 0] :=
  (by decide +kernel : ∀ (q0 : Fin 10), ∃ t : Fin grid0.N, win0_2.index t = ![q0.val, 0])

/-- What point `t` writes back is block `t` of the dense product of the two arrays the region finds. -/
theorem flushed0_eq (c : Dev nD) (t : Fin cfg0.N) :
    (dat0 V c).flushed 2 t = ((cfg0.win 2).blk t).view.read (Elt Ideal)
      (prod (V c (Pipeline.arrRef spec0 0) : S100000x128.Idx → EReal) (V c (Pipeline.arrRef spec0 1) : S128x128.Idx → EReal)) := by
  show (cfg0.win 2).cut (grid0.coords t) ((dat0 V c).after 2 t) = _
  rw [after0_2]
  unfold out0_2
  rw [View.canon_unit_zero hz]
  simp only [View.ld_unit_zero (S := S10000x128) hz, View.ld_unit_zero (S := S128x128) hz]
  obtain ⟨e0, e1, e2, e3, e4, e5⟩ := idx_facts0 t
  funext j
  show (k0_pay1 (iblk0 V c 0 t) (iblk0 V c 1 t) : S10000x128.Idx → EReal) j
    = prod (V c (Pipeline.arrRef spec0 0) : S100000x128.Idx → EReal) (V c (Pipeline.arrRef spec0 1) : S128x128.Idx → EReal) (((cfg0.win 2).blk t).view.emb j)
  rw [pay0_eq]
  refine prod_rows _ _ _ _ j _ (fun cc => ?_) (fun cc => ?_)
  · show V c (Pipeline.arrRef spec0 0) (((cfg0.win 0).blk t).view.emb (ix2 (j 0) cc)) = V c (Pipeline.arrRef spec0 0) (ix2 ((((cfg0.win 2).blk t).view.emb j) 0) cc)
    refine congrArg _ ?_
    funext a; apply Fin.ext
    match a with
    | ⟨0, _⟩ => show win0_0.index t (0 : Fin 2) * 10000 + 1 * (j 0).val = win0_2.index t (0 : Fin 2) * 10000 + 1 * (j 0).val; omega
    | ⟨1, _⟩ => show win0_0.index t (1 : Fin 2) * 128 + 1 * cc.val = cc.val; omega
  · show V c (Pipeline.arrRef spec0 1) (((cfg0.win 1).blk t).view.emb (ix2 cc (j 1))) = V c (Pipeline.arrRef spec0 1) (ix2 cc ((((cfg0.win 2).blk t).view.emb j) 1))
    refine congrArg _ ?_
    funext a; apply Fin.ext
    match a with
    | ⟨0, _⟩ => show win0_1.index t (0 : Fin 2) * 128 + 1 * cc.val = cc.val; omega
    | ⟨1, _⟩ => show win0_1.index t (1 : Fin 2) * 128 + 1 * (j 1).val = win0_2.index t (1 : Fin 2) * 128 + 1 * (j 1).val; omega

/-- An index of the array is in point `t`'s block iff each coordinate is in the block's range on its axis. -/
theorem mem_blk0 (t : Fin cfg0.N) (i : S100000x128.Idx) :
    i ∈ ((cfg0.win 2).blk t).view.set ↔ ∀ a : Fin 2, win0_2.index t a * S10000x128.size a ≤ (i a).val ∧ (i a).val < win0_2.index t a * S10000x128.size a + S10000x128.size a := by
  show i ∈ ((View.whole main_v4).slice (win0_2.rect t)).set ↔ _
  rw [View.set_slice_whole, Rect.mem_set_unit]
  exact Iff.rfl

/-- The ten blocks fill the array: row r lies in block r / 10000. -/
theorem cover0 (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  obtain ⟨t, ht⟩ := idx_onto0 ⟨(i 0).val / 10000, by omega⟩
  have q0 : win0_2.index t (0 : Fin 2) = (i 0).val / 10000 := congrFun ht 0
  have q1 : win0_2.index t (1 : Fin 2) = 0 := congrFun ht 1
  refine ⟨t, flush0_2 t, ?_⟩
  rw [mem_blk0]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 128 ≤ (i 1).val ∧ (i 1).val < win0_2.index t (1 : Fin 2) * 128 + 128; omega

/-- The array after the region: the dense product of the features and the weights as the region found them. -/
theorem final0 (c : Dev nD) :
    ((dat0 V c).arrAt 2 cfg0.N : S100000x128.Idx → EReal)
      = prod (V c (Pipeline.arrRef spec0 0) : S100000x128.Idx → EReal) (V c (Pipeline.arrRef spec0 1) : S128x128.Idx → EReal) :=
  (dat0 V c).arrAt_eq_of_cover 2 _ (fun t _ => flushed0_eq V c t) cover0

end Cert.KernelIdeal.KVal

end
-- ==== Proof.KRegion1.lean ====
/-
  The second projection: the array the second matrix-product region leaves (the first layer's output times the middle weights).

  The region walks the 100000 rows in ten blocks of 10000; at each block it loads the block's rows of the features and
  the whole weight matrix, rounds both to the short format (the identity on the extended reals), multiplies them into a
  zero accumulator and stores the product's rows. Row p of a product reads row p of the left factor only, so each
  block written back is the same block of the product of the whole arrays, and the ten blocks fill the array: the array
  ends holding the dense product of the features with the weights, whatever the region found there.
-/
import proofs.«133921_j77558519431976_2_alg».proof.Proof.Gen.KernelIdeal.Frame
import proofs.«133921_j77558519431976_2_alg».proof.Proof.KRegion0
import proofs.«133921_j77558519431976_2_alg».proof.Proof.LibMatmulPlain
import Idealize.ShloMosaic.Lib.Pipeline.Value
import Idealize.ShloMosaic.Lib.ValueIdx

set_option maxRecDepth 16384

noncomputable section

namespace Cert.KernelIdeal.KVal

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Dense

variable (V : (c : Dev nD) → (b : Ref sig .tc) → Buf (Elt Ideal) ((c : Thread nD τ).loc b))

/-- The body's arithmetic on a block of rows and the weights is their dense product: rounding to the short format is
    the identity on the extended reals and the accumulator starts at zero. -/
theorem pay1_eq (x0 : Vec Ideal S10000x128 .f32) (x1 : Vec Ideal S128x128 .f32) :
    (k1_pay1 x0 x1 : S10000x128.Idx → EReal) = prod (x0 : S10000x128.Idx → EReal) (x1 : S128x128.Idx → EReal) := by
  funext j
  obtain ⟨p, q, rfl⟩ : ∃ (p : Fin 10000) (q : Fin 128), j = ix2 p q := ⟨j 0, j 1, eq_ix2 j⟩
  unfold k1_pay1
  rw [shapeCast_self]
  exact Cert.LibMatmulPlain.matmul_plain_zero_apply (m := 10000) (k := 128) (n := 128) (φ₁ := .bf16) (φ₂ := .bf16) none x0 x1 p q

/-- The index maps over the ten grid points: the features' block and the output's block move together along the rows,
    every other block coordinate is zero, and the row-block number is below ten. -/
theorem idx_facts1 : ∀ t : Fin cfg1.N, win1_0.index t (0 : Fin 2) = win1_2.index t (0 : Fin 2)
    ∧ win1_0.index t (1 : Fin 2) = 0 ∧ win1_1.index t (0 : Fin 2) = 0 ∧ win1_1.index t (1 : Fin 2) = 0
    ∧ win1_2.index t (1 : Fin 2) = 0 ∧ win1_2.index t (0 : Fin 2) ≤ 9 :=
  (by decide +kernel : ∀ t : Fin grid1.N, _)

/-- Every row block is some point's. -/
theorem idx_onto1 : ∀ (q0 : Fin 10), ∃ t : Fin cfg1.N, win1_2.index t = ![q0.val, 0] :=
  (by decide +kernel : ∀ (q0 : Fin 10), ∃ t : Fin grid1.N, win1_2.index t = ![q0.val, 0])

/-- What point `t` writes back is block `t` of the dense product of the two arrays the region finds. -/
theorem flushed1_eq (c : Dev nD) (t : Fin cfg1.N) :
    (dat1 V c).flushed 2 t = ((cfg1.win 2).blk t).view.read (Elt Ideal)
      (prod (V c (Pipeline.arrRef spec1 0) : S100000x128.Idx → EReal) (V c (Pipeline.arrRef spec1 1) : S128x128.Idx → EReal)) := by
  show (cfg1.win 2).cut (grid1.coords t) ((dat1 V c).after 2 t) = _
  rw [after1_2]
  unfold out1_2
  rw [View.canon_unit_zero hz]
  simp only [View.ld_unit_zero (S := S10000x128) hz, View.ld_unit_zero (S := S128x128) hz]
  obtain ⟨e0, e1, e2, e3, e4, e5⟩ := idx_facts1 t
  funext j
  show (k1_pay1 (iblk1 V c 0 t) (iblk1 V c 1 t) : S10000x128.Idx → EReal) j
    = prod (V c (Pipeline.arrRef spec1 0) : S100000x128.Idx → EReal) (V c (Pipeline.arrRef spec1 1) : S128x128.Idx → EReal) (((cfg1.win 2).blk t).view.emb j)
  rw [pay1_eq]
  refine prod_rows _ _ _ _ j _ (fun cc => ?_) (fun cc => ?_)
  · show V c (Pipeline.arrRef spec1 0) (((cfg1.win 0).blk t).view.emb (ix2 (j 0) cc)) = V c (Pipeline.arrRef spec1 0) (ix2 ((((cfg1.win 2).blk t).view.emb j) 0) cc)
    refine congrArg _ ?_
    funext a; apply Fin.ext
    match a with
    | ⟨0, _⟩ => show win1_0.index t (0 : Fin 2) * 10000 + 1 * (j 0).val = win1_2.index t (0 : Fin 2) * 10000 + 1 * (j 0).val; omega
    | ⟨1, _⟩ => show win1_0.index t (1 : Fin 2) * 128 + 1 * cc.val = cc.val; omega
  · show V c (Pipeline.arrRef spec1 1) (((cfg1.win 1).blk t).view.emb (ix2 cc (j 1))) = V c (Pipeline.arrRef spec1 1) (ix2 cc ((((cfg1.win 2).blk t).view.emb j) 1))
    refine congrArg _ ?_
    funext a; apply Fin.ext
    match a with
    | ⟨0, _⟩ => show win1_1.index t (0 : Fin 2) * 128 + 1 * cc.val = cc.val; omega
    | ⟨1, _⟩ => show win1_1.index t (1 : Fin 2) * 128 + 1 * (j 1).val = win1_2.index t (1 : Fin 2) * 128 + 1 * (j 1).val; omega

/-- An index of the array is in point `t`'s block iff each coordinate is in the block's range on its axis. -/
theorem mem_blk1 (t : Fin cfg1.N) (i : S100000x128.Idx) :
    i ∈ ((cfg1.win 2).blk t).view.set ↔ ∀ a : Fin 2, win1_2.index t a * S10000x128.size a ≤ (i a).val ∧ (i a).val < win1_2.index t a * S10000x128.size a + S10000x128.size a := by
  show i ∈ ((View.whole main_v22).slice (win1_2.rect t)).set ↔ _
  rw [View.set_slice_whole, Rect.mem_set_unit]
  exact Iff.rfl

/-- The ten blocks fill the array: row r lies in block r / 10000. -/
theorem cover1 (i : S100000x128.Idx) :
    ∃ t : Fin cfg1.N, (cfg1.win 2).flush t = true ∧ i ∈ ((cfg1.win 2).blk t).view.set := by
  have hi0 : (i 0).val < 100000 := (i 0).isLt
  have hi1 : (i 1).val < 128 := (i 1).isLt
  obtain ⟨t, ht⟩ := idx_onto1 ⟨(i 0).val / 10000, by omega⟩
  have q0 : win1_2.index t (0 : Fin 2) = (i 0).val / 10000 := congrFun ht 0
  have q1 : win1_2.index t (1 : Fin 2) = 0 := congrFun ht 1
  refine ⟨t, flush1_2 t, ?_⟩
  rw [mem_blk1]
  intro a
  match a with
  | ⟨0, _⟩ => show win1_2.index t (0 : Fin 2) * 10000 ≤ (i 0).val ∧ (i 0).val < win1_2.index t (0 : Fin 2) * 10000 + 10000; omega
  | ⟨1, _⟩ => show win1_2.index t (1 : Fin 2) * 128 ≤ (i 1).val ∧ (i 1).val < win1_2.index t (1 : Fin 2) * 128 + 128; omega

/-- The array after the region: the dense product of the features and the weights as the region found them. -/
theorem final1 (c : Dev nD) :
    ((dat1 V c).arrAt 2 cfg1.N : S100000x128.Idx → EReal)
      = prod (V c (Pipeline.arrRef spec1 0) : S100000x128.Idx → EReal) (V c (Pipeline.arrRef spec1 1) : S128x128.Idx → EReal) :=
  (dat1 V c).arrAt_eq_of_cover 2 _ (fun t _ => flushed1_eq V c t) cover1

end Cert.KernelIdeal.KVal

end
-- ==== Proof.KRegion2.lean ====
/-
  The third projection: the array the third matrix-product region leaves (the second layer's output times the last, 64-column weights).

  The region walks the 100000 rows in ten blocks of 10000; at each block it loads the block's rows of the features and
  the whole weight matrix, rounds both to the short format (the identity on the extended reals), multiplies them into a
  zero accumulator and stores the product's rows. Row p of a product reads row p of the left factor only, so each
  block written back is the same block of the product of the whole arrays, and the ten blocks fill the array: the array
  ends holding the dense product of the features with the weights, whatever the region found there.
-/
import proofs.«133921_j77558519431976_2_alg».proof.Proof.Gen.KernelIdeal.Frame
import proofs.«133921_j77558519431976_2_alg».proof.Proof.KRegion0
import proofs.«133921_j77558519431976_2_alg».proof.Proof.LibMatmulPlain
import Idealize.ShloMosaic.Lib.Pipeline.Value
import Idealize.ShloMosaic.Lib.ValueIdx

set_option maxRecDepth 16384

noncomputable section

namespace Cert.KernelIdeal.KVal

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Dense

variable (V : (c : Dev nD) → (b : Ref sig .tc) → Buf (Elt Ideal) ((c : Thread nD τ).loc b))

/-- The body's arithmetic on a block of rows and the weights is their dense product: rounding to the short format is
    the identity on the extended reals and the accumulator starts at zero. -/
theorem pay2_eq (x0 : Vec Ideal S10000x128 .f32) (x1 : Vec Ideal S128x64 .f32) :
    (k2_pay1 x0 x1 : S10000x64.Idx → EReal) = prod (x0 : S10000x128.Idx → EReal) (x1 : S128x64.Idx → EReal) := by
  funext j
  obtain ⟨p, q, rfl⟩ : ∃ (p : Fin 10000) (q : Fin 64), j = ix2 p q := ⟨j 0, j 1, eq_ix2 j⟩
  unfold k2_pay1
  rw [shapeCast_self]
  exact Cert.LibMatmulPlain.matmul_plain_zero_apply (m := 10000) (k := 128) (n := 64) (φ₁ := .bf16) (φ₂ := .bf16) none x0 x1 p q

/-- The index maps over the ten grid points: the features' block and the output's block move together along the rows,
    every other block coordinate is zero, and the row-block number is below ten. -/
theorem idx_facts2 : ∀ t : Fin cfg2.N, win2_0.index t (0 : Fin 2) = win2_2.index t (0 : Fin 2)
    ∧ win2_0.index t (1 : Fin 2) = 0 ∧ win2_1.index t (0 : Fin 2) = 0 ∧ win2_1.index t (1 : Fin 2) = 0
    ∧ win2_2.index t (1 : Fin 2) = 0 ∧ win2_2.index t (0 : Fin 2) ≤ 9 :=
  (by decide +kernel : ∀ t : Fin grid2.N, _)

/-- Every row block is some point's. -/
theorem idx_onto2 : ∀ (q0 : Fin 10), ∃ t : Fin cfg2.N, win2_2.index t = ![q0.val, 0] :=
  (by decide +kernel : ∀ (q0 : Fin 10), ∃ t : Fin grid2.N, win2_2.index t = ![q0.val, 0])

/-- What point `t` writes back is block `t` of the dense product of the two arrays the region finds. -/
theorem flushed2_eq (c : Dev nD) (t : Fin cfg2.N) :
    (dat2 V c).flushed 2 t = ((cfg2.win 2).blk t).view.read (Elt Ideal)
      (prod (V c (Pipeline.arrRef spec2 0) : S100000x128.Idx → EReal) (V c (Pipeline.arrRef spec2 1) : S128x64.Idx → EReal)) := by
  show (cfg2.win 2).cut (grid2.coords t) ((dat2 V c).after 2 t) = _
  rw [after2_2]
  unfold out2_2
  rw [View.canon_unit_zero hz]
  simp only [View.ld_unit_zero (S := S10000x128) hz, View.ld_unit_zero (S := S128x64) hz]
  obtain ⟨e0, e1, e2, e3, e4, e5⟩ := idx_facts2 t
  funext j
  show (k2_pay1 (iblk2 V c 0 t) (iblk2 V c 1 t) : S10000x64.Idx → EReal) j
    = prod (V c (Pipeline.arrRef spec2 0) : S100000x128.Idx → EReal) (V c (Pipeline.arrRef spec2 1) : S128x64.Idx → EReal) (((cfg2.win 2).blk t).view.emb j)
  rw [pay2_eq]
  refine prod_rows _ _ _ _ j _ (fun cc => ?_) (fun cc => ?_)
  · show V c (Pipeline.arrRef spec2 0) (((cfg2.win 0).blk t).view.emb (ix2 (j 0) cc)) = V c (Pipeline.arrRef spec2 0) (ix2 ((((cfg2.win 2).blk t).view.emb j) 0) cc)
    refine congrArg _ ?_
    funext a; apply Fin.ext
    match a with
    | ⟨0, _⟩ => show win2_0.index t (0 : Fin 2) * 10000 + 1 * (j 0).val = win2_2.index t (0 : Fin 2) * 10000 + 1 * (j 0).val; omega
    | ⟨1, _⟩ => show win2_0.index t (1 : Fin 2) * 128 + 1 * cc.val = cc.val; omega
  · show V c (Pipeline.arrRef spec2 1) (((cfg2.win 1).blk t).view.emb (ix2 cc (j 1))) = V c (Pipeline.arrRef spec2 1) (ix2 cc ((((cfg2.win 2).blk t).view.emb j) 1))
    refine congrArg _ ?_
    funext a; apply Fin.ext
    match a with
    | ⟨0, _⟩ => show win2_1.index t (0 : Fin 2) * 128 + 1 * cc.val = cc.val; omega
    | ⟨1, _⟩ => show win2_1.index t (1 : Fin 2) * 64 + 1 * (j 1).val = win2_2.index t (1 : Fin 2) * 64 + 1 * (j 1).val; omega

/-- An index of the array is in point `t`'s block iff each coordinate is in the block's range on its axis. -/
theorem mem_blk2 (t : Fin cfg2.N) (i : S100000x64.Idx) :
    i ∈ ((cfg2.win 2).blk t).view.set ↔ ∀ a : Fin 2, win2_2.index t a * S10000x64.size a ≤ (i a).val ∧ (i a).val < win2_2.index t a * S10000x64.size a + S10000x64.size a := by
  show i ∈ ((View.whole main_v40).slice (win2_2.rect t)).set ↔ _
  rw [View.set_slice_whole, Rect.mem_set_unit]
  exact Iff.rfl

/-- The ten blocks fill the array: row r lies in block r / 10000. -/
theorem cover2 (i : S100000x64.Idx) :
    ∃ t : Fin cfg2.N, (cfg2.win 2).flush t = true ∧ i ∈ ((cfg2.win 2).blk t).view.set := by
  have hi0 : (i 0).val < 100000 := (i 0).isLt
  have hi1 : (i 1).val < 64 := (i 1).isLt
  obtain ⟨t, ht⟩ := idx_onto2 ⟨(i 0).val / 10000, by omega⟩
  have q0 : win2_2.index t (0 : Fin 2) = (i 0).val / 10000 := congrFun ht 0
  have q1 : win2_2.index t (1 : Fin 2) = 0 := congrFun ht 1
  refine ⟨t, flush2_2 t, ?_⟩
  rw [mem_blk2]
  intro a
  match a with
  | ⟨0, _⟩ => show win2_2.index t (0 : Fin 2) * 10000 ≤ (i 0).val ∧ (i 0).val < win2_2.index t (0 : Fin 2) * 10000 + 10000; omega
  | ⟨1, _⟩ => show win2_2.index t (1 : Fin 2) * 64 ≤ (i 1).val ∧ (i 1).val < win2_2.index t (1 : Fin 2) * 64 + 64; omega

/-- The array after the region: the dense product of the features and the weights as the region found them. -/
theorem final2 (c : Dev nD) :
    ((dat2 V c).arrAt 2 cfg2.N : S100000x64.Idx → EReal)
      = prod (V c (Pipeline.arrRef spec2 0) : S100000x128.Idx → EReal) (V c (Pipeline.arrRef spec2 1) : S128x64.Idx → EReal) :=
  (dat2 V c).arrAt_eq_of_cover 2 _ (fun t _ => flushed2_eq V c t) cover2

end Cert.KernelIdeal.KVal

end
-- ==== Proof.KRegion3.lean ====
/-
  The normalisation region: the array it leaves.

  The region walks the 100000 rows in ten blocks of 10000; at each block it loads the block's rows of H and the four
  whole one-row arrays (the column means, the column inverse deviations, the scale and the shift), and stores
  ((H − mean) · rdev) · scale + shift, each one-row array repeated down the rows. Entry (p, q) of the result reads H
  at (p, q) and the four rows at column q only, so each block written back is the same block of the one function
  of the whole arrays below, and the ten blocks fill the array.
-/
import proofs.«133921_j77558519431976_2_alg».proof.Proof.KRegion0
import Idealize.ShloMosaic.Lib.ValueLayout

set_option maxRecDepth 16384

noncomputable section

namespace Cert.Dense

open Idealize.ShloMosaic Idealize.ShloMosaic.ValueIdx

/-- Normalisation by column statistics: entry (p, q) is ((H(p, q) − μ(q)) · r(q)) · γ(q) + β(q), the four column
    families given as one-row arrays. -/
def affine {M N : Nat} (H : (⟨2, ![M, N]⟩ : Shape).Idx → EReal) (mu rs ga be : (⟨2, ![1, N]⟩ : Shape).Idx → EReal) :
    (⟨2, ![M, N]⟩ : Shape).Idx → EReal :=
  fun i => ((H i - mu (ix2 (0 : Fin 1) (i 1))) * rs (ix2 (0 : Fin 1) (i 1))) * ga (ix2 (0 : Fin 1) (i 1)) + be (ix2 (0 : Fin 1) (i 1))

/-- Rows of the normalisation: if a block holds at `j` what `H` holds at `i`, and the four one-row arrays agree at the two
    indices' columns, the block's value at `j` is the whole array's at `i`. -/
theorem affine_rows {m M N : Nat} (H : (⟨2, ![M, N]⟩ : Shape).Idx → EReal) (mu rs ga be : (⟨2, ![1, N]⟩ : Shape).Idx → EReal)
    (h : (⟨2, ![m, N]⟩ : Shape).Idx → EReal) (mu' rs' ga' be' : (⟨2, ![1, N]⟩ : Shape).Idx → EReal)
    (j : (⟨2, ![m, N]⟩ : Shape).Idx) (i : (⟨2, ![M, N]⟩ : Shape).Idx) (hh : h j = H i)
    (h1 : mu' (ix2 (0 : Fin 1) (j 1)) = mu (ix2 (0 : Fin 1) (i 1))) (h2 : rs' (ix2 (0 : Fin 1) (j 1)) = rs (ix2 (0 : Fin 1) (i 1)))
    (h3 : ga' (ix2 (0 : Fin 1) (j 1)) = ga (ix2 (0 : Fin 1) (i 1))) (h4 : be' (ix2 (0 : Fin 1) (j 1)) = be (ix2 (0 : Fin 1) (i 1))) :
    affine h mu' rs' ga' be' j = affine H mu rs ga be i := by
  unfold affine
  rw [hh, h1, h2, h3, h4]

end Cert.Dense

namespace Cert.KernelIdeal.KVal

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Dense

variable (V : (c : Dev nD) → (b : Ref sig .tc) → Buf (Elt Ideal) ((c : Thread nD τ).loc b))

/-- The body's arithmetic on a block of rows and the four one-row arrays is the normalisation of that block. -/
theorem pay3_eq (x0 : Vec Ideal S10000x64 .f32) (x1 x2 x3 x4 : Vec Ideal S1x64 .f32) :
    (k3_pay1 x0 x1 x2 x3 x4 : S10000x64.Idx → EReal)
      = affine (x0 : S10000x64.Idx → EReal) (x1 : S1x64.Idx → EReal) (x2 : S1x64.Idx → EReal) (x3 : S1x64.Idx → EReal) (x4 : S1x64.Idx → EReal) := by
  funext j
  obtain ⟨p, q, rfl⟩ : ∃ (p : Fin 10000) (q : Fin 64), j = ix2 p q := ⟨j 0, j 1, eq_ix2 j⟩
  unfold k3_pay1
  simp only [shapeCast_self]
  rw [addf_apply, mulf_apply, mulf_apply, subf_apply, broadcastTo_1b_ab_apply, broadcastTo_1b_ab_apply, broadcastTo_1b_ab_apply,
    broadcastTo_1b_ab_apply]
  rfl

/-- The index maps over the ten grid points: the block of H and the output's block move together along the rows, every
    other block coordinate is zero, and the row-block number is below ten. -/
theorem idx_facts3 : ∀ t : Fin cfg3.N, win3_0.index t (0 : Fin 2) = win3_5.index t (0 : Fin 2)
    ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (1 : Fin 2) = 0 ∧ win3_5.index t (0 : Fin 2) ≤ 9 :=
  (by decide +kernel : ∀ t : Fin grid3.N, _)

/-- Every row block is some point's. -/
theorem idx_onto3 : ∀ (q0 : Fin 10), ∃ t : Fin cfg3.N, win3_5.index t = ![q0.val, 0] :=
  (by decide +kernel : ∀ (q0 : Fin 10), ∃ t : Fin grid3.N, win3_5.index t = ![q0.val, 0])

set_option maxHeartbeats 2000000 in
/-- What point `t` writes back is block `t` of the normalisation of the five arrays the region finds. -/
theorem flushed3_eq (c : Dev nD) (t : Fin cfg3.N) :
    (dat3 V c).flushed 5 t = ((cfg3.win 5).blk t).view.read (Elt Ideal)
      (affine (V c (Pipeline.arrRef spec3 0) : S100000x64.Idx → EReal) (V c (Pipeline.arrRef spec3 1) : S1x64.Idx → EReal)
        (V c (Pipeline.arrRef spec3 2) : S1x64.Idx → EReal) (V c (Pipeline.arrRef spec3 3) : S1x64.Idx → EReal)
        (V c (Pipeline.arrRef spec3 4) : S1x64.Idx → EReal)) := by
  show (cfg3.win 5).cut (grid3.coords t) ((dat3 V c).after 5 t) = _
  rw [after3_5]
  unfold out3_5
  rw [View.canon_unit_zero hz]
  simp only [View.ld_unit_zero (S := S10000x64) hz, View.ld_unit_zero (S := S1x64) hz]
  obtain ⟨e0, e1, e2, e3, e4, e5, e6, e7, e8, e9, e10, e11⟩ := idx_facts3 t
  funext j
  show (k3_pay1 (iblk3 V c 0 t) (iblk3 V c 1 t) (iblk3 V c 2 t) (iblk3 V c 3 t) (iblk3 V c 4 t) : S10000x64.Idx → EReal) j
    = affine (V c (Pipeline.arrRef spec3 0) : S100000x64.Idx → EReal) (V c (Pipeline.arrRef spec3 1) : S1x64.Idx → EReal)
        (V c (Pipeline.arrRef spec3 2) : S1x64.Idx → EReal) (V c (Pipeline.arrRef spec3 3) : S1x64.Idx → EReal)
        (V c (Pipeline.arrRef spec3 4) : S1x64.Idx → EReal) (((cfg3.win 5).blk t).view.emb j)
  rw [pay3_eq]
  refine affine_rows _ _ _ _ _ _ _ _ _ _ j _ ?_ ?_ ?_ ?_ ?_
  · show V c (Pipeline.arrRef spec3 0) (((cfg3.win 0).blk t).view.emb j) = V c (Pipeline.arrRef spec3 0) (((cfg3.win 5).blk t).view.emb j)
    refine congrArg _ ?_
    funext a; apply Fin.ext
    match a with
    | ⟨0, _⟩ => show win3_0.index t (0 : Fin 2) * 10000 + 1 * (j 0).val = win3_5.index t (0 : Fin 2) * 10000 + 1 * (j 0).val; omega
    | ⟨1, _⟩ => show win3_0.index t (1 : Fin 2) * 64 + 1 * (j 1).val = win3_5.index t (1 : Fin 2) * 64 + 1 * (j 1).val; omega
  · show V c (Pipeline.arrRef spec3 1) (((cfg3.win 1).blk t).view.emb (ix2 (0 : Fin 1) (j 1))) = V c (Pipeline.arrRef spec3 1) (ix2 (0 : Fin 1) ((((cfg3.win 5).blk t).view.emb j) 1))
    refine congrArg _ ?_
    funext a; apply Fin.ext
    match a with
    | ⟨0, _⟩ => show win3_1.index t (0 : Fin 2) * 1 + 1 * 0 = 0; omega
    | ⟨1, _⟩ => show win3_1.index t (1 : Fin 2) * 64 + 1 * (j 1).val = win3_5.index t (1 : Fin 2) * 64 + 1 * (j 1).val; omega
  · show V c (Pipeline.arrRef spec3 2) (((cfg3.win 2).blk t).view.emb (ix2 (0 : Fin 1) (j 1))) = V c (Pipeline.arrRef spec3 2) (ix2 (0 : Fin 1) ((((cfg3.win 5).blk t).view.emb j) 1))
    refine congrArg _ ?_
    funext a; apply Fin.ext
    match a with
    | ⟨0, _⟩ => show win3_2.index t (0 : Fin 2) * 1 + 1 * 0 = 0; omega
    | ⟨1, _⟩ => show win3_2.index t (1 : Fin 2) * 64 + 1 * (j 1).val = win3_5.index t (1 : Fin 2) * 64 + 1 * (j 1).val; omega
  · show V c (Pipeline.arrRef spec3 3) (((cfg3.win 3).blk t).view.emb (ix2 (0 : Fin 1) (j 1))) = V c (Pipeline.arrRef spec3 3) (ix2 (0 : Fin 1) ((((cfg3.win 5).blk t).view.emb j) 1))
    refine congrArg _ ?_
    funext a; apply Fin.ext
    match a with
    | ⟨0, _⟩ => show win3_3.index t (0 : Fin 2) * 1 + 1 * 0 = 0; omega
    | ⟨1, _⟩ => show win3_3.index t (1 : Fin 2) * 64 + 1 * (j 1).val = win3_5.index t (1 : Fin 2) * 64 + 1 * (j 1).val; omega
  · show V c (Pipeline.arrRef spec3 4) (((cfg3.win 4).blk t).view.emb (ix2 (0 : Fin 1) (j 1))) = V c (Pipeline.arrRef spec3 4) (ix2 (0 : Fin 1) ((((cfg3.win 5).blk t).view.emb j) 1))
    refine congrArg _ ?_
    funext a; apply Fin.ext
    match a with
    | ⟨0, _⟩ => show win3_4.index t (0 : Fin 2) * 1 + 1 * 0 = 0; omega
    | ⟨1, _⟩ => show win3_4.index t (1 : Fin 2) * 64 + 1 * (j 1).val = win3_5.index t (1 : Fin 2) * 64 + 1 * (j 1).val; omega

/-- An index of the array is in point `t`'s block iff each coordinate is in the block's range on its axis. -/
theorem mem_blk3 (t : Fin cfg3.N) (i : S100000x64.Idx) :
    i ∈ ((cfg3.win 5).blk t).view.set ↔ ∀ a : Fin 2, win3_5.index t a * S10000x64.size a ≤ (i a).val ∧ (i a).val < win3_5.index t a * S10000x64.size a + S10000x64.size a := by
  show i ∈ ((View.whole main_v68).slice (win3_5.rect t)).set ↔ _
  rw [View.set_slice_whole, Rect.mem_set_unit]
  exact Iff.rfl

/-- The ten blocks fill the array: row r lies in block r / 10000. -/
theorem cover3 (i : S100000x64.Idx) :
    ∃ t : Fin cfg3.N, (cfg3.win 5).flush t = true ∧ i ∈ ((cfg3.win 5).blk t).view.set := by
  have hi0 : (i 0).val < 100000 := (i 0).isLt
  have hi1 : (i 1).val < 64 := (i 1).isLt
  obtain ⟨t, ht⟩ := idx_onto3 ⟨(i 0).val / 10000, by omega⟩
  have q0 : win3_5.index t (0 : Fin 2) = (i 0).val / 10000 := congrFun ht 0
  have q1 : win3_5.index t (1 : Fin 2) = 0 := congrFun ht 1
  refine ⟨t, flush3_5 t, ?_⟩
  rw [mem_blk3]
  intro a
  match a with
  | ⟨0, _⟩ => show win3_5.index t (0 : Fin 2) * 10000 ≤ (i 0).val ∧ (i 0).val < win3_5.index t (0 : Fin 2) * 10000 + 10000; omega
  | ⟨1, _⟩ => show win3_5.index t (1 : Fin 2) * 64 ≤ (i 1).val ∧ (i 1).val < win3_5.index t (1 : Fin 2) * 64 + 64; omega

/-- The array after the region: the normalisation of the five arrays as the region found them. -/
theorem final3 (c : Dev nD) :
    ((dat3 V c).arrAt 5 cfg3.N : S100000x64.Idx → EReal)
      = affine (V c (Pipeline.arrRef spec3 0) : S100000x64.Idx → EReal) (V c (Pipeline.arrRef spec3 1) : S1x64.Idx → EReal)
        (V c (Pipeline.arrRef spec3 2) : S1x64.Idx → EReal) (V c (Pipeline.arrRef spec3 3) : S1x64.Idx → EReal)
        (V c (Pipeline.arrRef spec3 4) : S1x64.Idx → EReal) :=
  (dat3 V c).arrAt_eq_of_cover 5 _ (fun t _ => flushed3_eq V c t) cover3

end Cert.KernelIdeal.KVal

end
-- ==== Proof.RefStages.lean ====
/- The reference's result as a composition of named stage functions of its ten arguments, at the ideal
   values: the edge indices, the neighbour aggregation, the three layers, the column statistics, the
   normalization. -/
import proofs.«133921_j77558519431976_2_alg».proof.Proof.Gen.ReferenceIdeal
import Idealize.ShloMosaic.PureOps.Ideal

noncomputable section

namespace Cert.ReferenceIdeal.RefRun

open Cert.ReferenceIdeal Cert.ReferenceIdeal.Gen Idealize.ShloMosaic Idealize.ShloMosaic.TcCoe Idealize.SL.Sem Idealize.ShloMosaic.StableHlo

/-! ## The stage functions

Everything at the ideal values (floats extended reals, operations exact): `FVec Ideal s .f32` is
`s.Idx → Ideal .f32`, the contents of an `f32` tensor of shape `s`; `IVec s 32` those of an `i32` one. -/

/-- Row 0 of the edge list (the source node of each edge) as a vector. -/
def row0 (e : IVec S2x1600000 32) : IVec S1600000 32 :=
  shapeCast S1600000 (extractStridedSlice S1x1600000 ![0, 0] e slices_S2x1600000_S1x1600000_0_0) shapeCasts_S1x1600000_S1600000

/-- Row 1 of the edge list (the destination node of each edge) as a vector. -/
def row1 (e : IVec S2x1600000 32) : IVec S1600000 32 :=
  shapeCast S1600000 (extractStridedSlice S1x1600000 ![1, 0] e slices_S2x1600000_S1x1600000_1_0) shapeCasts_S1x1600000_S1600000

/-- A negative index counted from the end: `r + 100000` where `r < 0` (signed), `r` elsewhere. -/
def wrapIdx (r : IVec S1600000 32) : IVec S1600000 32 :=
  select (cmpi .slt r (broadcastInDim S1600000 ![] bcast_S_S1600000 (constantI S_ 32 0#32)))
    (addi r (broadcastInDim S1600000 ![] bcast_S_S1600000 (constantI S_ 32 100000#32))) r

/-- The gather's start indices: the wrapped sources as a column. -/
def srcIdx (e : IVec S2x1600000 32) : IVec S1600000x1 32 :=
  broadcastInDim S1600000x1 ![0] bcast_S1600000_S1600000x1_0 (wrapIdx (row0 e))

/-- The scatter's indices: the destinations as a column. -/
def dstIdx (e : IVec S2x1600000 32) : IVec S1600000x1 32 :=
  broadcastInDim S1600000x1 ![0] bcast_S1600000_S1600000x1_0 (row1 e)

/-- The all-zero `f32[100000,128]`. -/
def zeros128 : FVec Ideal S100000x128 .f32 :=
  broadcastInDim S100000x128 ![] bcast_S_S100000x128 (constant (F := Ideal) S_ .f32 0x00000000#32)

/-- Neighbour aggregation: the rows of `A` at the sources, summed into the zero array at the destinations. -/
def agg128 (e : IVec S2x1600000 32) (A : FVec Ideal S100000x128 .f32) : FVec Ideal S100000x128 .f32 :=
  Host.scatterAdd (F := Ideal) scatter_S100000x128_S1600000x1_S1600000x128_1_0_0_1 zeros128 (dstIdx e)
    (Host.gather gather_S100000x128_S1600000x1_S1600000x128_1_0_n_n_0_1_1128 A (srcIdx e))

/-- A bias `f32[128]` as every row of an `f32[100000,128]`. -/
def rows128 (b : FVec Ideal S128 .f32) : FVec Ideal S100000x128 .f32 :=
  broadcastInDim S100000x128 ![0, 1] bcast_S1x128_S100000x128_0_1 (broadcastInDim S1x128 ![1] bcast_S128_S1x128_1 b)

/-- A vector `f32[64]` as every row of an `f32[100000,64]`. -/
def rows64 (b : FVec Ideal S64 .f32) : FVec Ideal S100000x64 .f32 :=
  broadcastInDim S100000x64 ![0, 1] bcast_S1x64_S100000x64_0_1 (broadcastInDim S1x64 ![1] bcast_S64_S1x64_1 b)

/-- The linear map `Z · W + b`, 128 → 128. -/
def lin128 (Z : FVec Ideal S100000x128 .f32) (W : FVec Ideal S128x128 .f32) (b : FVec Ideal S128 .f32) :
    FVec Ideal S100000x128 .f32 :=
  addf (Host.dotGeneral (F := Ideal) dot_S100000x128_S128x128_S100000x128_1_0_0_1_n_n none Z W) (rows128 b)

/-- The linear map `Z · W + b`, 128 → 64. -/
def lin64 (Z : FVec Ideal S100000x128 .f32) (W : FVec Ideal S128x64 .f32) (b : FVec Ideal S64 .f32) :
    FVec Ideal S100000x64 .f32 :=
  addf (Host.dotGeneral (F := Ideal) dot_S100000x128_S128x64_S100000x64_1_0_0_1_n_n none Z W) (rows64 b)

/-- `max(X, 0)` elementwise. -/
def relu128 (X : FVec Ideal S100000x128 .f32) : FVec Ideal S100000x128 .f32 :=
  maximumf X zeros128

/-- A hidden layer: `relu((A + agg A) · W + b)`. -/
def layerA (e : IVec S2x1600000 32) (A : FVec Ideal S100000x128 .f32) (W : FVec Ideal S128x128 .f32)
    (b : FVec Ideal S128 .f32) : FVec Ideal S100000x128 .f32 :=
  relu128 (lin128 (addf A (agg128 e A)) W b)

/-- The last layer: `(A + agg A) · W + b`, no activation. -/
def layerC (e : IVec S2x1600000 32) (A : FVec Ideal S100000x128 .f32) (W : FVec Ideal S128x64 .f32)
    (b : FVec Ideal S64 .f32) : FVec Ideal S100000x64 .f32 :=
  lin64 (addf A (agg128 e A)) W b

/-- The three layers. -/
def h3 (a0 : FVec Ideal S100000x128 .f32) (e : IVec S2x1600000 32) (a2 : FVec Ideal S128x128 .f32) (a3 : FVec Ideal S128 .f32)
    (a4 : FVec Ideal S128x128 .f32) (a5 : FVec Ideal S128 .f32) (a6 : FVec Ideal S128x64 .f32) (a7 : FVec Ideal S64 .f32) :
    FVec Ideal S100000x64 .f32 :=
  layerC e (layerA e (layerA e a0 a2 a3) a4 a5) a6 a7

/-- The column sums of an `f32[100000,64]` (from zero). -/
def colSum (H : FVec Ideal S100000x64 .f32) : FVec Ideal S64 .f32 :=
  Host.reduceAdd (F := Ideal) H (constant (F := Ideal) S_ .f32 0x00000000#32) reducesTo_S100000x64_S64_d0 h_S_

/-- The column means: the sums over `100000`. -/
def meanOf (H : FVec Ideal S100000x64 .f32) : FVec Ideal S64 .f32 :=
  Host.divf (colSum H) (broadcastInDim S64 ![] bcast_S_S64 (constant (F := Ideal) S_ .f32 0x47C35000#32))

/-- The column means again, as the variance computes them: kept as one row `f32[1,64]`. -/
def meanRow (H : FVec Ideal S100000x64 .f32) : FVec Ideal S1x64 .f32 :=
  Host.divf (broadcastInDim S1x64 ![1] bcast_S64_S1x64_1 (colSum H))
    (broadcastInDim S1x64 ![] bcast_S_S1x64 (constant (F := Ideal) S_ .f32 0x47C35000#32))

/-- `H` minus its column means. -/
def centered (H : FVec Ideal S100000x64 .f32) : FVec Ideal S100000x64 .f32 :=
  subf H (broadcastInDim S100000x64 ![0, 1] bcast_S1x64_S100000x64_0_1 (meanRow H))

/-- The variance's divisor: `100000 − ddof` with `ddof = 0` converted from `i32`. -/
def varDenom : FVec Ideal S_ .f32 :=
  subf (constant (F := Ideal) S_ .f32 0x47C35000#32) (sitofp .f32 (constantI S_ 32 0#32))

/-- The column variances: the centred squares' sums over the divisor where the divisor is positive, NaN's pattern otherwise. -/
def varOf (H : FVec Ideal S100000x64 .f32) : FVec Ideal S64 .f32 :=
  select (broadcastInDim S64 ![] bcast_S_S64 (cmpf .ogt varDenom (constant (F := Ideal) S_ .f32 0x00000000#32)))
    (Host.divf (colSum (mulf (centered H) (centered H))) (broadcastInDim S64 ![] bcast_S_S64 varDenom))
    (broadcastInDim S64 ![] bcast_S_S64 (constant (F := Ideal) S_ .f32 0x7FC00000#32))

/-- The normalization: `((H − mean) · rsqrt(var + ε)) · g + b`, the four vectors along the rows. -/
def bnOut (H : FVec Ideal S100000x64 .f32) (mean var g b : FVec Ideal S64 .f32) : FVec Ideal S100000x64 .f32 :=
  addf (mulf (mulf (subf H (rows64 mean))
          (rows64 (Host.rsqrt (addf var (broadcastInDim S64 ![] bcast_S_S64 (constant (F := Ideal) S_ .f32 0x3727C5AC#32))))))
        (rows64 g))
    (rows64 b)

/-- The reference's result as a function of its ten arguments. -/
def refOut (a0 : FVec Ideal S100000x128 .f32) (e : IVec S2x1600000 32) (a2 : FVec Ideal S128x128 .f32) (a3 : FVec Ideal S128 .f32)
    (a4 : FVec Ideal S128x128 .f32) (a5 : FVec Ideal S128 .f32) (a6 : FVec Ideal S128x64 .f32) (a7 a8 a9 : FVec Ideal S64 .f32) :
    FVec Ideal S100000x64 .f32 :=
  bnOut (h3 a0 e a2 a3 a4 a5 a6 a7) (meanOf (h3 a0 e a2 a3 a4 a5 a6 a7)) (varOf (h3 a0 e a2 a3 a4 a5 a6 a7)) a8 a9

end Cert.ReferenceIdeal.RefRun

end
-- ==== Proof.KChain.lean ====
/-
  The value the program leaves in its result buffer, as one function of its ten arguments.

  A layer, as this program computes it: project the node features first (Y = X · W, a region), then add to each node's
  projected row the projected rows of its in-neighbours (rows of Y taken at the wrapped sources, summed into the zero
  array at the destinations) and the bias; the first two layers end in max(·, 0). After the third layer the column
  means and variances of its output H are taken, and the last region normalises H by them. Each boundary's buffers are
  computed from the previous boundary's by the stretch's operations or the region's whole-array function; buffers that
  a segment does not write are carried across it.
-/
import proofs.«133921_j77558519431976_2_alg».proof.Proof.KWalk
import proofs.«133921_j77558519431976_2_alg».proof.Proof.KRegion1
import proofs.«133921_j77558519431976_2_alg».proof.Proof.KRegion2
import proofs.«133921_j77558519431976_2_alg».proof.Proof.KRegion3
import proofs.«133921_j77558519431976_2_alg».proof.Proof.RefStages
import Idealize.ShloMosaic.Lib.StableHlo.Run

set_option maxRecDepth 16384

noncomputable section

namespace Cert.KernelIdeal.KVal

open Idealize.ShloMosaic Idealize.ShloMosaic.TcCoe Idealize.ShloMosaic.ValueIdx Idealize.SL.Sem Idealize.ShloMosaic.StableHlo
open Cert.KernelIdeal Cert.KernelIdeal.Gen Cert.Dense
open Cert.ReferenceIdeal.RefRun (row0 row1 wrapIdx zeros128 rows128 rows64 relu128 meanOf varOf)

/-! ## The stages, in this program's spelling -/

/-- The wrapped source numbers as a column (the start indices of the row gather). -/
def srcCol (r0 : IVec S1600000 32) : IVec S1600000x1 32 :=
  broadcastInDim S1600000x1 ![0] bcast_S1600000_S1600000x1_0 (wrapIdx r0)

/-- The destination numbers as a column (the indices of the row scatter). -/
def dstCol (r1 : IVec S1600000 32) : IVec S1600000x1 32 :=
  broadcastInDim S1600000x1 ![0] bcast_S1600000_S1600000x1_0 r1

/-- The all-zero array of 64 columns. -/
def zeros64 : FVec Ideal S100000x64 .f32 :=
  broadcastInDim S100000x64 ![] bcast_S_S100000x64 (constant (F := Ideal) S_ .f32 0x00000000#32)

/-- A layer before its activation, from the projected features `Y`: Y + (in-neighbours' rows of Y, summed) + bias. -/
def kpre128 (r0 r1 : IVec S1600000 32) (Y : FVec Ideal S100000x128 .bf16) (b : FVec Ideal S128 .f32) : FVec Ideal S100000x128 .f32 :=
  addf (addf (extf .f32 Y bitsLt_bf16_f32)
      (Host.scatterAdd (F := Ideal) scatter_S100000x128_S1600000x1_S1600000x128_1_0_0_1 zeros128 (dstCol r1)
        (extf .f32 (Host.gather gather_S100000x128_S1600000x1_S1600000x128_1_0_n_n_0_1_1128 Y (srcCol r0)) bitsLt_bf16_f32)))
    (rows128 b)

/-- The same for the last, 64-column layer. -/
def kpre64 (r0 r1 : IVec S1600000 32) (Y : FVec Ideal S100000x64 .bf16) (b : FVec Ideal S64 .f32) : FVec Ideal S100000x64 .f32 :=
  addf (addf (extf .f32 Y bitsLt_bf16_f32)
      (Host.scatterAdd (F := Ideal) scatter_S100000x64_S1600000x1_S1600000x64_1_0_0_1 zeros64 (dstCol r1)
        (extf .f32 (Host.gather gather_S100000x64_S1600000x1_S1600000x64_1_0_n_n_0_1_164 Y (srcCol r0)) bitsLt_bf16_f32)))
    (rows64 b)

/-- The first layer's output. -/
def kh1 (a0 : S100000x128.Idx → EReal) (e : IVec S2x1600000 32) (a2 : S128x128.Idx → EReal) (a3 : FVec Ideal S128 .f32) :
    FVec Ideal S100000x128 .f32 :=
  relu128 (kpre128 (row0 e) (row1 e) (prod a0 a2) a3)

/-- The second layer's output. -/
def kh2 (a0 : S100000x128.Idx → EReal) (e : IVec S2x1600000 32) (a2 : S128x128.Idx → EReal) (a3 : FVec Ideal S128 .f32)
    (a4 : S128x128.Idx → EReal) (a5 : FVec Ideal S128 .f32) : FVec Ideal S100000x128 .f32 :=
  relu128 (kpre128 (row0 e) (row1 e) (prod (kh1 a0 e a2 a3 : S100000x128.Idx → EReal) a4) a5)

/-- The third layer's output (no activation). -/
def kh3 (a0 : S100000x128.Idx → EReal) (e : IVec S2x1600000 32) (a2 : S128x128.Idx → EReal) (a3 : FVec Ideal S128 .f32)
    (a4 : S128x128.Idx → EReal) (a5 : FVec Ideal S128 .f32) (a6 : S128x64.Idx → EReal) (a7 : FVec Ideal S64 .f32) :
    FVec Ideal S100000x64 .f32 :=
  kpre64 (row0 e) (row1 e) (prod (kh2 a0 e a2 a3 a4 a5 : S100000x128.Idx → EReal) a6) a7

/-- The inverse deviations: rsqrt(variance + ε). -/
def rdev (var : FVec Ideal S64 .f32) : FVec Ideal S64 .f32 :=
  Host.rsqrt (addf var (broadcastInDim S64 ![] bcast_S_S64 (constant (F := Ideal) S_ .f32 0x3727C5AC#32)))

/-- A 64-vector as a one-row array. -/
def asRow (v : FVec Ideal S64 .f32) : FVec Ideal S1x64 .f32 := shapeCast S1x64 v shapeCasts_S64_S1x64

/-- The normalised third layer: the program's result. -/
def kbn (H : FVec Ideal S100000x64 .f32) (a8 a9 : FVec Ideal S64 .f32) : S100000x64.Idx → EReal :=
  affine (H : S100000x64.Idx → EReal) (asRow (meanOf H)) (asRow (rdev (varOf H))) (asRow a8) (asRow a9)

/-- The column variances as the variance function computes them from `H` and its integer argument `d` (the degrees of
    freedom removed from the count): the column sums of the squared deviations from the column means, over the count
    minus `d` where that is positive. -/
def kvar (H : FVec Ideal S100000x64 .f32) (d : IVec S_ 32) : FVec Ideal S64 .f32 :=
  select (broadcastInDim S64 ![] bcast_S_S64 (cmpf .ogt (subf (constant (F := Ideal) S_ .f32 0x47C35000#32) (sitofp .f32 d)) (constant (F := Ideal) S_ .f32 0x00000000#32)))
    (Host.divf (Host.reduceAdd (F := Ideal) (mulf (subf H (broadcastInDim S100000x64 ![0, 1] bcast_S1x64_S100000x64_0_1
          (Host.divf (broadcastInDim S1x64 ![1] bcast_S64_S1x64_1 (Host.reduceAdd (F := Ideal) H (constant (F := Ideal) S_ .f32 0x00000000#32) reducesTo_S100000x64_S64_d0 h_S_))
            (broadcastInDim S1x64 ![] bcast_S_S1x64 (constant (F := Ideal) S_ .f32 0x47C35000#32)))))
        (subf H (broadcastInDim S100000x64 ![0, 1] bcast_S1x64_S100000x64_0_1
          (Host.divf (broadcastInDim S1x64 ![1] bcast_S64_S1x64_1 (Host.reduceAdd (F := Ideal) H (constant (F := Ideal) S_ .f32 0x00000000#32) reducesTo_S100000x64_S64_d0 h_S_))
            (broadcastInDim S1x64 ![] bcast_S_S1x64 (constant (F := Ideal) S_ .f32 0x47C35000#32))))))
        (constant (F := Ideal) S_ .f32 0x00000000#32) reducesTo_S100000x64_S64_d0 h_S_)
      (broadcastInDim S64 ![] bcast_S_S64 (subf (constant (F := Ideal) S_ .f32 0x47C35000#32) (sitofp .f32 d))))
    (broadcastInDim S64 ![] bcast_S_S64 (id (constant (F := Ideal) S_ .f32 0x7FC00000#32)))

/-- Called with the integer zero it is the reference's variance. -/
theorem kvar_zero (H : FVec Ideal S100000x64 .f32) : kvar H (constantI S_ 32 0#32) = varOf H := rfl

variable (m : (ℓ : Loc nD τ sig) → Buf (Elt Ideal) ℓ) (ρ : Dev nD → PrngReg)

/-! ## Boundary by boundary -/

set_option maxHeartbeats 2000000

/-- After the first stretch: the edge list's two rows. -/
theorem W1_v1 (c : Dev nD) : W1 m ρ c (Proc.devRef .tc main_v1) = row0 (m ((c : Thread nD τ).loc main_arg1)) := by
  show StableHlo.after hostOps0 (W0 m ρ c) (Proc.devRef .tc main_v1) = _
  after_results
  rfl
theorem W1_v3 (c : Dev nD) : W1 m ρ c (Proc.devRef .tc main_v3) = row1 (m ((c : Thread nD τ).loc main_arg1)) := by
  show StableHlo.after hostOps0 (W0 m ρ c) (Proc.devRef .tc main_v3) = _
  after_results
  rfl

/-- After the first region: the projected features. -/
theorem W2_v4 (c : Dev nD) : (W2 m ρ c (Proc.devRef .tc main_v4) : S100000x128.Idx → EReal) = prod ((m ((c : Thread nD τ).loc main_arg0)) : S100000x128.Idx → EReal) ((m ((c : Thread nD τ).loc main_arg2)) : S128x128.Idx → EReal) :=
  (W2_arr m ρ c 2).trans ((final0 (V1 m ρ) c).trans (congrArg₂ prod (W1_main_arg0 m ρ c) (W1_main_arg2 m ρ c)))

/-- After the second stretch: the first layer before its activation. -/
theorem W3_v20 (c : Dev nD) : W3 m ρ c (Proc.devRef .tc main_v20) = kpre128 (row0 (m ((c : Thread nD τ).loc main_arg1))) (row1 (m ((c : Thread nD τ).loc main_arg1))) (prod ((m ((c : Thread nD τ).loc main_arg0)) : S100000x128.Idx → EReal) ((m ((c : Thread nD τ).loc main_arg2)) : S128x128.Idx → EReal)) (m ((c : Thread nD τ).loc main_arg3)) := by
  have h : W3 m ρ c (Proc.devRef .tc main_v20) = kpre128 (W2 m ρ c (Proc.devRef .tc main_v1)) (W2 m ρ c (Proc.devRef .tc main_v3)) (W2 m ρ c (Proc.devRef .tc main_v4)) (W2 m ρ c (Proc.devRef .tc main_arg3)) := by
    show StableHlo.after hostOps1 (W2 m ρ c) (Proc.devRef .tc main_v20) = _
    generalize W2 m ρ c = V
    after_results_simp
    rfl
  rw [h, W2_main_v1, W1_v1, W2_main_v3, W1_v3, W2_v4, W2_main_arg3]

/-- After the first activation: the first layer's output. -/
theorem W4_v21 (c : Dev nD) : W4 m ρ c (Proc.devRef .tc main_v21) = (kh1 (m ((c : Thread nD τ).loc main_arg0)) (m ((c : Thread nD τ).loc main_arg1)) (m ((c : Thread nD τ).loc main_arg2)) (m ((c : Thread nD τ).loc main_arg3))) := by
  have h : W4 m ρ c (Proc.devRef .tc main_v21) = relu128 (W3 m ρ c (Proc.devRef .tc main_v20)) := by
    show StableHlo.after hostOps1_1 (W3 m ρ c) (Proc.devRef .tc main_v21) = _
    generalize W3 m ρ c = V
    after_results_simp
    rfl
  rw [h, W3_v20]; rfl

/-- After the second region: the first layer's output, projected. -/
theorem W5_v22 (c : Dev nD) : (W5 m ρ c (Proc.devRef .tc main_v22) : S100000x128.Idx → EReal) = prod ((kh1 (m ((c : Thread nD τ).loc main_arg0)) (m ((c : Thread nD τ).loc main_arg1)) (m ((c : Thread nD τ).loc main_arg2)) (m ((c : Thread nD τ).loc main_arg3))) : S100000x128.Idx → EReal) ((m ((c : Thread nD τ).loc main_arg4)) : S128x128.Idx → EReal) :=
  (W5_arr m ρ c 2).trans ((final1 (V4 m ρ) c).trans (congrArg₂ prod (W4_v21 m ρ c) (W4_main_arg4 m ρ c)))

/-- After the third stretch: the second layer before its activation. -/
theorem W6_v38 (c : Dev nD) : W6 m ρ c (Proc.devRef .tc main_v38) = kpre128 (row0 (m ((c : Thread nD τ).loc main_arg1))) (row1 (m ((c : Thread nD τ).loc main_arg1))) (prod ((kh1 (m ((c : Thread nD τ).loc main_arg0)) (m ((c : Thread nD τ).loc main_arg1)) (m ((c : Thread nD τ).loc main_arg2)) (m ((c : Thread nD τ).loc main_arg3))) : S100000x128.Idx → EReal) ((m ((c : Thread nD τ).loc main_arg4)) : S128x128.Idx → EReal)) (m ((c : Thread nD τ).loc main_arg5)) := by
  have h : W6 m ρ c (Proc.devRef .tc main_v38) = kpre128 (W5 m ρ c (Proc.devRef .tc main_v1)) (W5 m ρ c (Proc.devRef .tc main_v3)) (W5 m ρ c (Proc.devRef .tc main_v22)) (W5 m ρ c (Proc.devRef .tc main_arg5)) := by
    show StableHlo.after hostOps2 (W5 m ρ c) (Proc.devRef .tc main_v38) = _
    generalize W5 m ρ c = V
    after_results_simp
    rfl
  rw [h, W5_main_v1, W1_v1, W5_main_v3, W1_v3, W5_v22, W5_main_arg5]

/-- After the second activation: the second layer's output. -/
theorem W7_v39 (c : Dev nD) : W7 m ρ c (Proc.devRef .tc main_v39) = (kh2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) := by
  have h : W7 m ρ c (Proc.devRef .tc main_v39) = relu128 (W6 m ρ c (Proc.devRef .tc main_v38)) := by
    show StableHlo.after hostOps2_1 (W6 m ρ c) (Proc.devRef .tc main_v39) = _
    generalize W6 m ρ c = V
    after_results_simp
    rfl
  rw [h, W6_v38]; rfl

/-- After the third region: the second layer's output, projected to 64 columns. -/
theorem W8_v40 (c : Dev nD) : (W8 m ρ c (Proc.devRef .tc main_v40) : S100000x64.Idx → EReal) = prod ((kh2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) : S100000x128.Idx → EReal) ((m ((c : Thread nD τ).loc main_arg6)) : S128x64.Idx → EReal) :=
  (W8_arr m ρ c 2).trans ((final2 (V7 m ρ) c).trans (congrArg₂ prod (W7_v39 m ρ c) (W7_main_arg6 m ρ c)))

/-- After the fourth stretch: the third layer's output, -/
theorem W9_v56 (c : Dev nD) : W9 m ρ c (Proc.devRef .tc main_v56) = (kh3 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) := by
  have h : W9 m ρ c (Proc.devRef .tc main_v56) = kpre64 (W8 m ρ c (Proc.devRef .tc main_v1)) (W8 m ρ c (Proc.devRef .tc main_v3)) (W8 m ρ c (Proc.devRef .tc main_v40)) (W8 m ρ c (Proc.devRef .tc main_arg7)) := by
    show StableHlo.after hostOps3 (W8 m ρ c) (Proc.devRef .tc main_v56) = _
    generalize W8 m ρ c = V
    after_results_simp
    rfl
  rw [h, W8_main_v1, W1_v1, W8_main_v3, W1_v3, W8_v40, W8_main_arg7]; rfl

/-- its column means, -/
theorem W9_v59 (c : Dev nD) : W9 m ρ c (Proc.devRef .tc main_v59) = meanOf (kh3 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) := by
  have h : W9 m ρ c (Proc.devRef .tc main_v59) = meanOf (kpre64 (W8 m ρ c (Proc.devRef .tc main_v1)) (W8 m ρ c (Proc.devRef .tc main_v3)) (W8 m ρ c (Proc.devRef .tc main_v40)) (W8 m ρ c (Proc.devRef .tc main_arg7))) := by
    show StableHlo.after hostOps3 (W8 m ρ c) (Proc.devRef .tc main_v59) = _
    generalize W8 m ρ c = V
    after_results_simp
    rfl
  rw [h, W8_main_v1, W1_v1, W8_main_v3, W1_v3, W8_v40, W8_main_arg7]; rfl

/-- and the integer zero the variance is called with. -/
theorem W9_c9 (c : Dev nD) : W9 m ρ c (Proc.devRef .tc main_c_9) = constantI S_ 32 0#32 := by
  show StableHlo.after hostOps3 (W8 m ρ c) (Proc.devRef .tc main_c_9) = _
  generalize W8 m ρ c = V
  after_results_simp

/-- After the variance's stretch: the column variances. -/
theorem W10_v60 (c : Dev nD) : W10 m ρ c (Proc.devRef .tc main_v60) = varOf (kh3 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) := by
  have h : W10 m ρ c (Proc.devRef .tc main_v60) = kvar (W9 m ρ c (Proc.devRef .tc main_v56)) (W9 m ρ c (Proc.devRef .tc main_c_9)) := by
    show StableHlo.after hostOps3_1 (W9 m ρ c) (Proc.devRef .tc main_v60) = _
    generalize W9 m ρ c = V
    after_results_simp
    rfl
  rw [h, W9_c9, W9_v56, kvar_zero]

/-- After the last stretch: the four one-row arrays. -/
theorem W11_v64 (c : Dev nD) : W11 m ρ c (Proc.devRef .tc main_v64) = asRow (meanOf (kh3 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)))) := by
  have h : W11 m ρ c (Proc.devRef .tc main_v64) = asRow (W10 m ρ c (Proc.devRef .tc main_v59)) := by
    show StableHlo.after hostOps3_2 (W10 m ρ c) (Proc.devRef .tc main_v64) = _
    generalize W10 m ρ c = V
    after_results_simp
    rfl
  rw [h, W10_main_v59, W9_v59]
theorem W11_v65 (c : Dev nD) : W11 m ρ c (Proc.devRef .tc main_v65) = asRow (rdev (varOf (kh3 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))))) := by
  have h : W11 m ρ c (Proc.devRef .tc main_v65) = asRow (rdev (W10 m ρ c (Proc.devRef .tc main_v60))) := by
    show StableHlo.after hostOps3_2 (W10 m ρ c) (Proc.devRef .tc main_v65) = _
    generalize W10 m ρ c = V
    after_results_simp
    rfl
  rw [h, W10_v60]
theorem W11_v66 (c : Dev nD) : W11 m ρ c (Proc.devRef .tc main_v66) = asRow (m ((c : Thread nD τ).loc main_arg8)) := by
  have h : W11 m ρ c (Proc.devRef .tc main_v66) = asRow (W10 m ρ c (Proc.devRef .tc main_arg8)) := by
    show StableHlo.after hostOps3_2 (W10 m ρ c) (Proc.devRef .tc main_v66) = _
    generalize W10 m ρ c = V
    after_results_simp
    rfl
  rw [h, W10_main_arg8]
theorem W11_v67 (c : Dev nD) : W11 m ρ c (Proc.devRef .tc main_v67) = asRow (m ((c : Thread nD τ).loc main_arg9)) := by
  have h : W11 m ρ c (Proc.devRef .tc main_v67) = asRow (W10 m ρ c (Proc.devRef .tc main_arg9)) := by
    show StableHlo.after hostOps3_2 (W10 m ρ c) (Proc.devRef .tc main_v67) = _
    generalize W10 m ρ c = V
    after_results_simp
    rfl
  rw [h, W10_main_arg9]
theorem W11_v56 (c : Dev nD) : W11 m ρ c (Proc.devRef .tc main_v56) = (kh3 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) :=
  (W11_main_v56 m ρ c).trans ((W10_main_v56 m ρ c).trans (W9_v56 m ρ c))

/-- THE RESULT: after the last region the result buffer holds the normalised third layer. -/
theorem kernel_value (c : Dev nD) : (W12 m ρ c (Proc.devRef .tc main_v68) : S100000x64.Idx → EReal) = kbn (kh3 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) (m ((c : Thread nD τ).loc main_arg8)) (m ((c : Thread nD τ).loc main_arg9)) := by
  refine (W12_arr m ρ c 5).trans ((final3 (V11 m ρ) c).trans ?_)
  show affine (W11 m ρ c (Proc.devRef .tc main_v56) : S100000x64.Idx → EReal) (W11 m ρ c (Proc.devRef .tc main_v64)) (W11 m ρ c (Proc.devRef .tc main_v65)) (W11 m ρ c (Proc.devRef .tc main_v66)) (W11 m ρ c (Proc.devRef .tc main_v67)) = _
  rw [W11_v56, W11_v64, W11_v65, W11_v66, W11_v67]
  rfl

end Cert.KernelIdeal.KVal

end
-- ==== Proof.LibColRow.lean ====
/-
  Columns and rows of a rank-2 array on the host: the layouts a per-row scale and a per-column bias pass through.

  A vector of a entries becomes an [a, 1] column, either by a reshape or by a broadcast along a new unit axis, and the column
  is then repeated across b lanes; a vector of b entries becomes a [1, b] row and is repeated down a rows. Read at an index
  written by its coordinates, each of these is the operand at the row coordinate alone (for a column) or at the lane
  coordinate alone (for a row).
-/
import Idealize.ShloMosaic.Lib.ValueIdx
import Idealize.ShloMosaic.Lib.Pipeline.Value

namespace Cert.LibColRow

open Idealize.ShloMosaic Idealize.ShloMosaic.ValueIdx

variable {α : Type}

/-- A vector broadcast to an `[a, 1]` column reads, at `(p, u)`, the vector at `p`. -/
theorem bcast_a_a1_apply {a : ℕ} (v : (⟨1, ![a]⟩ : Shape).Idx → α)
    (h : (⟨1, ![a]⟩ : Shape).BroadcastsInDim ⟨2, ![a, 1]⟩ (![0] : Fin 1 → Fin 2)) (p : Fin a) (u : Fin 1) :
    broadcastInDim ⟨2, ![a, 1]⟩ (![0] : Fin 1 → Fin 2) h v (ix2 p u) = v (ix1 p) := by
  refine broadcastInDim_apply _ h v (ix2 p u) (ix1 p) fun ax => ?_
  match ax with
  | ⟨0, _⟩ =>
    show p.val = if a = 1 then 0 else p.val
    split
    · have := p.isLt; omega
    · rfl

/-- A vector reshaped to an `[a, 1]` column reads, at `(p, u)`, the vector at `p`. -/
theorem shapeCast_a_a1_apply {a : ℕ} (v : (⟨1, ![a]⟩ : Shape).Idx → α)
    (h : (⟨1, ![a]⟩ : Shape).ShapeCasts ⟨2, ![a, 1]⟩) (p : Fin a) (u : Fin 1) :
    shapeCast ⟨2, ![a, 1]⟩ v h (ix2 p u) = v (ix1 p) :=
  shapeCast_apply v h _ _ (by
    have hu : u.val = 0 := by omega
    rw [Shape.rowMajor_val_two, Shape.rowMajor_val_one]
    show p.val = p.val * 1 + u.val
    omega)

/-- An `[a, 1]` column broadcast (along both axes in place) to `[a, b]` reads, at `(p, q)`, the column at row `p`. -/
theorem bcast_a1_ab_apply {a b : ℕ} (col : (⟨2, ![a, 1]⟩ : Shape).Idx → α)
    (h : (⟨2, ![a, 1]⟩ : Shape).BroadcastsInDim ⟨2, ![a, b]⟩ (![0, 1] : Fin 2 → Fin 2)) (p : Fin a) (q : Fin b) :
    broadcastInDim ⟨2, ![a, b]⟩ (![0, 1] : Fin 2 → Fin 2) h col (ix2 p q) = col (ix2 p (0 : Fin 1)) := by
  refine broadcastInDim_apply _ h col (ix2 p q) (ix2 p (0 : Fin 1)) fun ax => ?_
  match ax with
  | ⟨0, _⟩ =>
    show p.val = if a = 1 then 0 else p.val
    split
    · have := p.isLt; omega
    · rfl
  | ⟨1, _⟩ => exact (if_pos rfl).symm

/-- A vector broadcast to a `[1, b]` row reads, at `(u, q)`, the vector at `q`. -/
theorem bcast_b_1b_apply {b : ℕ} (v : (⟨1, ![b]⟩ : Shape).Idx → α)
    (h : (⟨1, ![b]⟩ : Shape).BroadcastsInDim ⟨2, ![1, b]⟩ (![1] : Fin 1 → Fin 2)) (u : Fin 1) (q : Fin b) :
    broadcastInDim ⟨2, ![1, b]⟩ (![1] : Fin 1 → Fin 2) h v (ix2 u q) = v (ix1 q) := by
  refine broadcastInDim_apply _ h v (ix2 u q) (ix1 q) fun ax => ?_
  match ax with
  | ⟨0, _⟩ =>
    show q.val = if b = 1 then 0 else q.val
    split
    · have := q.isLt; omega
    · rfl

/-- A `[1, b]` row broadcast (along both axes in place) to `[a, b]` reads, at `(p, q)`, the row at lane `q`. -/
theorem bcast_1b_ab_apply {a b : ℕ} (row : (⟨2, ![1, b]⟩ : Shape).Idx → α)
    (h : (⟨2, ![1, b]⟩ : Shape).BroadcastsInDim ⟨2, ![a, b]⟩ (![0, 1] : Fin 2 → Fin 2)) (p : Fin a) (q : Fin b) :
    broadcastInDim ⟨2, ![a, b]⟩ (![0, 1] : Fin 2 → Fin 2) h row (ix2 p q) = row (ix2 (0 : Fin 1) q) := by
  refine broadcastInDim_apply _ h row (ix2 p q) (ix2 (0 : Fin 1) q) fun ax => ?_
  match ax with
  | ⟨0, _⟩ => exact (if_pos rfl).symm
  | ⟨1, _⟩ =>
    show q.val = if b = 1 then 0 else q.val
    split
    · have := q.isLt; omega
    · rfl

end Cert.LibColRow
-- ==== Proof.BridgeBN.lean ====
/-
  The normalisation, in the two spellings.

  One program keeps the column means, the inverse deviations, the scale and the shift as one-row arrays and lets the
  last region repeat each down the rows; the other repeats each 64-vector down the rows by two broadcasts and then
  applies ((H − mean) · rdev) · scale + shift elementwise. Entry (p, q) of either reads H at (p, q) and the four
  vectors at q: the two results are the same array, for every H and every four vectors.
-/
import proofs.«133921_j77558519431976_2_alg».proof.Proof.KChain
import proofs.«133921_j77558519431976_2_alg».proof.Proof.LibColRow
import Idealize.ShloMosaic.Lib.ValueLayout

set_option maxRecDepth 16384

noncomputable section

namespace Cert.Bridge

open Idealize.ShloMosaic Idealize.ShloMosaic.ValueIdx
open Cert.Dense Cert.KernelIdeal.KVal
open Cert.ReferenceIdeal.RefRun

/-- A 64-vector laid out as one row reads, in column q, the vector's entry q. -/
theorem asRow_apply (v : FVec Ideal Cert.KernelIdeal.S64 .f32) (q : Fin 64) : asRow v (ix2 (0 : Fin 1) q) = v (ix1 q) := by
  unfold asRow
  refine (shapeCast_addUnit_apply (n := 1) ![64] v _ (ix2 (0 : Fin 1) q)).trans (congrArg v ?_)
  funext a
  match a with
  | ⟨0, _⟩ => rfl

/-- A 64-vector repeated down 100000 rows reads, at (p, q), the vector's entry q. -/
theorem rows64_apply (v : FVec Ideal Cert.ReferenceIdeal.S64 .f32) (p : Fin 100000) (q : Fin 64) : rows64 v (ix2 p q) = v (ix1 q) := by
  unfold rows64
  rw [Cert.LibColRow.bcast_1b_ab_apply, Cert.LibColRow.bcast_b_1b_apply]

/-- A 128-vector repeated down 100000 rows reads, at (p, q), the vector's entry q. -/
theorem rows128_apply (v : FVec Ideal Cert.ReferenceIdeal.S128 .f32) (p : Fin 100000) (q : Fin 128) : rows128 v (ix2 p q) = v (ix1 q) := by
  unfold rows128
  rw [Cert.LibColRow.bcast_1b_ab_apply, Cert.LibColRow.bcast_b_1b_apply]

/-- The region's normalisation over one-row arrays is the elementwise normalisation over repeated vectors. -/
theorem kbn_eq (H : FVec Ideal Cert.ReferenceIdeal.S100000x64 .f32) (a8 a9 : FVec Ideal Cert.ReferenceIdeal.S64 .f32) :
    kbn H a8 a9 = bnOut H (meanOf H) (varOf H) a8 a9 := by
  funext i
  obtain ⟨p, q, rfl⟩ : ∃ (p : Fin 100000) (q : Fin 64), i = ix2 p q := ⟨i 0, i 1, eq_ix2 i⟩
  unfold bnOut
  rw [addf_apply, mulf_apply, mulf_apply, subf_apply, rows64_apply, rows64_apply, rows64_apply, rows64_apply]
  show ((H (ix2 p q) - asRow (meanOf H) (ix2 (0 : Fin 1) q)) * asRow (rdev (varOf H)) (ix2 (0 : Fin 1) q)) * asRow a8 (ix2 (0 : Fin 1) q)
      + asRow a9 (ix2 (0 : Fin 1) q) = _
  rw [asRow_apply, asRow_apply, asRow_apply, asRow_apply]
  rfl

end Cert.Bridge

end
-- ==== Proof.LibGatherRows.lean ====
/-
  A gather of whole rows, read at an index written by coordinates.

  Taking rows of an [N, C] table at an [R, 1] array of row numbers gives an [R, C] array. Its element (p, q) is the table's
  element (ρ p, q): the row ρ p is the row number stored for p, read as a signed integer and clamped into [0, N − 1]; the lane q
  is kept. The row ρ p depends on the row numbers alone — not on the table, nor on the lane — so taking rows commutes with
  anything done to each row of the table separately.
-/
import Idealize.ShloMosaic.Lib.ValueIdx
import Idealize.ShloMosaic.Lib.Pipeline.Value

namespace Cert.LibGatherRows

open Idealize.ShloMosaic Idealize.ShloMosaic.ValueIdx

variable {α : Type}

/-- The dimension numbers of taking rows: the table's row axis is collapsed and indexed by the one component of each start index,
    its lane axis is the result's second axis, taken whole. Their conditions `wf` are decided on a program's literal shapes. -/
abbrev rowDims (N R C : ℕ)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- Of a table's two axes, the one that is not the collapsed row axis is the lane axis. -/
private theorem kept_lanes :
    (List.finRange 2).filter (fun a : Fin 2 => a ∉ ([0] ++ [] : List (Fin 2))) = [1] := by decide

/-- The row of an `N`-row table that result row `p` reads: the stored row number, signed, clamped into `[0, N − 1]`. -/
def rowOf {N R w : ℕ} (hN : 0 < N) (idx : IVec ⟨2, ![R, 1]⟩ w) (p : Fin R) : Fin N :=
  ⟨min (idx (ix2 p (0 : Fin 1))).toInt.toNat (N - 1), by omega⟩

/-- Rows of an `[N, C]` table taken at an `[R, 1]` array of row numbers: element `(p, q)` is the table's `(rowOf p, q)`. -/
theorem gather_rows_apply {N R C w : ℕ} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (p : Fin R) (q : Fin C) :
    Host.gather (rowDims N R C wf) x idx (ix2 p q) = x (ix2 (rowOf hN idx p) q) := by
  unfold Host.gather
  congr 1
  funext a
  refine Fin.ext ?_
  show (rowDims N R C wf).start (ix2 p q) idx a + (rowDims N R C wf).batchCoord (ix2 p q) a
    + (rowDims N R C wf).offCoord (ix2 p q) a = _
  rw [GatherDims.batchCoord_eq_zero _ _ _ List.not_mem_nil]
  match a with
  | ⟨0, _⟩ =>
    show (rowDims N R C wf).start (ix2 p q) idx (0 : Fin 2) + 0 + (rowDims N R C wf).offCoord (ix2 p q) (0 : Fin 2)
      = (rowOf hN idx p).val
    rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N R C wf).startIndexMap from List.mem_singleton.mpr rfl)]
    have hsi : (rowDims N R C wf).siIdx (ix2 p q) ⟨List.idxOf (0 : Fin 2) (rowDims N R C wf).startIndexMap,
        List.idxOf_lt_length_iff.2 (List.mem_singleton.mpr rfl)⟩ = ix2 p (0 : Fin 1) := by
      funext b; refine Fin.ext ?_
      match b with
      | ⟨0, _⟩ => rfl
      | ⟨1, _⟩ => rfl
    rw [hsi]
    rfl
  | ⟨1, _⟩ =>
    show (rowDims N R C wf).start (ix2 p q) idx (1 : Fin 2) + 0 + (rowDims N R C wf).offCoord (ix2 p q) (1 : Fin 2) = q.val
    have hs : (rowDims N R C wf).start (ix2 p q) idx (1 : Fin 2) = 0 := by
      unfold GatherDims.start
      rw [dif_neg (show (1 : Fin 2) ∉ ([0] : List (Fin 2)) by decide)]
    have hkept : (rowDims N R C wf).sKept = [(1 : Fin 2)] := kept_lanes
    have hk : (1 : Fin 2) ∈ (rowDims N R C wf).sKept := by rw [hkept]; exact List.mem_singleton.mpr rfl
    rw [hs]
    unfold GatherDims.offCoord
    rw [dif_pos hk]
    simp only [List.getElem_singleton, Nat.add_zero, Nat.zero_add]
    rfl

end Cert.LibGatherRows
-- ==== Proof.LibRowIndex.lean ====
/-
  Rows named by an array of row numbers: a flat gather, and where an accumulating scatter of rows lands.

  Taking entries of a length-N vector at an [R, 1] array of row numbers gives a length-R vector whose entry p is the vector's
  entry ρ p, the SAME row ρ p (the stored number read signed and clamped into [0, N − 1]) that taking whole rows of an [N, C]
  table at those numbers reads. A scatter of the rows of an [R, C] array of updates into an [N, C] array at an [R, 1] array
  of row numbers lands update (e, f) — when it lands at all — on row "the stored number of e, read signed, not clamped", so an
  update that lands on row n has stored number exactly n. jnp's indexing first wraps a negative number by adding the extent:
  on a number that is already a valid row the wrap does nothing, so a scatter target n is also the row a gather at the wrapped
  numbers reads.
-/
import Idealize.ShloMosaic.Lib.ValueIdx
import Idealize.ShloMosaic.Lib.Pipeline.Value
import proofs.«133921_j77558519431976_2_alg».proof.Proof.LibGatherRows

namespace Cert.LibRowIndex

open Idealize.ShloMosaic Idealize.ShloMosaic.ValueIdx Cert.LibGatherRows

variable {α : Type}

/-- The dimension numbers of taking entries of a vector: its one axis is collapsed and indexed by the one component of each
    start index; the result has no offset axis. -/
abbrev vecDims (N R : ℕ) (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- Entries of a length-`N` vector taken at an `[R, 1]` array of row numbers: entry `p` is the vector's entry `rowOf p`. -/
theorem gather_vec_apply {N R w : ℕ} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (p : Fin R) :
    Host.gather (vecDims N R wf) x idx (ix1 p) = x (ix1 (rowOf hN idx p)) := by
  unfold Host.gather
  congr 1
  funext a
  refine Fin.ext ?_
  show (vecDims N R wf).start (ix1 p) idx a + (vecDims N R wf).batchCoord (ix1 p) a
    + (vecDims N R wf).offCoord (ix1 p) a = _
  rw [GatherDims.batchCoord_eq_zero _ _ _ List.not_mem_nil]
  match a with
  | ⟨0, _⟩ =>
    show (vecDims N R wf).start (ix1 p) idx (0 : Fin 1) + 0 + (vecDims N R wf).offCoord (ix1 p) (0 : Fin 1)
      = (rowOf hN idx p).val
    rw [GatherDims.offCoord_eq_zero _ _ _ (fun h => ((GatherDims.mem_sKept _ _).mp h).1 (List.mem_singleton.mpr rfl))]
    simp only [Nat.add_zero]
    unfold GatherDims.start
    rw [dif_pos (show (0 : Fin 1) ∈ (vecDims N R wf).startIndexMap from List.mem_singleton.mpr rfl)]
    have hsi : (vecDims N R wf).siIdx (ix1 p) ⟨List.idxOf (0 : Fin 1) (vecDims N R wf).startIndexMap,
        List.idxOf_lt_length_iff.2 (List.mem_singleton.mpr rfl)⟩ = ix2 p (0 : Fin 1) := by
      funext b; refine Fin.ext ?_
      match b with
      | ⟨0, _⟩ => rfl
      | ⟨1, _⟩ => rfl
    rw [hsi]
    rfl

/-- The dimension numbers of scattering rows: the update's lane axis is its window axis, the operand's row axis is inserted
    and indexed by the one component of each scatter index. -/
abbrev rowScatterDims (N R C : ℕ) (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

/-- Of an operand's two axes, the inserted row axis is not a kept one. -/
private theorem row_not_kept : (0 : Fin 2) ∉ (List.finRange 2).filter (fun a : Fin 2 => a ∉ ([0] : List (Fin 2))) := by decide

/-- An update `(e, f)` of a scatter of rows that lands on element `i` has stored row number exactly `i`'s row. -/
theorem scatter_rows_target {N R C w : ℕ} (wf : ScatterDims.WF ⟨2, ![N, C]⟩ ⟨2, ![R, 1]⟩ ⟨2, ![R, C]⟩ [1] [0] [0] 1)
    (idx : IVec ⟨2, ![R, 1]⟩ w) (e : Fin R) (f : Fin C) (i : (⟨2, ![N, C]⟩ : Shape).Idx)
    (h : (rowScatterDims N R C wf).resultIdx? (ix2 e f) idx = some i) :
    (idx (ix2 e (0 : Fin 1))).toInt = ((i 0).val : ℤ) := by
  have hst : (rowScatterDims N R C wf).start (ix2 e f) idx (0 : Fin 2) = (idx (ix2 e (0 : Fin 1))).toInt := by
    unfold ScatterDims.start
    rw [dif_pos (show (0 : Fin 2) ∈ (rowScatterDims N R C wf).scatterDimsToOperandDims from List.mem_singleton.mpr rfl)]
    have hsi : (rowScatterDims N R C wf).siIdx (ix2 e f) ⟨List.idxOf (0 : Fin 2) (rowScatterDims N R C wf).scatterDimsToOperandDims,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
  have hw : (rowScatterDims N R C wf).window (ix2 e f) (0 : Fin 2) = 0 := by
    unfold ScatterDims.window
    rw [dif_neg (show (0 : Fin 2) ∉ (rowScatterDims N R C wf).sKept from row_not_kept)]
  unfold ScatterDims.resultIdx? at h
  split at h
  · rename_i hin
    have h0 := congrArg Fin.val (congrFun (Option.some.inj h) (0 : Fin 2))
    have hpos := (hin (0 : Fin 2)).1
    rw [hst, hw] at hpos
    simp only [hst, hw] at h0
    omega
  · exact absurd h (by simp)

/-- jnp's wrap of a negative row number, `select(v < 0, v + k, v)`, leaves a non-negative number alone. -/
theorem wrap_of_nonneg (v k : BitVec 32) (hv : 0 ≤ v.toInt) :
    Scalar.select (IntOp.cmpi .slt v 0#32) (IntOp.addi v k) v = v := by
  have : IntOp.cmpi .slt v 0#32 ≠ 1 := by
    simp only [IntOp.cmpi, BitVec.slt]
    have h0 : (0#32 : BitVec 32).toInt = 0 := by decide
    rw [h0, decide_eq_false (by omega)]
    decide
  rw [Scalar.select, if_neg this]

/-- The row a gather reads at a row number that is stored as a valid row `n`: that row. -/
theorem rowOf_of_toInt {N R : ℕ} (hN : 0 < N) (idx : IVec ⟨2, ![R, 1]⟩ 32) (p : Fin R) (n : Fin N)
    (h : (idx (ix2 p (0 : Fin 1))).toInt = (n.val : ℤ)) : rowOf hN idx p = n := by
  refine Fin.ext ?_
  show min (idx (ix2 p (0 : Fin 1))).toInt.toNat (N - 1) = n.val
  rw [h]
  have := n.isLt
  simp only [Int.toNat_natCast]
  omega

end Cert.LibRowIndex
-- ==== Proof.LibRowAggLinear.lean ====
/-
  Summing rows into rows, and a matrix product applied after the sum.

  A graph layer adds, into row p of an [N, C] table, every row of an [R, C] array of updates whose stored row number is p
  (an accumulating scatter of rows, started from the zero table); the updates are themselves rows of the table taken at
  another array of row numbers (a gather of rows). A matrix product with a [C, D] matrix acts on each row separately, so it
  commutes with taking rows and — being additive in the row — with the accumulation: multiplying the aggregated table is the
  same as aggregating the multiplied one. Over the extended reals the distributive law a·w + b·w = (a + b)·w fails at
  infinities, so the statements ask every entry to be a real number.
-/
import Idealize.ShloMosaic.PureOps.Ideal
import Idealize.ShloMosaic.Lib.ValueIdx
import Idealize.ShloMosaic.Lib.Pipeline.Value
import proofs.«133921_j77558519431976_2_alg».proof.Proof.LibGatherRows
import proofs.«133921_j77558519431976_2_alg».proof.Proof.LibRowIndex

namespace Cert.LibRowAggLinear

open Idealize.ShloMosaic Idealize.ShloMosaic.ValueIdx Cert.LibGatherRows Cert.LibRowIndex
open scoped BigOperators

/-! ## Real numbers inside the extended reals -/

/-- The inclusion of the reals in the extended reals carries a finite sum to the finite sum. -/
@[norm_cast]
theorem coe_sum {κ : Type} (S : Finset κ) (f : κ → ℝ) : ((∑ e ∈ S, f e : ℝ) : EReal) = ∑ e ∈ S, (f e : EReal) := by
  classical
  induction S using Finset.induction_on with
  | empty => simp
  | insert a s ha ih => rw [Finset.sum_insert ha, Finset.sum_insert ha, EReal.coe_add, ih]

/-- A sum of two real numbers is a real number. -/
theorem real_add {a b : EReal} (ha : ∃ r : ℝ, a = r) (hb : ∃ r : ℝ, b = r) : ∃ r : ℝ, a + b = r := by
  obtain ⟨x, rfl⟩ := ha
  obtain ⟨y, rfl⟩ := hb
  exact ⟨x + y, (EReal.coe_add x y).symm⟩

/-- A product of two real numbers is a real number. -/
theorem real_mul {a b : EReal} (ha : ∃ r : ℝ, a = r) (hb : ∃ r : ℝ, b = r) : ∃ r : ℝ, a * b = r := by
  obtain ⟨x, rfl⟩ := ha
  obtain ⟨y, rfl⟩ := hb
  exact ⟨x * y, (EReal.coe_mul x y).symm⟩

/-- The larger of two real numbers is a real number. -/
theorem real_max {a b : EReal} (ha : ∃ r : ℝ, a = r) (hb : ∃ r : ℝ, b = r) : ∃ r : ℝ, max a b = r := by
  obtain ⟨x, rfl⟩ := ha
  obtain ⟨y, rfl⟩ := hb
  exact ⟨max x y, (EReal.coe_strictMono.monotone.map_max (a := x) (b := y)).symm⟩

/-- A finite sum of real numbers is a real number. -/
theorem real_sum {κ : Type} (S : Finset κ) (f : κ → EReal) (hf : ∀ e ∈ S, ∃ r : ℝ, f e = r) :
    ∃ r : ℝ, ∑ e ∈ S, f e = r := by
  classical
  induction S using Finset.induction_on with
  | empty => exact ⟨0, by simp⟩
  | insert a s ha ih =>
    obtain ⟨x, hx⟩ := hf a (Finset.mem_insert_self a s)
    obtain ⟨y, hy⟩ := ih (fun e he => hf e (Finset.mem_insert_of_mem he))
    exact ⟨x + y, by rw [Finset.sum_insert ha, hx, hy, EReal.coe_add]⟩

/-- A finite sum of products of real numbers — one entry of a matrix product — is a real number. -/
theorem real_sum_mul {ι : Type} [Fintype ι] (a b : ι → EReal) (ha : ∀ c, ∃ r : ℝ, a c = r) (hb : ∀ c, ∃ r : ℝ, b c = r) :
    ∃ r : ℝ, ∑ c, a c * b c = r :=
  real_sum Finset.univ _ (fun c _ => real_mul (ha c) (hb c))

/-- Multiplying after aggregating is aggregating after multiplying, for real entries: with a row `a`, a finite family of
    rows `g e` and a column `wt`, the product of the row `a + ∑ e, g e` with the column is the product of `a` with the column
    plus the sum over `e` of the products of the rows `g e` with the column. -/
theorem sum_add_sum_mul {ι κ : Type} [Fintype ι] (S : Finset κ) (a : ι → EReal) (g : κ → ι → EReal) (wt : ι → EReal)
    (ha : ∀ c, ∃ r : ℝ, a c = r) (hg : ∀ e c, ∃ r : ℝ, g e c = r) (hw : ∀ c, ∃ r : ℝ, wt c = r) :
    ∑ c, (a c + ∑ e ∈ S, g e c) * wt c = (∑ c, a c * wt c) + ∑ e ∈ S, ∑ c, g e c * wt c := by
  choose a' ha' using ha
  choose g' hg' using hg
  choose w' hw' using hw
  obtain rfl : a = fun c => (a' c : EReal) := funext ha'
  obtain rfl : g = fun e c => (g' e c : EReal) := funext fun e => funext (hg' e)
  obtain rfl : wt = fun c => (w' c : EReal) := funext hw'
  have key : ∑ c, (a' c + ∑ e ∈ S, g' e c) * w' c = (∑ c, a' c * w' c) + ∑ e ∈ S, ∑ c, g' e c * w' c := by
    simp only [add_mul, Finset.sum_add_distrib, Finset.sum_mul]
    rw [Finset.sum_comm]
  simp only [← coe_sum, ← EReal.coe_add, ← EReal.coe_mul]
  exact congrArg Real.toEReal key

/-! ## The accumulating scatter of rows, read at an index -/

section Scatter

variable {N R C w : ℕ}

/-- Of an operand's two axes, the one that is not the inserted row axis is the lane axis. -/
private theorem kept_lanes :
    (List.finRange 2).filter (fun a : Fin 2 => a ∉ ([0] : List (Fin 2))) = [1] := by decide

/-- Of an operand's two axes, the inserted row axis is not a kept one. -/
private theorem row_not_kept : (0 : Fin 2) ∉ (List.finRange 2).filter (fun a : Fin 2 => a ∉ ([0] : List (Fin 2))) := by decide

/-- On the row axis the window of update `(e, f)` starts at the stored row number of `e`, read signed. -/
private theorem start_row (wf : ScatterDims.WF ⟨2, ![N, C]⟩ ⟨2, ![R, 1]⟩ ⟨2, ![R, C]⟩ [1] [0] [0] 1)
    (idx : IVec ⟨2, ![R, 1]⟩ w) (e : Fin R) (f : Fin C) :
    (rowScatterDims N R C wf).start (ix2 e f) idx (0 : Fin 2) = (idx (ix2 e (0 : Fin 1))).toInt := by
  unfold ScatterDims.start
  rw [dif_pos (show (0 : Fin 2) ∈ (rowScatterDims N R C wf).scatterDimsToOperandDims from List.mem_singleton.mpr rfl)]
  have hsi : (rowScatterDims N R C wf).siIdx (ix2 e f) ⟨List.idxOf (0 : Fin 2) (rowScatterDims N R C wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the row axis an update has no window coordinate. -/
private theorem window_row (wf : ScatterDims.WF ⟨2, ![N, C]⟩ ⟨2, ![R, 1]⟩ ⟨2, ![R, C]⟩ [1] [0] [0] 1)
    (e : Fin R) (f : Fin C) : (rowScatterDims N R C wf).window (ix2 e f) (0 : Fin 2) = 0 := by
  unfold ScatterDims.window
  rw [dif_neg (show (0 : Fin 2) ∉ (rowScatterDims N R C wf).sKept from row_not_kept)]

/-- On the lane axis the window starts at zero. -/
private theorem start_lane (wf : ScatterDims.WF ⟨2, ![N, C]⟩ ⟨2, ![R, 1]⟩ ⟨2, ![R, C]⟩ [1] [0] [0] 1)
    (idx : IVec ⟨2, ![R, 1]⟩ w) (e : Fin R) (f : Fin C) :
    (rowScatterDims N R C wf).start (ix2 e f) idx (1 : Fin 2) = 0 := by
  unfold ScatterDims.start
  rw [dif_neg (show (1 : Fin 2) ∉ ([0] : List (Fin 2)) by decide)]

/-- On the lane axis the window coordinate of update `(e, f)` is its lane `f`. -/
private theorem window_lane (wf : ScatterDims.WF ⟨2, ![N, C]⟩ ⟨2, ![R, 1]⟩ ⟨2, ![R, C]⟩ [1] [0] [0] 1)
    (e : Fin R) (f : Fin C) : (rowScatterDims N R C wf).window (ix2 e f) (1 : Fin 2) = f.val := by
  have hkept : (rowScatterDims N R C wf).sKept = [(1 : Fin 2)] := kept_lanes
  have hk : (1 : Fin 2) ∈ (rowScatterDims N R C wf).sKept := by rw [hkept]; exact List.mem_singleton.mpr rfl
  unfold ScatterDims.window
  rw [dif_pos hk]
  simp only [List.getElem_singleton]
  rfl

/-- Where an update of a scatter of rows lands: update `(e, f)` lands on element `(p, q)` exactly when the stored row number
    of `e`, read signed, is `p`, and the lane `f` is `q`. -/
theorem scatter_rows_lands_iff (wf : ScatterDims.WF ⟨2, ![N, C]⟩ ⟨2, ![R, 1]⟩ ⟨2, ![R, C]⟩ [1] [0] [0] 1)
    (idx : IVec ⟨2, ![R, 1]⟩ w) (e : Fin R) (f : Fin C) (p : Fin N) (q : Fin C) :
    (rowScatterDims N R C wf).resultIdx? (ix2 e f) idx = some (ix2 p q)
      ↔ (idx (ix2 e (0 : Fin 1))).toInt = (p.val : ℤ) ∧ f = q := by
  constructor
  · intro h
    refine ⟨scatter_rows_target wf idx e f (ix2 p q) h, ?_⟩
    unfold ScatterDims.resultIdx? at h
    split at h
    · have h1 := congrArg Fin.val (congrFun (Option.some.inj h) (1 : Fin 2))
      simp only [start_lane, window_lane] at h1
      have h2 : ((ix2 p q) (1 : Fin 2)).val = q.val := rfl
      refine Fin.ext ?_
      omega
    · exact absurd h (by simp)
  · rintro ⟨hp, rfl⟩
    have hin : ∀ a, 0 ≤ (rowScatterDims N R C wf).start (ix2 e f) idx a + (rowScatterDims N R C wf).window (ix2 e f) a
        ∧ (rowScatterDims N R C wf).start (ix2 e f) idx a + (rowScatterDims N R C wf).window (ix2 e f) a
          < (⟨2, ![N, C]⟩ : Shape).size a := by
      intro a
      match a with
      | ⟨0, _⟩ =>
        show 0 ≤ (rowScatterDims N R C wf).start (ix2 e f) idx (0 : Fin 2) + (rowScatterDims N R C wf).window (ix2 e f) (0 : Fin 2)
          ∧ (rowScatterDims N R C wf).start (ix2 e f) idx (0 : Fin 2) + (rowScatterDims N R C wf).window (ix2 e f) (0 : Fin 2) < (N : ℤ)
        rw [start_row, window_row, hp]
        have := p.isLt
        omega
      | ⟨1, _⟩ =>
        show 0 ≤ (rowScatterDims N R C wf).start (ix2 e f) idx (1 : Fin 2) + (rowScatterDims N R C wf).window (ix2 e f) (1 : Fin 2)
          ∧ (rowScatterDims N R C wf).start (ix2 e f) idx (1 : Fin 2) + (rowScatterDims N R C wf).window (ix2 e f) (1 : Fin 2) < (C : ℤ)
        rw [start_lane, window_lane]
        have := f.isLt
        omega
    unfold ScatterDims.resultIdx?
    rw [dif_pos hin]
    refine congrArg some ?_
    funext a
    refine Fin.ext ?_
    match a with
    | ⟨0, _⟩ =>
      show ((rowScatterDims N R C wf).start (ix2 e f) idx (0 : Fin 2)
        + (rowScatterDims N R C wf).window (ix2 e f) (0 : Fin 2)).toNat = p.val
      rw [start_row, window_row, hp]
      omega
    | ⟨1, _⟩ =>
      show ((rowScatterDims N R C wf).start (ix2 e f) idx (1 : Fin 2)
        + (rowScatterDims N R C wf).window (ix2 e f) (1 : Fin 2)).toNat = f.val
      rw [start_lane, window_lane]
      omega

/-- The updates that land on row `p` of an `N`-row table: those whose stored row number, read signed, is `p`. -/
def landsOn (idx : IVec ⟨2, ![R, 1]⟩ w) (p : Fin N) : Finset (Fin R) :=
  Finset.univ.filter (fun e => (idx (ix2 e (0 : Fin 1))).toInt = (p.val : ℤ))

/-- An accumulating scatter of rows into the zero table, read at `(p, q)`: the sum, over the updates `e` whose stored row
    number is `p`, of lane `q` of update `e`. -/
theorem scatter_rows_zero_apply (wf : ScatterDims.WF ⟨2, ![N, C]⟩ ⟨2, ![R, 1]⟩ ⟨2, ![R, C]⟩ [1] [0] [0] 1)
    (idx : IVec ⟨2, ![R, 1]⟩ w) (upd : (⟨2, ![R, C]⟩ : Shape).Idx → EReal) (p : Fin N) (q : Fin C) :
    Ideal.hostScatterAdd (rowScatterDims N R C wf) (fun _ => 0) idx upd (ix2 p q) = ∑ e ∈ landsOn idx p, upd (ix2 e q) := by
  show (0 : EReal) + ∑ j ∈ Finset.univ.filter (fun j => (rowScatterDims N R C wf).resultIdx? j idx = some (ix2 p q)), upd j = _
  rw [zero_add, Finset.sum_filter, sum_idx2]
  unfold landsOn
  rw [Finset.sum_filter]
  refine Finset.sum_congr rfl (fun e _ => ?_)
  simp only [scatter_rows_lands_iff]
  by_cases h : (idx (ix2 e (0 : Fin 1))).toInt = (p.val : ℤ)
  · simp only [h, true_and, if_true]
    exact Finset.sum_ite_eq' Finset.univ q (fun f => upd (ix2 e f)) |>.trans (if_pos (Finset.mem_univ q))
  · simp only [h, false_and, if_false, Finset.sum_const_zero]

/-- The same for the host operation: an accumulating float scatter of rows into a table of zeros, at the ideal reading, read at
    `(p, q)`, is the sum of lane `q` of the updates whose stored row number is `p`. -/
theorem host_scatterAdd_rows_zero_apply {φ : FTy} (wf : ScatterDims.WF ⟨2, ![N, C]⟩ ⟨2, ![R, 1]⟩ ⟨2, ![R, C]⟩ [1] [0] [0] 1)
    (z : FVec Ideal ⟨2, ![N, C]⟩ φ) (hz : z = fun _ => 0) (idx : IVec ⟨2, ![R, 1]⟩ w) (upd : FVec Ideal ⟨2, ![R, C]⟩ φ)
    (p : Fin N) (q : Fin C) :
    Host.scatterAdd (F := Ideal) (φ := φ) (rowScatterDims N R C wf) z idx upd (ix2 p q)
      = ∑ e ∈ landsOn idx p, upd (ix2 e q) := by
  subst hz
  exact scatter_rows_zero_apply wf idx upd p q

end Scatter

/-- Membership in the set of updates that land on row `p`: the stored row number, read signed, is `p`. -/
theorem mem_landsOn {N R w : ℕ} (idx : IVec ⟨2, ![R, 1]⟩ w) (p : Fin N) (e : Fin R) :
    e ∈ landsOn idx p ↔ (idx (ix2 e (0 : Fin 1))).toInt = (p.val : ℤ) := by
  unfold landsOn
  rw [Finset.mem_filter]
  exact ⟨fun h => h.2, fun h => ⟨Finset.mem_univ e, h⟩⟩

/-! ## A matrix product after summing gathered rows into rows -/

/-- Aggregate, then multiply = multiply, then aggregate. `A` is an `[N, C]` table and `Wt` a `[C, D]` matrix, all entries real;
    `Y` is their product. Adding to row `p` of `A` the rows of `A` taken at the row numbers `idxG` and summed into the rows named
    by `idxS`, and then multiplying by `Wt`, gives at `(p, q)` what the same aggregation of the rows of `Y` gives: the matrix
    product acts on each row separately, so it commutes with taking rows, and it is additive in the row, so — all entries
    being real — it commutes with the sum. -/
theorem agg_matmul {N R C D w : ℕ} (hN : 0 < N)
    (wfG : GatherDims.WF ⟨2, ![N, C]⟩ ⟨2, ![R, 1]⟩ ⟨2, ![R, C]⟩ [1] [0] [] [0] [] 1 ![1, C])
    (wfS : ScatterDims.WF ⟨2, ![N, C]⟩ ⟨2, ![R, 1]⟩ ⟨2, ![R, C]⟩ [1] [0] [0] 1)
    (wfG' : GatherDims.WF ⟨2, ![N, D]⟩ ⟨2, ![R, 1]⟩ ⟨2, ![R, D]⟩ [1] [0] [] [0] [] 1 ![1, D])
    (wfS' : ScatterDims.WF ⟨2, ![N, D]⟩ ⟨2, ![R, 1]⟩ ⟨2, ![R, D]⟩ [1] [0] [0] 1)
    (A : (⟨2, ![N, C]⟩ : Shape).Idx → EReal) (Wt : (⟨2, ![C, D]⟩ : Shape).Idx → EReal)
    (Y : (⟨2, ![N, D]⟩ : Shape).Idx → EReal)
    (hA : ∀ i, ∃ r : ℝ, A i = r) (hW : ∀ i, ∃ r : ℝ, Wt i = r)
    (hY : ∀ (p : Fin N) (q : Fin D), Y (ix2 p q) = ∑ c : Fin C, A (ix2 p c) * Wt (ix2 c q))
    (idxG idxS : IVec ⟨2, ![R, 1]⟩ w) (p : Fin N) (q : Fin D) :
    ∑ c : Fin C, (A (ix2 p c) + Ideal.hostScatterAdd (rowScatterDims N R C wfS) (fun _ => 0) idxS
        (Host.gather (rowDims N R C wfG) A idxG) (ix2 p c)) * Wt (ix2 c q)
      = Y (ix2 p q) + Ideal.hostScatterAdd (rowScatterDims N R D wfS') (fun _ => 0) idxS
        (Host.gather (rowDims N R D wfG') Y idxG) (ix2 p q) := by
  simp only [scatter_rows_zero_apply, gather_rows_apply hN, hY]
  exact sum_add_sum_mul (landsOn idxS p) (fun c => A (ix2 p c)) (fun e c => A (ix2 (rowOf hN idxG e) c))
    (fun c => Wt (ix2 c q)) (fun _ => hA _) (fun _ _ => hA _) (fun _ => hW _)

/-- The same with the product table written out: `Y` is the function taking an index `i` to the product of row `i 0` of `A`
    with column `i 1` of `Wt`. -/
theorem agg_matmul_fun {N R C D w : ℕ} (hN : 0 < N)
    (wfG : GatherDims.WF ⟨2, ![N, C]⟩ ⟨2, ![R, 1]⟩ ⟨2, ![R, C]⟩ [1] [0] [] [0] [] 1 ![1, C])
    (wfS : ScatterDims.WF ⟨2, ![N, C]⟩ ⟨2, ![R, 1]⟩ ⟨2, ![R, C]⟩ [1] [0] [0] 1)
    (wfG' : GatherDims.WF ⟨2, ![N, D]⟩ ⟨2, ![R, 1]⟩ ⟨2, ![R, D]⟩ [1] [0] [] [0] [] 1 ![1, D])
    (wfS' : ScatterDims.WF ⟨2, ![N, D]⟩ ⟨2, ![R, 1]⟩ ⟨2, ![R, D]⟩ [1] [0] [0] 1)
    (A : (⟨2, ![N, C]⟩ : Shape).Idx → EReal) (Wt : (⟨2, ![C, D]⟩ : Shape).Idx → EReal)
    (hA : ∀ i, ∃ r : ℝ, A i = r) (hW : ∀ i, ∃ r : ℝ, Wt i = r)
    (idxG idxS : IVec ⟨2, ![R, 1]⟩ w) (p : Fin N) (q : Fin D) :
    ∑ c : Fin C, (A (ix2 p c) + Ideal.hostScatterAdd (rowScatterDims N R C wfS) (fun _ => 0) idxS
        (Host.gather (rowDims N R C wfG) A idxG) (ix2 p c)) * Wt (ix2 c q)
      = (∑ c : Fin C, A (ix2 p c) * Wt (ix2 c q)) + Ideal.hostScatterAdd (rowScatterDims N R D wfS') (fun _ => 0) idxS
        (Host.gather (rowDims N R D wfG')
          (fun i : (⟨2, ![N, D]⟩ : Shape).Idx => ∑ c : Fin C, A (ix2 (n0 := N) (i 0) c) * Wt (ix2 (n1 := D) c (i 1))) idxG) (ix2 p q) :=
  agg_matmul hN wfG wfS wfG' wfS' A Wt
    (fun i : (⟨2, ![N, D]⟩ : Shape).Idx => ∑ c : Fin C, A (ix2 (n0 := N) (i 0) c) * Wt (ix2 (n1 := D) c (i 1)))
    hA hW (fun _ _ => rfl) idxG idxS p q

end Cert.LibRowAggLinear
-- ==== Proof.BridgeLayer.lean ====
/-
  One graph layer, in the two orders.

  A layer sends the features X to (X + N X) · W + b, where N X puts in each node's row the sum of the rows of its
  in-neighbours (rows of X taken at the wrapped sources, summed into the zero array at the destinations). One program
  does exactly that; the other projects first, Y = X · W, and then forms Y + N Y + b. The two agree because a matrix
  product acts on each row separately and distributes over the finite sum of rows — on the extended reals that needs
  every entry of X and W to be a real number, which the precondition gives for the inputs and which each layer
  preserves: sums, products and maxima of real numbers are real.
-/
import proofs.«133921_j77558519431976_2_alg».proof.Proof.BridgeBN
import proofs.«133921_j77558519431976_2_alg».proof.Proof.LibRowAggLinear
import Idealize.ShloMosaic.Lib.StackMember
import Idealize.ShloMosaic.PureOps.Ideal.Laws

set_option maxRecDepth 16384

noncomputable section

namespace Cert.Bridge

open Idealize.ShloMosaic Idealize.ShloMosaic.ValueIdx
open Cert.Dense Cert.KernelIdeal.KVal Cert.LibRowAggLinear Cert.LibGatherRows Cert.LibRowIndex
open Cert.ReferenceIdeal.RefRun

/-- Every entry is a real number. -/
def AllReal {ι : Type} (f : ι → EReal) : Prop := ∀ i, ∃ r : ℝ, f i = (r : EReal)

theorem zero_real : ∃ r : ℝ, (0 : EReal) = (r : EReal) := ⟨0, rfl⟩

/-- The zero array is zero everywhere. -/
theorem zeros128_eq : (zeros128 : Cert.ReferenceIdeal.S100000x128.Idx → EReal) = fun _ => 0 := by
  funext i
  show Ideal.ofBits .f32 0x00000000#32 = 0
  exact Ideal.ofBits_zero_f32
theorem zeros64_eq : (zeros64 : Cert.KernelIdeal.S100000x64.Idx → EReal) = fun _ => 0 := by
  funext i
  show Ideal.ofBits .f32 0x00000000#32 = 0
  exact Ideal.ofBits_zero_f32

/-- The neighbour sum of an array of reals, entry by entry: the sum over the edges landing on the row of the source
    rows' entries. -/
theorem agg128_apply (e : IVec Cert.ReferenceIdeal.S2x1600000 32) (A : FVec Ideal Cert.ReferenceIdeal.S100000x128 .f32) (p : Fin 100000) (q : Fin 128) :
    agg128 e A (ix2 p q) = ∑ ed ∈ landsOn (N := 100000) (dstIdx e) p, A (ix2 (rowOf (N := 100000) (by norm_num) (srcIdx e) ed) q) := by
  unfold agg128
  rw [show (Host.scatterAdd (F := Ideal) Cert.ReferenceIdeal.scatter_S100000x128_S1600000x1_S1600000x128_1_0_0_1 zeros128 (dstIdx e)
        (Host.gather Cert.ReferenceIdeal.gather_S100000x128_S1600000x1_S1600000x128_1_0_n_n_0_1_1128 A (srcIdx e))) (ix2 p q)
      = Host.scatterAdd (F := Ideal) (φ := .f32) (rowScatterDims 100000 1600000 128 Cert.ReferenceIdeal.Gen.scatter_S100000x128_S1600000x1_S1600000x128_1_0_0_1_wf) zeros128 (dstIdx e)
        (Host.gather (rowDims 100000 1600000 128 Cert.ReferenceIdeal.Gen.gather_S100000x128_S1600000x1_S1600000x128_1_0_n_n_0_1_1128_wf) A (srcIdx e)) (ix2 p q) from rfl]
  rw [host_scatterAdd_rows_zero_apply _ _ zeros128_eq]
  exact Finset.sum_congr rfl fun ed _ => gather_rows_apply (by norm_num) _ A (srcIdx e) ed q

/-- The host's plain product read at an entry. -/
theorem dot128_apply (Z : FVec Ideal Cert.ReferenceIdeal.S100000x128 .f32) (W : FVec Ideal Cert.ReferenceIdeal.S128x128 .f32) (p : Fin 100000) (q : Fin 128) :
    Host.dotGeneral (F := Ideal) Cert.ReferenceIdeal.dot_S100000x128_S128x128_S100000x128_1_0_0_1_n_n none Z W (ix2 p q)
      = ∑ c : Fin 128, Z (ix2 p c) * W (ix2 c q) :=
  StackMember.dotGeneral_plain_apply (m := 100000) (n := 128) (k := 128) none Z W p q
theorem dot64_apply (Z : FVec Ideal Cert.ReferenceIdeal.S100000x128 .f32) (W : FVec Ideal Cert.ReferenceIdeal.S128x64 .f32) (p : Fin 100000) (q : Fin 64) :
    Host.dotGeneral (F := Ideal) Cert.ReferenceIdeal.dot_S100000x128_S128x64_S100000x64_1_0_0_1_n_n none Z W (ix2 p q)
      = ∑ c : Fin 128, Z (ix2 p c) * W (ix2 c q) :=
  StackMember.dotGeneral_plain_apply (m := 100000) (n := 64) (k := 128) none Z W p q

/-- The two programs' index columns are the same arrays. -/
theorem srcCol_eq (e : IVec Cert.ReferenceIdeal.S2x1600000 32) : srcCol (row0 e) = srcIdx e := rfl
theorem dstCol_eq (e : IVec Cert.ReferenceIdeal.S2x1600000 32) : dstCol (row1 e) = dstIdx e := rfl

/-- The neighbour sum of the projected rows, entry by entry (128 columns): the sum over the edges landing on the row of
    the source rows' entries; the widening to the long format is the identity. -/
theorem kagg128_apply (idxS idxG : IVec Cert.KernelIdeal.S1600000x1 32) (Y : FVec Ideal Cert.KernelIdeal.S100000x128 .bf16) (p : Fin 100000) (q : Fin 128) :
    Host.scatterAdd (F := Ideal) Cert.KernelIdeal.scatter_S100000x128_S1600000x1_S1600000x128_1_0_0_1 zeros128 idxS
        (extf .f32 (Host.gather Cert.KernelIdeal.gather_S100000x128_S1600000x1_S1600000x128_1_0_n_n_0_1_1128 Y idxG) Cert.KernelIdeal.Gen.bitsLt_bf16_f32) (ix2 p q)
      = ∑ ed ∈ landsOn (N := 100000) idxS p, Y (ix2 (rowOf (N := 100000) (by norm_num) idxG ed) q) := by
  rw [show (Host.scatterAdd (F := Ideal) Cert.KernelIdeal.scatter_S100000x128_S1600000x1_S1600000x128_1_0_0_1 zeros128 idxS
        (extf .f32 (Host.gather Cert.KernelIdeal.gather_S100000x128_S1600000x1_S1600000x128_1_0_n_n_0_1_1128 Y idxG) Cert.KernelIdeal.Gen.bitsLt_bf16_f32)) (ix2 p q)
      = Host.scatterAdd (F := Ideal) (φ := .f32) (rowScatterDims 100000 1600000 128 Cert.KernelIdeal.Gen.scatter_S100000x128_S1600000x1_S1600000x128_1_0_0_1_wf) zeros128 idxS
        (extf .f32 (Host.gather (rowDims 100000 1600000 128 Cert.KernelIdeal.Gen.gather_S100000x128_S1600000x1_S1600000x128_1_0_n_n_0_1_1128_wf) Y idxG) Cert.KernelIdeal.Gen.bitsLt_bf16_f32) (ix2 p q) from rfl]
  rw [host_scatterAdd_rows_zero_apply _ _ zeros128_eq]
  exact Finset.sum_congr rfl fun ed _ => gather_rows_apply (by norm_num) _ Y idxG ed q

/-- The same with 64 columns. -/
theorem kagg64_apply (idxS idxG : IVec Cert.KernelIdeal.S1600000x1 32) (Y : FVec Ideal Cert.KernelIdeal.S100000x64 .bf16) (p : Fin 100000) (q : Fin 64) :
    Host.scatterAdd (F := Ideal) Cert.KernelIdeal.scatter_S100000x64_S1600000x1_S1600000x64_1_0_0_1 zeros64 idxS
        (extf .f32 (Host.gather Cert.KernelIdeal.gather_S100000x64_S1600000x1_S1600000x64_1_0_n_n_0_1_164 Y idxG) Cert.KernelIdeal.Gen.bitsLt_bf16_f32) (ix2 p q)
      = ∑ ed ∈ landsOn (N := 100000) idxS p, Y (ix2 (rowOf (N := 100000) (by norm_num) idxG ed) q) := by
  rw [show (Host.scatterAdd (F := Ideal) Cert.KernelIdeal.scatter_S100000x64_S1600000x1_S1600000x64_1_0_0_1 zeros64 idxS
        (extf .f32 (Host.gather Cert.KernelIdeal.gather_S100000x64_S1600000x1_S1600000x64_1_0_n_n_0_1_164 Y idxG) Cert.KernelIdeal.Gen.bitsLt_bf16_f32)) (ix2 p q)
      = Host.scatterAdd (F := Ideal) (φ := .f32) (rowScatterDims 100000 1600000 64 Cert.KernelIdeal.Gen.scatter_S100000x64_S1600000x1_S1600000x64_1_0_0_1_wf) zeros64 idxS
        (extf .f32 (Host.gather (rowDims 100000 1600000 64 Cert.KernelIdeal.Gen.gather_S100000x64_S1600000x1_S1600000x64_1_0_n_n_0_1_164_wf) Y idxG) Cert.KernelIdeal.Gen.bitsLt_bf16_f32) (ix2 p q) from rfl]
  rw [host_scatterAdd_rows_zero_apply _ _ zeros64_eq]
  exact Finset.sum_congr rfl fun ed _ => gather_rows_apply (by norm_num) _ Y idxG ed q

/-- PROJECT FIRST OR AGGREGATE FIRST, 128 columns: for real features and weights the layer before its activation is
    the same array either way. -/
theorem kpre128_eq_lin (e : IVec Cert.ReferenceIdeal.S2x1600000 32) (A : FVec Ideal Cert.ReferenceIdeal.S100000x128 .f32)
    (W : FVec Ideal Cert.ReferenceIdeal.S128x128 .f32) (b : FVec Ideal Cert.ReferenceIdeal.S128 .f32) (hA : AllReal A) (hW : AllReal W) :
    kpre128 (row0 e) (row1 e) (prod A W) b = lin128 (addf A (agg128 e A)) W b := by
  funext i
  obtain ⟨p, q, rfl⟩ : ∃ (p : Fin 100000) (q : Fin 128), i = ix2 p q := ⟨i 0, i 1, eq_ix2 i⟩
  unfold kpre128 lin128
  rw [addf_apply, addf_apply, addf_apply, extf_apply, dot128_apply, srcCol_eq, dstCol_eq, kagg128_apply]
  refine congrArg (· + rows128 b (ix2 p q)) ?_
  simp only [addf_apply, agg128_apply, prod_apply]
  exact (sum_add_sum_mul (landsOn (N := 100000) (dstIdx e) p) (fun c => A (ix2 p c))
    (fun ed c => A (ix2 (rowOf (N := 100000) (by norm_num) (srcIdx e) ed) c)) (fun c => W (ix2 c q))
    (fun c => hA _) (fun ed c => hA _) (fun c => hW _)).symm

/-- The same for the last layer, 128 columns to 64. -/
theorem kpre64_eq_lin (e : IVec Cert.ReferenceIdeal.S2x1600000 32) (A : FVec Ideal Cert.ReferenceIdeal.S100000x128 .f32)
    (W : FVec Ideal Cert.ReferenceIdeal.S128x64 .f32) (b : FVec Ideal Cert.ReferenceIdeal.S64 .f32) (hA : AllReal A) (hW : AllReal W) :
    kpre64 (row0 e) (row1 e) (prod A W) b = lin64 (addf A (agg128 e A)) W b := by
  funext i
  obtain ⟨p, q, rfl⟩ : ∃ (p : Fin 100000) (q : Fin 64), i = ix2 p q := ⟨i 0, i 1, eq_ix2 i⟩
  unfold kpre64 lin64
  rw [addf_apply, addf_apply, addf_apply, extf_apply, dot64_apply, srcCol_eq, dstCol_eq, kagg64_apply]
  refine congrArg (· + rows64 b (ix2 p q)) ?_
  simp only [addf_apply, agg128_apply, prod_apply]
  exact (sum_add_sum_mul (landsOn (N := 100000) (dstIdx e) p) (fun c => A (ix2 p c))
    (fun ed c => A (ix2 (rowOf (N := 100000) (by norm_num) (srcIdx e) ed) c)) (fun c => W (ix2 c q))
    (fun c => hA _) (fun ed c => hA _) (fun c => hW _)).symm

/-- A hidden layer of real features, weights and bias is real. -/
theorem real_layerA (e : IVec Cert.ReferenceIdeal.S2x1600000 32) (A : FVec Ideal Cert.ReferenceIdeal.S100000x128 .f32)
    (W : FVec Ideal Cert.ReferenceIdeal.S128x128 .f32) (b : FVec Ideal Cert.ReferenceIdeal.S128 .f32)
    (hA : AllReal A) (hW : AllReal W) (hb : AllReal b) : AllReal (layerA e A W b) := by
  intro i
  obtain ⟨p, q, rfl⟩ : ∃ (p : Fin 100000) (q : Fin 128), i = ix2 p q := ⟨i 0, i 1, eq_ix2 i⟩
  unfold layerA relu128 lin128
  rw [maximumf_apply, addf_apply, dot128_apply, rows128_apply, zeros128_eq]
  refine real_max (real_add (real_sum_mul _ _ (fun c => ?_) (fun c => hW _)) (hb _)) zero_real
  rw [addf_apply, agg128_apply]
  exact real_add (hA _) (real_sum _ _ fun ed _ => hA _)

/-- THE THREE LAYERS: for real inputs the two programs' third-layer outputs are the same array. -/
theorem kh3_eq (a0 : FVec Ideal Cert.ReferenceIdeal.S100000x128 .f32) (e : IVec Cert.ReferenceIdeal.S2x1600000 32)
    (a2 : FVec Ideal Cert.ReferenceIdeal.S128x128 .f32) (a3 : FVec Ideal Cert.ReferenceIdeal.S128 .f32)
    (a4 : FVec Ideal Cert.ReferenceIdeal.S128x128 .f32) (a5 : FVec Ideal Cert.ReferenceIdeal.S128 .f32)
    (a6 : FVec Ideal Cert.ReferenceIdeal.S128x64 .f32) (a7 : FVec Ideal Cert.ReferenceIdeal.S64 .f32)
    (ra0 : AllReal a0) (ra2 : AllReal a2) (ra3 : AllReal a3) (ra4 : AllReal a4) (ra5 : AllReal a5) (ra6 : AllReal a6) :
    kh3 a0 e a2 a3 a4 a5 a6 a7 = h3 a0 e a2 a3 a4 a5 a6 a7 := by
  have e1 : kh1 a0 e a2 a3 = layerA e a0 a2 a3 := by
    show relu128 (kpre128 (row0 e) (row1 e) (prod a0 a2) a3) = relu128 (lin128 (addf a0 (agg128 e a0)) a2 a3)
    rw [kpre128_eq_lin e a0 a2 a3 ra0 ra2]
  have r1 : AllReal (layerA e a0 a2 a3) := real_layerA e a0 a2 a3 ra0 ra2 ra3
  have e2 : kh2 a0 e a2 a3 a4 a5 = layerA e (layerA e a0 a2 a3) a4 a5 := by
    show relu128 (kpre128 (row0 e) (row1 e) (prod (kh1 a0 e a2 a3) a4) a5)
      = relu128 (lin128 (addf (layerA e a0 a2 a3) (agg128 e (layerA e a0 a2 a3))) a4 a5)
    rw [e1, kpre128_eq_lin e (layerA e a0 a2 a3) a4 a5 r1 ra4]
  have r2 : AllReal (layerA e (layerA e a0 a2 a3) a4 a5) := real_layerA e _ a4 a5 r1 ra4 ra5
  show kpre64 (row0 e) (row1 e) (prod (kh2 a0 e a2 a3 a4 a5) a6) a7
    = lin64 (addf (layerA e (layerA e a0 a2 a3) a4 a5) (agg128 e (layerA e (layerA e a0 a2 a3) a4 a5))) a6 a7
  rw [e2, kpre64_eq_lin e (layerA e (layerA e a0 a2 a3) a4 a5) a6 a7 r2 ra6]

/-- THE RESULT: for real inputs the value the kernel's program leaves is the reference's result. -/
theorem kernel_eq_ref (a0 : FVec Ideal Cert.ReferenceIdeal.S100000x128 .f32) (e : IVec Cert.ReferenceIdeal.S2x1600000 32)
    (a2 : FVec Ideal Cert.ReferenceIdeal.S128x128 .f32) (a3 : FVec Ideal Cert.ReferenceIdeal.S128 .f32)
    (a4 : FVec Ideal Cert.ReferenceIdeal.S128x128 .f32) (a5 : FVec Ideal Cert.ReferenceIdeal.S128 .f32)
    (a6 : FVec Ideal Cert.ReferenceIdeal.S128x64 .f32) (a7 a8 a9 : FVec Ideal Cert.ReferenceIdeal.S64 .f32)
    (ra0 : AllReal a0) (ra2 : AllReal a2) (ra3 : AllReal a3) (ra4 : AllReal a4) (ra5 : AllReal a5) (ra6 : AllReal a6) :
    kbn (kh3 a0 e a2 a3 a4 a5 a6 a7) a8 a9 = refOut a0 e a2 a3 a4 a5 a6 a7 a8 a9 := by
  rw [kh3_eq a0 e a2 a3 a4 a5 a6 a7 ra0 ra2 ra3 ra4 ra5 ra6]
  exact kbn_eq _ a8 a9

end Cert.Bridge

end
-- ==== Proof.RefRun.lean ====
/- The reference program's run: @main as the list of its 108 host operations (the three
   calls' bodies, and the call nested in the last, written out at each call's own buffers), the fold of their
   results at the result buffer as `refOut` (RefStages) of the arguments, and from it the run: every weakly
   fair execution terminates with the result at `refOut` of the launch contents, the arguments unchanged. -/
import proofs.«133921_j77558519431976_2_alg».proof.Proof.RefStages
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The operations -/

/-- The operations of @main in order, each call's body written out at the call's own buffers. -/
abbrev ops : List (HloOp τ sig (Elt F)) :=
  [ StableHlo.unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v0 main_v1 rfl shapeCasts_S1x1600000_S1600000,
    StableHlo.unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v2 main_v3 rfl shapeCasts_S1x1600000_S1600000,
    StableHlo.nullary main_c (constantI S_ 32 0#32),
    StableHlo.unary main_c main_v4 (broadcastInDim S1600000 ![] bcast_S_S1600000 : (⟨S_, .i32⟩ : BufTy).Contents (Elt F) → (⟨S1600000, .i32⟩ : BufTy).Contents (Elt F)),
    StableHlo.binary main_v1 main_v4 main_v5 (cmpi .slt : (⟨S1600000, .i32⟩ : BufTy).Contents (Elt F) → (⟨S1600000, .i32⟩ : BufTy).Contents (Elt F) → (⟨S1600000, .i1⟩ : BufTy).Contents (Elt F)),
    StableHlo.nullary main_c_0 (constantI S_ 32 100000#32),
    StableHlo.unary main_c_0 main_v6 (broadcastInDim S1600000 ![] bcast_S_S1600000 : (⟨S_, .i32⟩ : BufTy).Contents (Elt F) → (⟨S1600000, .i32⟩ : BufTy).Contents (Elt F)),
    StableHlo.binary main_v1 main_v6 main_v7 (addi : (⟨S1600000, .i32⟩ : BufTy).Contents (Elt F) → (⟨S1600000, .i32⟩ : BufTy).Contents (Elt F) → (⟨S1600000, .i32⟩ : BufTy).Contents (Elt F)),
    StableHlo.ternary main_v5 main_v7 main_v1 main_v8 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v8 main_v9 (broadcastInDim S1600000x1 ![0] bcast_S1600000_S1600000x1_0 : (⟨S1600000, .i32⟩ : BufTy).Contents (Elt F) → (⟨S1600000x1, .i32⟩ : BufTy).Contents (Elt F)),
    StableHlo.binary main_arg0 main_v9 main_v10 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.nullary main_cst (constant S_ .f32 0x00000000#32),
    StableHlo.unary main_cst main_v11 (broadcastInDim S100000x128 ![] bcast_S_S100000x128 : (⟨S_, .f32⟩ : BufTy).Contents (Elt F) → (⟨S100000x128, .f32⟩ : BufTy).Contents (Elt F)),
    StableHlo.unary main_v3 main_v12 (broadcastInDim S1600000x1 ![0] bcast_S1600000_S1600000x1_0 : (⟨S1600000, .i32⟩ : BufTy).Contents (Elt F) → (⟨S1600000x1, .i32⟩ : BufTy).Contents (Elt F)),
    StableHlo.ternary main_v11 main_v12 main_v10 main_v13 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.binary main_arg0 main_v13 main_v14 (addf : (⟨S100000x128, .f32⟩ : BufTy).Contents (Elt F) → (⟨S100000x128, .f32⟩ : BufTy).Contents (Elt F) → (⟨S100000x128, .f32⟩ : BufTy).Contents (Elt F)),
    StableHlo.binary main_v14 main_arg2 main_v15 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg3 main_v16 (broadcastInDim S1x128 ![1] bcast_S128_S1x128_1 : (⟨S128, .f32⟩ : BufTy).Contents (Elt F) → (⟨S1x128, .f32⟩ : BufTy).Contents (Elt F)),
    StableHlo.unary main_v16 main_v17 (broadcastInDim S100000x128 ![0, 1] bcast_S1x128_S100000x128_0_1 : (⟨S1x128, .f32⟩ : BufTy).Contents (Elt F) → (⟨S100000x128, .f32⟩ : BufTy).Contents (Elt F)),
    StableHlo.binary main_v15 main_v17 main_v18 (addf : (⟨S100000x128, .f32⟩ : BufTy).Contents (Elt F) → (⟨S100000x128, .f32⟩ : BufTy).Contents (Elt F) → (⟨S100000x128, .f32⟩ : BufTy).Contents (Elt F)),
    StableHlo.TRef.nullary main_call0.cst (constant S_ .f32 0x00000000#32),
    StableHlo.TRef.unary main_call0.cst main_call0.v0 (broadcastInDim S100000x128 ![] bcast_S_S100000x128),
    StableHlo.TRef.binary (.of main_v18) main_call0.v0 main_call0.v1 maximumf,
    StableHlo.nullary main_c_1 (constantI S_ 32 0#32),
    StableHlo.unary main_c_1 main_v20 (broadcastInDim S1600000 ![] bcast_S_S1600000 : (⟨S_, .i32⟩ : BufTy).Contents (Elt F) → (⟨S1600000, .i32⟩ : BufTy).Contents (Elt F)),
    StableHlo.binary main_v1 main_v20 main_v21 (cmpi .slt : (⟨S1600000, .i32⟩ : BufTy).Contents (Elt F) → (⟨S1600000, .i32⟩ : BufTy).Contents (Elt F) → (⟨S1600000, .i1⟩ : BufTy).Contents (Elt F)),
    StableHlo.nullary main_c_2 (constantI S_ 32 100000#32),
    StableHlo.unary main_c_2 main_v22 (broadcastInDim S1600000 ![] bcast_S_S1600000 : (⟨S_, .i32⟩ : BufTy).Contents (Elt F) → (⟨S1600000, .i32⟩ : BufTy).Contents (Elt F)),
    StableHlo.binary main_v1 main_v22 main_v23 (addi : (⟨S1600000, .i32⟩ : BufTy).Contents (Elt F) → (⟨S1600000, .i32⟩ : BufTy).Contents (Elt F) → (⟨S1600000, .i32⟩ : BufTy).Contents (Elt F)),
    StableHlo.ternary main_v21 main_v23 main_v1 main_v24 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v24 main_v25 (broadcastInDim S1600000x1 ![0] bcast_S1600000_S1600000x1_0 : (⟨S1600000, .i32⟩ : BufTy).Contents (Elt F) → (⟨S1600000x1, .i32⟩ : BufTy).Contents (Elt F)),
    StableHlo.binary main_v19 main_v25 main_v26 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.nullary main_cst_3 (constant S_ .f32 0x00000000#32),
    StableHlo.unary main_cst_3 main_v27 (broadcastInDim S100000x128 ![] bcast_S_S100000x128 : (⟨S_, .f32⟩ : BufTy).Contents (Elt F) → (⟨S100000x128, .f32⟩ : BufTy).Contents (Elt F)),
    StableHlo.unary main_v3 main_v28 (broadcastInDim S1600000x1 ![0] bcast_S1600000_S1600000x1_0 : (⟨S1600000, .i32⟩ : BufTy).Contents (Elt F) → (⟨S1600000x1, .i32⟩ : BufTy).Contents (Elt F)),
    StableHlo.ternary main_v27 main_v28 main_v26 main_v29 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.binary main_v19 main_v29 main_v30 (addf : (⟨S100000x128, .f32⟩ : BufTy).Contents (Elt F) → (⟨S100000x128, .f32⟩ : BufTy).Contents (Elt F) → (⟨S100000x128, .f32⟩ : BufTy).Contents (Elt F)),
    StableHlo.binary main_v30 main_arg4 main_v31 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg5 main_v32 (broadcastInDim S1x128 ![1] bcast_S128_S1x128_1 : (⟨S128, .f32⟩ : BufTy).Contents (Elt F) → (⟨S1x128, .f32⟩ : BufTy).Contents (Elt F)),
    StableHlo.unary main_v32 main_v33 (broadcastInDim S100000x128 ![0, 1] bcast_S1x128_S100000x128_0_1 : (⟨S1x128, .f32⟩ : BufTy).Contents (Elt F) → (⟨S100000x128, .f32⟩ : BufTy).Contents (Elt F)),
    StableHlo.binary main_v31 main_v33 main_v34 (addf : (⟨S100000x128, .f32⟩ : BufTy).Contents (Elt F) → (⟨S100000x128, .f32⟩ : BufTy).Contents (Elt F) → (⟨S100000x128, .f32⟩ : BufTy).Contents (Elt F)),
    StableHlo.TRef.nullary main_call1.cst (constant S_ .f32 0x00000000#32),
    StableHlo.TRef.unary main_call1.cst main_call1.v0 (broadcastInDim S100000x128 ![] bcast_S_S100000x128),
    StableHlo.TRef.binary (.of main_v34) main_call1.v0 main_call1.v1 maximumf,
    StableHlo.nullary main_c_4 (constantI S_ 32 0#32),
    StableHlo.unary main_c_4 main_v36 (broadcastInDim S1600000 ![] bcast_S_S1600000 : (⟨S_, .i32⟩ : BufTy).Contents (Elt F) → (⟨S1600000, .i32⟩ : BufTy).Contents (Elt F)),
    StableHlo.binary main_v1 main_v36 main_v37 (cmpi .slt : (⟨S1600000, .i32⟩ : BufTy).Contents (Elt F) → (⟨S1600000, .i32⟩ : BufTy).Contents (Elt F) → (⟨S1600000, .i1⟩ : BufTy).Contents (Elt F)),
    StableHlo.nullary main_c_5 (constantI S_ 32 100000#32),
    StableHlo.unary main_c_5 main_v38 (broadcastInDim S1600000 ![] bcast_S_S1600000 : (⟨S_, .i32⟩ : BufTy).Contents (Elt F) → (⟨S1600000, .i32⟩ : BufTy).Contents (Elt F)),
    StableHlo.binary main_v1 main_v38 main_v39 (addi : (⟨S1600000, .i32⟩ : BufTy).Contents (Elt F) → (⟨S1600000, .i32⟩ : BufTy).Contents (Elt F) → (⟨S1600000, .i32⟩ : BufTy).Contents (Elt F)),
    StableHlo.ternary main_v37 main_v39 main_v1 main_v40 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v40 main_v41 (broadcastInDim S1600000x1 ![0] bcast_S1600000_S1600000x1_0 : (⟨S1600000, .i32⟩ : BufTy).Contents (Elt F) → (⟨S1600000x1, .i32⟩ : BufTy).Contents (Elt F)),
    StableHlo.binary main_v35 main_v41 main_v42 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.nullary main_cst_6 (constant S_ .f32 0x00000000#32),
    StableHlo.unary main_cst_6 main_v43 (broadcastInDim S100000x128 ![] bcast_S_S100000x128 : (⟨S_, .f32⟩ : BufTy).Contents (Elt F) → (⟨S100000x128, .f32⟩ : BufTy).Contents (Elt F)),
    StableHlo.unary main_v3 main_v44 (broadcastInDim S1600000x1 ![0] bcast_S1600000_S1600000x1_0 : (⟨S1600000, .i32⟩ : BufTy).Contents (Elt F) → (⟨S1600000x1, .i32⟩ : BufTy).Contents (Elt F)),
    StableHlo.ternary main_v43 main_v44 main_v42 main_v45 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.binary main_v35 main_v45 main_v46 (addf : (⟨S100000x128, .f32⟩ : BufTy).Contents (Elt F) → (⟨S100000x128, .f32⟩ : BufTy).Contents (Elt F) → (⟨S100000x128, .f32⟩ : BufTy).Contents (Elt F)),
    StableHlo.binary main_v46 main_arg6 main_v47 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    StableHlo.unary main_arg7 main_v48 (broadcastInDim S1x64 ![1] bcast_S64_S1x64_1 : (⟨S64, .f32⟩ : BufTy).Contents (Elt F) → (⟨S1x64, .f32⟩ : BufTy).Contents (Elt F)),
    StableHlo.unary main_v48 main_v49 (broadcastInDim S100000x64 ![0, 1] bcast_S1x64_S100000x64_0_1 : (⟨S1x64, .f32⟩ : BufTy).Contents (Elt F) → (⟨S100000x64, .f32⟩ : BufTy).Contents (Elt F)),
    StableHlo.binary main_v47 main_v49 main_v50 (addf : (⟨S100000x64, .f32⟩ : BufTy).Contents (Elt F) → (⟨S100000x64, .f32⟩ : BufTy).Contents (Elt F) → (⟨S100000x64, .f32⟩ : BufTy).Contents (Elt F)),
    StableHlo.nullary main_cst_7 (constant S_ .f32 0x00000000#32),
    StableHlo.binary main_v50 main_cst_7 main_v51 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    StableHlo.nullary main_cst_8 (constant S_ .f32 0x47C35000#32),
    StableHlo.unary main_cst_8 main_v52 (broadcastInDim S64 ![] bcast_S_S64 : (⟨S_, .f32⟩ : BufTy).Contents (Elt F) → (⟨S64, .f32⟩ : BufTy).Contents (Elt F)),
    StableHlo.binary main_v51 main_v52 main_v53 (Host.divf : (⟨S64, .f32⟩ : BufTy).Contents (Elt F) → (⟨S64, .f32⟩ : BufTy).Contents (Elt F) → (⟨S64, .f32⟩ : BufTy).Contents (Elt F)),
    StableHlo.nullary main_c_9 (constantI S_ 32 0#32),
    StableHlo.TRef.nullary main_call2.cst (constant S_ .f32 0x00000000#32),
    StableHlo.TRef.binary (.of main_v50) main_call2.cst main_call2.v0 (fun x v => Host.reduceAdd x v reducesTo_S100000x64_S64_d0 h_S_),
    StableHlo.TRef.unary main_call2.v0 main_call2.v1 (broadcastInDim S1x64 ![1] bcast_S64_S1x64_1),
    StableHlo.TRef.nullary main_call2.cst_0 (constant S_ .f32 0x47C35000#32),
    StableHlo.TRef.unary main_call2.cst_0 main_call2.v2 (broadcastInDim S1x64 ![] bcast_S_S1x64),
    StableHlo.TRef.binary main_call2.v1 main_call2.v2 main_call2.v3 Host.divf,
    StableHlo.TRef.unary main_call2.v3 main_call2.v4 (broadcastInDim S100000x64 ![0, 1] bcast_S1x64_S100000x64_0_1),
    StableHlo.TRef.binary (.of main_v50) main_call2.v4 main_call2.v5 subf,
    StableHlo.TRef.binary main_call2.v5 main_call2.v5 main_call2.v6 mulf,
    StableHlo.TRef.unary (.of main_c_9) main_call2.v7 (sitofp .f32),
    StableHlo.TRef.nullary main_call2.cst_1 (constant S_ .f32 0x47C35000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S100000x64_S64_d0 h_S_),
    StableHlo.TRef.unary main_call2.v8 main_call2.v10 (broadcastInDim S64 ![] bcast_S_S64),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S64 ![] bcast_S_S64),
    StableHlo.TRef.ternary main_call2.v12 main_call2.v11 main_call2.call0.v1 main_call2.call0.v2 (fun p a b => select (broadcastInDim S64 ![] bcast_S_S64 p) a b),
    StableHlo.unary main_v53 main_v55 (broadcastInDim S1x64 ![1] bcast_S64_S1x64_1 : (⟨S64, .f32⟩ : BufTy).Contents (Elt F) → (⟨S1x64, .f32⟩ : BufTy).Contents (Elt F)),
    StableHlo.unary main_v55 main_v56 (broadcastInDim S100000x64 ![0, 1] bcast_S1x64_S100000x64_0_1 : (⟨S1x64, .f32⟩ : BufTy).Contents (Elt F) → (⟨S100000x64, .f32⟩ : BufTy).Contents (Elt F)),
    StableHlo.binary main_v50 main_v56 main_v57 (subf : (⟨S100000x64, .f32⟩ : BufTy).Contents (Elt F) → (⟨S100000x64, .f32⟩ : BufTy).Contents (Elt F) → (⟨S100000x64, .f32⟩ : BufTy).Contents (Elt F)),
    StableHlo.nullary main_cst_10 (constant S_ .f32 0x3727C5AC#32),
    StableHlo.unary main_cst_10 main_v58 (broadcastInDim S64 ![] bcast_S_S64 : (⟨S_, .f32⟩ : BufTy).Contents (Elt F) → (⟨S64, .f32⟩ : BufTy).Contents (Elt F)),
    StableHlo.binary main_v54 main_v58 main_v59 (addf : (⟨S64, .f32⟩ : BufTy).Contents (Elt F) → (⟨S64, .f32⟩ : BufTy).Contents (Elt F) → (⟨S64, .f32⟩ : BufTy).Contents (Elt F)),
    StableHlo.unary main_v59 main_v60 (Host.rsqrt : (⟨S64, .f32⟩ : BufTy).Contents (Elt F) → (⟨S64, .f32⟩ : BufTy).Contents (Elt F)),
    StableHlo.unary main_v60 main_v61 (broadcastInDim S1x64 ![1] bcast_S64_S1x64_1 : (⟨S64, .f32⟩ : BufTy).Contents (Elt F) → (⟨S1x64, .f32⟩ : BufTy).Contents (Elt F)),
    StableHlo.unary main_v61 main_v62 (broadcastInDim S100000x64 ![0, 1] bcast_S1x64_S100000x64_0_1 : (⟨S1x64, .f32⟩ : BufTy).Contents (Elt F) → (⟨S100000x64, .f32⟩ : BufTy).Contents (Elt F)),
    StableHlo.binary main_v57 main_v62 main_v63 (mulf : (⟨S100000x64, .f32⟩ : BufTy).Contents (Elt F) → (⟨S100000x64, .f32⟩ : BufTy).Contents (Elt F) → (⟨S100000x64, .f32⟩ : BufTy).Contents (Elt F)),
    StableHlo.unary main_arg8 main_v64 (broadcastInDim S1x64 ![1] bcast_S64_S1x64_1 : (⟨S64, .f32⟩ : BufTy).Contents (Elt F) → (⟨S1x64, .f32⟩ : BufTy).Contents (Elt F)),
    StableHlo.unary main_v64 main_v65 (broadcastInDim S100000x64 ![0, 1] bcast_S1x64_S100000x64_0_1 : (⟨S1x64, .f32⟩ : BufTy).Contents (Elt F) → (⟨S100000x64, .f32⟩ : BufTy).Contents (Elt F)),
    StableHlo.binary main_v63 main_v65 main_v66 (mulf : (⟨S100000x64, .f32⟩ : BufTy).Contents (Elt F) → (⟨S100000x64, .f32⟩ : BufTy).Contents (Elt F) → (⟨S100000x64, .f32⟩ : BufTy).Contents (Elt F)),
    StableHlo.unary main_arg9 main_v67 (broadcastInDim S1x64 ![1] bcast_S64_S1x64_1 : (⟨S64, .f32⟩ : BufTy).Contents (Elt F) → (⟨S1x64, .f32⟩ : BufTy).Contents (Elt F)),
    StableHlo.unary main_v67 main_v68 (broadcastInDim S100000x64 ![0, 1] bcast_S1x64_S100000x64_0_1 : (⟨S1x64, .f32⟩ : BufTy).Contents (Elt F) → (⟨S100000x64, .f32⟩ : BufTy).Contents (Elt F)),
    StableHlo.binary main_v66 main_v68 main_v69 (addf : (⟨S100000x64, .f32⟩ : BufTy).Contents (Elt F) → (⟨S100000x64, .f32⟩ : BufTy).Contents (Elt F) → (⟨S100000x64, .f32⟩ : BufTy).Contents (Elt F)) ]

set_option maxRecDepth 8192 in
set_option maxHeartbeats 4000000 in
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., binary_bufs_sub .., binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., binary_bufs_sub .., binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., binary_bufs_sub .., binary_bufs_sub .., unary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub ..⟩

/-! ## The values -/

set_option maxRecDepth 16384 in
set_option maxHeartbeats 8000000 in
/-- The fold of the operations at the result buffer is `refOut` of the contents of the ten argument
    buffers: each operation's result rewritten at its own buffer, in one pass; what is left differs from
    `refOut`'s unfolding only by the identity transports of the calls' typed references. -/
theorem out_eq (V : Valuation τ sig (Elt Ideal)) :
    after (ops (F := Ideal)) V (main_v69 : DevRef τ sig) = refOut (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) := by
  after_results_simp
  rfl

set_option maxRecDepth 16384 in
set_option maxHeartbeats 8000000 in
/-- No operation writes an argument buffer. -/
theorem args_eq (V : Valuation τ sig (Elt Ideal)) :
    after (ops (F := Ideal)) V (main_arg0 : DevRef τ sig) = V (main_arg0 : DevRef τ sig)
    ∧ after (ops (F := Ideal)) V (main_arg1 : DevRef τ sig) = V (main_arg1 : DevRef τ sig)
    ∧ after (ops (F := Ideal)) V (main_arg2 : DevRef τ sig) = V (main_arg2 : DevRef τ sig)
    ∧ after (ops (F := Ideal)) V (main_arg3 : DevRef τ sig) = V (main_arg3 : DevRef τ sig)
    ∧ after (ops (F := Ideal)) V (main_arg4 : DevRef τ sig) = V (main_arg4 : DevRef τ sig)
    ∧ after (ops (F := Ideal)) V (main_arg5 : DevRef τ sig) = V (main_arg5 : DevRef τ sig)
    ∧ after (ops (F := Ideal)) V (main_arg6 : DevRef τ sig) = V (main_arg6 : DevRef τ sig)
    ∧ after (ops (F := Ideal)) V (main_arg7 : DevRef τ sig) = V (main_arg7 : DevRef τ sig)
    ∧ after (ops (F := Ideal)) V (main_arg8 : DevRef τ sig) = V (main_arg8 : DevRef τ sig)
    ∧ after (ops (F := Ideal)) V (main_arg9 : DevRef τ sig) = V (main_arg9 : DevRef τ sig) := by
  refine ⟨?_, ?_, ?_, ?_, ?_, ?_, ?_, ?_, ?_, ?_⟩ <;> after_results_simp

/-! ## The run -/

set_option maxRecDepth 16384 in
set_option maxHeartbeats 8000000 in
/-- On every device, from any memory with zero counters: every weakly fair execution of @main terminates
    with the result buffer at `refOut` of the arguments' launch contents and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v69) = refOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run (defs (F := Ideal)) _ _).mono (fun _ h c =>
      have ha := args_eq (launchContents m c)
      ⟨(h c main_v69).trans (out_eq (launchContents m c)),
       (h c main_arg0).trans ha.1, (h c main_arg1).trans ha.2.1, (h c main_arg2).trans ha.2.2.1,
       (h c main_arg3).trans ha.2.2.2.1, (h c main_arg4).trans ha.2.2.2.2.1, (h c main_arg5).trans ha.2.2.2.2.2.1,
       (h c main_arg6).trans ha.2.2.2.2.2.2.1, (h c main_arg7).trans ha.2.2.2.2.2.2.2.1,
       (h c main_arg8).trans ha.2.2.2.2.2.2.2.2.1, (h c main_arg9).trans ha.2.2.2.2.2.2.2.2.2⟩)
    (run_seq scopedRefs_eq scopedSems_eq (defs (F := Ideal)) (main (F := Ideal)) (fun _ => ops) main_eq (fun _ => ops_sub) m ρ)

end Cert.ReferenceIdeal.RefRun

end
-- ==== Proof.FiniteInputs.lean ====
/-
  From the finiteness precondition to "every entry of every float input is a real number".

  The precondition is a rank-0 one-bit array: the conjunction, over the nine float inputs a, of "every entry of |a| is
  strictly below +∞", each conjunct an and-reduction over all axes, started at 1, of the entrywise comparison of |a| with
  the splat of the f32 pattern 0x7F800000. Read over the extended reals that pattern is ⊤ and |x| is max x (−x), so the
  comparison holds at an entry x exactly when x < ⊤ and −x < ⊤, that is when x is neither ⊤ nor ⊥: x is a real number.
  An and-reduction that comes out 1 met a 1 at every entry, and an "and" of two bits is 1 exactly when both are. So the
  precondition being the constant 1 gives, for each float input and each index, a real number the entry equals. The one
  integer input takes no part.
-/
import proofs.«133921_j77558519431976_2_alg».proof.Pre_finite_inputs
import Idealize.ShloMosaic.PureOps.Ideal
import Idealize.ShloMosaic.Lib.ReduceAll
import Idealize.ShloMosaic.Lib.ValueIdx

noncomputable section

namespace Cert.FiniteInputs

open Idealize.ShloMosaic Cert.Pre_finite_inputs

/-- A rank-0 shape has exactly one index: an index is a function out of the empty set of axes. -/
instance subsingleton_S_Idx : Subsingleton S_.Idx := ⟨fun a b => funext fun d => d.elim0⟩

/-- The one-bit word of a Boolean is 1 exactly when the Boolean is true. -/
theorem ofBool_eq_one (b : Bool) : BitVec.ofBool b = 1#1 ↔ b = true := by cases b <;> decide

/-- The f32 pattern 0x7F800000 (sign 0, exponent all ones, mantissa 0) denotes +∞. -/
theorem inf_pattern : Ideal.ofBits .f32 0x7F800000#32 = (⊤ : EReal) := by
  simp [Ideal.ofBits, Ideal.ieee]

/-- An extended real whose absolute value max x (−x) is below ⊤ is a real number: ⊤ fails by x = ⊤, ⊥ by −x = ⊤. -/
theorem real_of_abs_lt_top (x : EReal) (h : max x (-x) < (⊤ : EReal)) : ∃ r : ℝ, x = (r : EReal) := by
  induction x using EReal.rec with
  | bot => simp at h
  | coe r => exact ⟨r, rfl⟩
  | top => simp at h

/-- One entry: the comparison |x| < (pattern 0x7F800000) answering 1 says x is a real number. -/
theorem real_of_cmp (x : Ideal .f32)
    (h : FloatOps.cmpf (F := Ideal) .olt (FloatOps.hostAbsf x) (FloatOps.ofBits .f32 0x7F800000#32) = 1#1) :
    ∃ r : ℝ, x = (r : EReal) := by
  apply real_of_abs_lt_top
  have h' : Ideal.cmp .olt (max x (-x)) (Ideal.ofBits .f32 0x7F800000#32) = 1#1 := h
  rw [inf_pattern] at h'
  unfold Ideal.cmp at h'
  rw [ofBool_eq_one] at h'
  exact of_decide_eq_true h'

/-- One input array of any shape: if the and-reduction over all axes of "|x| < +∞ entrywise", started at 1, is 1 at the
    one index of the rank-0 result, then every entry of x is a real number. The index i stays generic: nothing
    enumerates the array. -/
theorem real_of_all {s : Shape} {axes : List (Fin s.rank)} (x : FVec Ideal s .f32)
    (hb : S_.BroadcastsInDim s (![] : Fin 0 → Fin s.rank)) (hr : s.ReducesTo axes S_) (hu : 0 < S_.numel)
    (j : S_.Idx)
    (e : Host.reduce IntOp.andi
          (cmpf .olt (Host.absf x) (broadcastInDim s ![] hb (constant (F := Ideal) S_ .f32 0x7F800000#32)))
          (constantI S_ 1 1#1) hr hu j = 1#1) :
    ∀ i, ∃ r : ℝ, x i = (r : EReal) := fun i =>
  real_of_cmp (x i) (Host.reduce_andi_all _ _ hr hu j e i)

/-- The precondition decoded: if the finiteness predicate of the ten inputs is the constant 1, then every entry of each of
    the nine float inputs is a real number (the integer input a1 is not constrained). The predicate at its one index is
    a left-nested "and" of nine and-reductions; it is 1 exactly when each of the nine is. -/
theorem real_of_pre [Cert.Pre_finite_inputs.Facts]
    (a0 : FVec Ideal S100000x128 .f32) (a1 : IVec S2x1600000 32) (a2 : FVec Ideal S128x128 .f32)
    (a3 : FVec Ideal S128 .f32) (a4 : FVec Ideal S128x128 .f32) (a5 : FVec Ideal S128 .f32)
    (a6 : FVec Ideal S128x64 .f32) (a7 : FVec Ideal S64 .f32) (a8 : FVec Ideal S64 .f32)
    (a9 : FVec Ideal S64 .f32)
    (h : Cert.Pre_finite_inputs.fn (F := Ideal) a0 a1 a2 a3 a4 a5 a6 a7 a8 a9 = fun _ => 1#1) :
    (∀ i, ∃ r : ℝ, a0 i = (r : EReal)) ∧ (∀ i, ∃ r : ℝ, a2 i = (r : EReal)) ∧
    (∀ i, ∃ r : ℝ, a3 i = (r : EReal)) ∧ (∀ i, ∃ r : ℝ, a4 i = (r : EReal)) ∧
    (∀ i, ∃ r : ℝ, a5 i = (r : EReal)) ∧ (∀ i, ∃ r : ℝ, a6 i = (r : EReal)) ∧
    (∀ i, ∃ r : ℝ, a7 i = (r : EReal)) ∧ (∀ i, ∃ r : ℝ, a8 i = (r : EReal)) ∧
    (∀ i, ∃ r : ℝ, a9 i = (r : EReal)) := by
  have e := congrFun h ValueIdx.ix0
  dsimp only [fn, fn_part1, fn_part2, andi] at e
  simp only [IntOp.andi_eq_one] at e
  obtain ⟨⟨⟨⟨⟨⟨⟨⟨e0, e2⟩, e3⟩, e4⟩, e5⟩, e6⟩, e7⟩, e8⟩, e9⟩ := e
  exact ⟨real_of_all a0 _ _ _ _ e0, real_of_all a2 _ _ _ _ e2, real_of_all a3 _ _ _ _ e3,
    real_of_all a4 _ _ _ _ e4, real_of_all a5 _ _ _ _ e5, real_of_all a6 _ _ _ _ e6,
    real_of_all a7 _ _ _ _ e7, real_of_all a8 _ _ _ _ e8, real_of_all a9 _ _ _ _ e9⟩

end Cert.FiniteInputs
-- ==== Proof.lean ====
/-
  A three-layer graph network with batch normalisation, computed in two orders.

  Both programs take node features X (100000 × 128), an edge list, three weight matrices with biases and a scale and
  shift. A layer sends features H to (H + N H) · W + b, where N H puts in each node's row the sum of the rows of its
  in-neighbours; the first two layers end in max(·, 0). The third layer's output is normalised column by column with
  its own mean and variance. The reference does just this on the host. The kernel's program projects first — Y = H · W
  by a tiled matrix-product region — and then forms Y + N Y + b on the host; its last region applies the
  normalisation to blocks of rows.

  On the extended reals the two orders agree as soon as every entry is a real number: the product acts on each row
  separately and distributes over the finite sum of neighbour rows. The precondition makes every float input real, and
  sums, products and maxima keep entries real through the layers. The statistics and the normalisation are the same
  operations of the same third-layer output on both sides.

  The parts: Proof/KRun (the kernel program's run with its result named at the last boundary), Proof/KRegion0–3 (each
  region's output array as one function of the arrays it finds), Proof/KWalk and Proof/KChain (the result buffer as a
  function of the ten arguments), Proof/RefStages and Proof/RefRun (the reference's run and its result as a function of
  the ten arguments), Proof/FiniteInputs (the precondition read as "every entry is real"), Proof/LibRowAggLinear,
  Proof/BridgeLayer and Proof/BridgeBN (the two orders give one array). The frames of the two kernel programs are the
  generated frame certificates; the reference's frame is its run with the result dropped; the ideal pass rewrote
  nothing, so its claim is trivial.
-/
import proofs.«133921_j77558519431976_2_alg».proof.Defs
import proofs.«133921_j77558519431976_2_alg».proof.Proof.Gen.Kernel
import proofs.«133921_j77558519431976_2_alg».proof.Proof.Gen.Kernel.Frame
import proofs.«133921_j77558519431976_2_alg».proof.Proof.Gen.KernelIdeal
import proofs.«133921_j77558519431976_2_alg».proof.Proof.Gen.KernelIdeal.Frame
import proofs.«133921_j77558519431976_2_alg».proof.Proof.Gen.ReferenceIdeal
import proofs.«133921_j77558519431976_2_alg».proof.Proof.Gen.Pre_finite_inputs
import proofs.«133921_j77558519431976_2_alg».proof.Proof.KRun
import proofs.«133921_j77558519431976_2_alg».proof.Proof.KChain
import proofs.«133921_j77558519431976_2_alg».proof.Proof.BridgeLayer
import proofs.«133921_j77558519431976_2_alg».proof.Proof.RefRun
import proofs.«133921_j77558519431976_2_alg».proof.Proof.FiniteInputs
import Idealize.ShloMosaic.Adequacy
import Idealize.ShloMosaic.Init

set_option maxRecDepth 16384

noncomputable section

namespace Cert.Proof

open Idealize.ShloMosaic Idealize.SL.Sem

/-- The kernel's program, as printed, runs and keeps its arguments. -/
theorem frame_k : Cert.frame_Kernel := fun m ρ _ => Cert.Kernel.Gen.frame m ρ

/-- The idealized kernel's program runs and keeps its arguments. -/
theorem frame_ki : Cert.frame_KernelIdeal := fun m ρ _ => Cert.KernelIdeal.Gen.frame m ρ

/-- The idealized reference runs and keeps its arguments: its run, the result dropped. -/
theorem frame_ri : Cert.frame_ReferenceIdeal := fun m ρ _ =>
  (θ_run Cert.ReferenceIdeal.defs _ _).mono (fun _ h c => (h c).2) (Cert.ReferenceIdeal.RefRun.run m ρ)

/-- From memories agreeing on the ten arguments, the inputs being real, both programs end with the reference's
    function of the arguments in their result buffers. -/
theorem algebraic : Cert.algebraic_KernelIdeal_ReferenceIdeal := by
  intro m ρ m' ρ' hpre hagree
  refine ⟨fun c => Cert.ReferenceIdeal.RefRun.refOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · refine (θ_run Cert.KernelIdeal.defs _ _).mono (fun r h c => ⟨(h c).1.trans ?_, (h c).2⟩) (Cert.KernelIdeal.KVal.run_value m ρ)
    obtain ⟨r0, r2, r3, r4, r5, r6, -, -, -⟩ := Cert.FiniteInputs.real_of_pre _ _ _ _ _ _ _ _ _ _ (hpre c)
    exact (Cert.KernelIdeal.KVal.kernel_value m ρ c).trans (Cert.Bridge.kernel_eq_ref _ _ _ _ _ _ _ _ _ _ r0 r2 r3 r4 r5 r6)
  · refine (θ_run Cert.ReferenceIdeal.defs _ _).mono (fun r h c => ⟨(h c).1.trans ?_, (h c).2⟩) (Cert.ReferenceIdeal.RefRun.run m' ρ')
    obtain ⟨e0, e1, e2, e3, e4, e5, e6, e7, e8, e9⟩ := hagree c
    rw [e0, e1, e2, e3, e4, e5, e6, e7, e8, e9]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
